-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S2x2048x1024 .f32) (main_arg1 : FVec F S3072x1024 .f32) (main_arg2 : FVec F S3072 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S2x2048x1024 : Shape := ⟨3, ![2, 2048, 1024]⟩
abbrev S3072x1024 : Shape := ⟨2, ![3072, 1024]⟩
abbrev S3072 : Shape := ⟨1, ![3072]⟩
abbrev S4096x1024 : Shape := ⟨2, ![4096, 1024]⟩
abbrev S1024x3072 : Shape := ⟨2, ![1024, 3072]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S1x512x128 : Shape := ⟨3, ![1, 512, 128]⟩
abbrev S512x128 : Shape := ⟨2, ![512, 128]⟩
abbrev S512x512 : Shape := ⟨2, ![512, 512]⟩
abbrev S1x512x64 : Shape := ⟨3, ![1, 512, 64]⟩
abbrev S512x64 : Shape := ⟨2, ![512, 64]⟩

abbrev nBuf : Space → Nat
  | .hbm => 10
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S4096x1024, .f32⟩
  | .hbm, ⟨4, _⟩ => ⟨S1024x3072, .f32⟩
  | .hbm, ⟨5, _⟩ => ⟨S1024x3072, .bf16⟩
  | .hbm, ⟨6, _⟩ => ⟨S1x3072, .f32⟩
  | .hbm, ⟨7, _⟩ => ⟨S4096x3072, .bf16⟩
  | .hbm, ⟨8, _⟩ => ⟨S2x2048x3072, .bf16⟩
  | .hbm, ⟨9, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .f32⟩
  | .local _ .vmem, ⟨13, _⟩ => ⟨S1x512x128, .f32⟩
  | .local _ .vmem, ⟨14, _⟩ => ⟨S512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![16, 4, 4], ![false, false, false]⟩

def k1_cond3 (i : grid1.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.minsi arg2 arg1
  let c8_i32_10 : BitVec 32 := 8#32
  let v28 : BitVec 32 := Scalar.addi c8_i32_10 v26
  let c0_i32_11 : BitVec 32 := 0#32
  ![v16.toNat, v27.toNat, v28.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let v27 : BitVec 32 := Scalar.minsi arg2 arg1
  let c16_i32 : BitVec 32 := 16#32
  let v28 : BitVec 32 := Scalar.addi c16_i32 v26
  let c0_i32_10 : BitVec 32 := 0#32
  ![v16.toNat, v27.toNat, v28.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S2x2048x1024_S4096x1024 : S2x2048x1024.ShapeCasts S4096x1024
  transposes_S3072x1024_S1024x3072_1_0 : S3072x1024.Transposes [1, 0] S1024x3072
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3072 : S4096x3072.ShapeCasts S2x2048x3072
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S512x512_d0_w32 : S512x512.Iotas .tc 32 [0]
  iota_S512x512_d1_w32 : S512x512.Iotas .tc 32 [1]
  inb_S1x512x128_S1x512x64_0_0_0 : ∀ a, (![0, 0, 0] : Fin 3 → Nat) a + S1x512x64.size a ≤ S1x512x128.size a
  h_S1x512x64 : 0 < S1x512x64.numel
  shapeCasts_S1x512x64_S512x64 : S1x512x64.ShapeCasts S512x64
  inb_S512x128_S512x64_0_0 : ∀ a, (![0, 0] : Fin 2 → Nat) a + S512x64.size a ≤ S512x128.size a
  h_S512x64 : 0 < S512x64.numel
  shapeCasts_S512x64_S512x64 : S512x64.ShapeCasts S512x64
  inb_S1x512x128_S1x512x64_0_0_64 : ∀ a, (![0, 0, 64] : Fin 3 → Nat) a + S1x512x64.size a ≤ S1x512x128.size a
  inb_S512x128_S512x64_0_64 : ∀ a, (![0, 64] : Fin 2 → Nat) a + S512x64.size a ≤ S512x128.size a
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  dot_S512x1024_S1024x3072_S512x3072_1_0_0_1_n_n_wf : DotDims.WF S512x1024 S1024x3072 S512x3072 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S2x2048x3072.size a
  hwx1_0 : ∀ i : grid1.Coords, EltTy.bits .bf16 = 32 ∨ (Rect.block (s := S2x2048x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S2x2048x3072.size a
  hwx1_1 : ∀ i : grid1.Coords, EltTy.bits .bf16 = 32 ∨ (Rect.block (s := S2x2048x3072) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S2x2048x3072.size a
  hwx1_2 : ∀ i : grid1.Coords, EltTy.bits .bf16 = 32 ∨ (Rect.block (s := S2x2048x3072) S1x512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x128.size a ≤ S2x2048x1024.size a
  hwx1_3 : ∀ i : grid1.Coords, EltTy.bits .f32 = 32 ∨ (Rect.block (s := S2x2048x1024) S1x512x128.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S2x2048x3072 : Shape := ⟨3, ![2, 2048, 3072]⟩
abbrev S1x1x3072 : Shape := ⟨3, ![1, 1, 3072]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2048x2048 : Shape := ⟨2, ![2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S2x2048x3072, .f32⟩
  | .hbm, ⟨4, _⟩ => ⟨S1x1x3072, .f32⟩
  | .hbm, ⟨5, _⟩ => ⟨S2x2048x3072, .f32⟩
  | .hbm, ⟨6, _⟩ => ⟨S2x2048x3072, .f32⟩
  | .hbm, ⟨7, _⟩ => ⟨S2x2048x1024, .f32⟩
  | .hbm, ⟨8, _⟩ => ⟨S2x2048x1024, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x16x64, .f32⟩
  | .hbm, ⟨13, _⟩ => ⟨S2x16x2048x64, .f32⟩
  | .hbm, ⟨14, _⟩ => ⟨S2x2048x16x64, .f32⟩
  | .hbm, ⟨15, _⟩ => ⟨S2x16x2048x64, .f32⟩
  | .hbm, ⟨16, _⟩ => ⟨S2x16x2048x2048, .f32⟩
  | .hbm, ⟨17, _⟩ => ⟨S_, .f32⟩
  | .hbm, ⟨18, _⟩ => ⟨S2x16x2048x2048, .f32⟩
  | .hbm, ⟨19, _⟩ => ⟨S2x16x2048x2048, .f32⟩
  | .hbm, ⟨20, _⟩ => ⟨S_, .i1⟩
  | .hbm, ⟨21, _⟩ => ⟨S2048x2048, .i1⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S_, .f32⟩
  | .hbm, ⟨36, _⟩ => ⟨S2x16x2048x2048, .i1⟩
  | .hbm, ⟨37, _⟩ => ⟨S2x16x2048x2048, .f32⟩
  | .hbm, ⟨38, _⟩ => ⟨S2x16x2048x2048, .f32⟩
  | .hbm, ⟨39, _⟩ => ⟨S2x16x2048x64, .f32⟩
  | .hbm, ⟨40, _⟩ => ⟨S2x2048x16x64, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_0 : Ref sig .tc := ⟨.hbm, 28, rfl⟩
abbrev main_call0_v5 : Ref sig .tc := ⟨.hbm, 29, rfl⟩
abbrev main_v17 : Ref sig .tc := ⟨.hbm, 30, rfl⟩
abbrev main_call1_cst : Ref sig .tc := ⟨.hbm, 31, rfl⟩
abbrev main_call1_v0 : Ref sig .tc := ⟨.hbm, 32, rfl⟩
abbrev main_v18 : Ref sig .tc := ⟨.hbm, 33, rfl⟩
abbrev main_cst_0 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  slices_S2x2048x3072_S2x2048x1024_0_0_0 : S2x2048x3072.Slices ![0, 0, 0] S2x2048x1024
  slices_S2x2048x3072_S2x2048x1024_0_0_1024 : S2x2048x3072.Slices ![0, 0, 1024] S2x2048x1024
  slices_S2x2048x3072_S2x2048x1024_0_0_2048 : S2x2048x3072.Slices ![0, 0, 2048] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S_S2048x2048 : S_.BroadcastsInDim S2048x2048 (![] : Fin 0 → Fin S2048x2048.rank)
  bcast_S2048x2048_S2x16x2048x2048_2_3 : S2048x2048.BroadcastsInDim S2x16x2048x2048 (![2, 3] : Fin 2 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KRegion0.lean ====
/-
  Region 0 of the program: the fused projection kernel, one grid point per block of 512 rows.

  At a parameter V — the buffers' contents when the region is entered — this file states what each window's staging
  buffer holds when the body is called at a grid point (its block of the window's array, fetched there or not), what the
  body leaves in the output window's buffer (the one whole-block store of the projection's arithmetic applied to the
  three input blocks), the body's triple, the pipeline's proof data and the body obligation at every point.
-/
import proofs.«108929_j43173011259799_2_alg».proof.Proof.Gen.Kernel.Launch
import proofs.«108929_j43173011259799_2_alg».proof.Proof.Gen.Kernel.Skeleton
import proofs.«108929_j43173011259799_2_alg».proof.Proof.Gen.Kernel.Points
import proofs.«108929_j43173011259799_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is V's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the whole weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the whole bias row, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the projection's
    arithmetic applied to the three blocks read whole. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at contents x0, x1, x2 and the output's at anything, runs to
    the continuation holding the inputs' as they were and the output's at out0_3 of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them; after the body at point t
    each input's buffer at its block and the output's at out0_3 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1Defs.lean ====
/-
  The attention region (the second kernel call), the part every case of its body shares.

  The grid is (p, qi, kv) = 16 × 4 × 4: p names a batch row and a pair of heads, qi a block of 512 query rows, kv a
  block of 512 key rows.  Windows 0, 1, 2 read the packed projection (one array, three windows: the query block, the key
  block and the value block of the head pair), window 3 is the result block, and a 512 × 128 scratch carries the running
  sum from one key block to the next.  The body has three conditionals on the coordinates: kv = 0 (reset the sum),
  kv ≤ qi (add this key block's contribution) and kv = 3 (store the sum into the result block).  Here: each window's
  block at a point, the three conditions in closed form over the point's number t = 16 p + 4 qi + kv (so t % 4 = kv
  and t / 4 % 4 = qi), and where the result window is idle.
-/
import proofs.«108929_j43173011259799_2_alg».proof.Proof.Gen.Kernel.Launch
import proofs.«108929_j43173011259799_2_alg».proof.Proof.Gen.Kernel.Skeleton
import proofs.«108929_j43173011259799_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's three conditions -/

/-- kv = 0: the running sum is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- kv · 512 < (qi + 1) · 512, that is kv ≤ qi: the key block meets the causal triangle of the query block. -/
abbrev cond1_1 (i : grid1.Coords) : Prop := (Scalar.cmpi .ne (Scalar.extui (Scalar.cmpi .slt (Scalar.muli (BitVec.ofNat 32 (i 2).val) 512#32) (Scalar.muli (Scalar.addi (BitVec.ofNat 32 (i 1).val) 1#32) 512#32))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- kv = 3: the last key block; the sum is stored into the result block. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the result window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where kv ≠ 3 the body stores nothing into the result block, -/
theorem idleAt1_3 : ∀ t : Fin cfg1.N, ¬cond1_2 (grid1.coords t) → cfg1.idle 3 (grid1.coords t) = true := by decide +kernel
/-- and the pipeline does not write it back there; -/
theorem noFlush1_3 : ∀ t : Fin cfg1.N, ¬cond1_2 (grid1.coords t) → (cfg1.win 3).flush t = false := by decide +kernel
/-- where kv = 3 it does store. -/
theorem liveAt1_3 : ∀ t : Fin cfg1.N, cond1_2 (grid1.coords t) → cfg1.idle 3 (grid1.coords t) = false := by decide +kernel

/-! ## The memrefs the body is called with -/

abbrev VO1_3 : View sig .tc .vmem S1x512x128 .f32 := (Memref.whole cc1_stg3_0 : Memref sig .tc .vmem S1x512x128 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- The scratch that carries the running sum. -/
abbrev scM1 : Memref sig .tc .vmem S512x128 .f32 := Memref.whole cc1_scratch0
abbrev VS1 : View sig .tc .vmem S512x128 .f32 := scM1.view

/-- The scoped buffers no window of this call stages, with the scratch named: the other call's staging buffers at
    anything, the scratch at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.KR1RunA.lean ====
/-
  The attention body in case A — kv = 0 (so kv ≤ qi) and kv ≠ 3: the sum is reset, then this key block's contribution is added; nothing is stored into the result block.
  The body runs on whole staging memrefs, the three inputs at their blocks; what each buffer it stores into ends with
  is a list of stored pieces, last first.
-/
import proofs.«108929_j43173011259799_2_alg».proof.Proof.KR1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the pieces the result block (`L3`) and the scratch (`LS0`) end with, and the body's triple. -/
noncomputable def kernelRun1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨[], ?_, fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KR1RunB.lean ====
/-
  The attention body in case B — 0 < kv ≤ qi and kv ≠ 3: this key block's contribution is added to the carried sum; nothing is stored into the result block.
  The body runs on whole staging memrefs, the three inputs at their blocks; what each buffer it stores into ends with
  is a list of stored pieces, last first.
-/
import proofs.«108929_j43173011259799_2_alg».proof.Proof.KR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the pieces the result block (`L3`) and the scratch (`LS0`) end with, and the body's triple. -/
noncomputable def kernelRun1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨[], ?_, fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KR1RunC.lean ====
/-
  The attention body in case C — kv = 3 = qi: the last contribution is added and the sum is stored into the result block.
  The body runs on whole staging memrefs, the three inputs at their blocks; what each buffer it stores into ends with
  is a list of stored pieces, last first.
-/
import proofs.«108929_j43173011259799_2_alg».proof.Proof.KR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the pieces the result block (`L3`) and the scratch (`LS0`) end with, and the body's triple. -/
noncomputable def kernelRun1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨?_, ?_, fun E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KR1RunD.lean ====
/-
  The attention body in case D — qi < kv < 3: the key block lies wholly above the diagonal; nothing is read or stored, the carried sum stays.
  The body runs on whole staging memrefs, the three inputs at their blocks; what each buffer it stores into ends with
  is a list of stored pieces, last first.
-/
import proofs.«108929_j43173011259799_2_alg».proof.Proof.KR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: the pieces the result block (`L3`) and the scratch (`LS0`) end with, and the body's triple. -/
noncomputable def kernelRun1_D (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : ¬cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0) -∗ K ⟨⟩))
          ⊢ wp frame (wpE (defs₀ (F := F)) Variants.none c none) E (cc1__causal_relu_attn_kernel i arg3 harg3 arg4 harg4 arg5 harg5 arg6 harg6 arg7 harg7) K } := by
  refine ⟨[], [], fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; · ipureintro; exact harg7.read_unread _
    iexact HS0

end Cert.Kernel.Hand

end
-- ==== Proof.KR1RunE.lean ====
/-
  The attention body in case E — qi < kv = 3: nothing is added; the carried sum is stored into the result block.
  The body runs on whole staging memrefs, the three inputs at their blocks; what each buffer it stores into ends with
  is a list of stored pieces, last first.
-/
import proofs.«108929_j43173011259799_2_alg».proof.Proof.KR1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: the pieces the result block (`L3`) and the scratch (`LS0`) end with, and the body's triple. -/
noncomputable def kernelRun1_E (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0) -∗ K ⟨⟩))
          ⊢ wp frame (wpE (defs₀ (F := F)) Variants.none c none) E (cc1__causal_relu_attn_kernel i arg3 harg3 arg4 harg4 arg5 harg5 arg6 harg6 arg7 harg7) K } := by
  refine ⟨?_, [], fun E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; isplitr; · ipureintro; exact harg7.read_unread _
    iexact HS0

end Cert.Kernel.Hand

end
-- ==== Proof.KR1Frame.lean ====
/-
  The attention region's proof data and its body obligation.

  After point t the scratch holds the running sum for the query block of t over the key blocks up to t's: reset and
  first contribution at kv = 0, one more contribution while kv ≤ qi, unchanged once kv > qi.  The result block is
  stored at kv = 3 only (from the sum, after that point's contribution if it has one); at the other points the result
  window is idle and is not written back.  The three input windows read one array, each holding it at its own share.
-/
import proofs.«108929_j43173011259799_2_alg».proof.Proof.KR1RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the two half pieces stored into the scratch tile it. -/
theorem scover1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) (y : S512x128.Idx) :
    ∃ pc ∈ (kernelRun1_A c i arg3 harg3 arg4 harg4 arg5 harg5 arg6 harg6 arg7 harg7 hc0 hc1 hc2 x0 x1 x2).2.1, y ∈ pc.1.set := by
  obtain ⟨pc, hpc, hy⟩ := View.cover_of_tiledL ((kernelRun1_A c i arg3 harg3 arg4 harg4 arg5 harg5 arg6 harg6 arg7 harg7 hc0 hc1 hc2 x0 x1 x2).2.1.take 2) S512x64.size (by sl_kernel_rfl) y
  exact ⟨pc, List.mem_of_mem_take hpc, hy⟩

/-- What case A leaves in the scratch: its pieces read back. -/
def sout1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) : Vec F S512x128 .f32 :=
  VS1.read (Elt F) (VS1.writes (Elt F) VS1.junk (kernelRun1_A c i arg3 harg3 arg4 harg4 arg5 harg5 arg6 harg6 arg7 harg7 hc0 hc1 hc2 x0 x1 x2).2.1)

/-- Case B: the two half pieces stored into the scratch tile it. -/
theorem scover1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) (y : S512x128.Idx) :
    ∃ pc ∈ (kernelRun1_B c i arg3 harg3 arg4 harg4 arg5 harg5 arg6 harg6 arg7 harg7 hc0 hc1 hc2 x0 x1 x2 xs0).2.1, y ∈ pc.1.set := by
  obtain ⟨pc, hpc, hy⟩ := View.cover_of_tiledL ((kernelRun1_B c i arg3 harg3 arg4 harg4 arg5 harg5 arg6 harg6 arg7 harg7 hc0 hc1 hc2 x0 x1 x2 xs0).2.1) S512x64.size (by sl_kernel_rfl) y
  exact ⟨pc, hpc, hy⟩

/-- What case B leaves in the scratch: its pieces read back. -/
def sout1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) : Vec F S512x128 .f32 :=
  VS1.read (Elt F) (VS1.writes (Elt F) VS1.junk (kernelRun1_B c i arg3 harg3 arg4 harg4 arg5 harg5 arg6 harg6 arg7 harg7 hc0 hc1 hc2 x0 x1 x2 xs0).2.1)

/-- Case C: the two half pieces stored into the scratch tile it. -/
theorem scover1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) (y : S512x128.Idx) :
    ∃ pc ∈ (kernelRun1_C c i arg3 harg3 arg4 harg4 arg5 harg5 arg6 harg6 arg7 harg7 hc0 hc1 hc2 x0 x1 x2 xs0).2.1, y ∈ pc.1.set := by
  obtain ⟨pc, hpc, hy⟩ := View.cover_of_tiledL ((kernelRun1_C c i arg3 harg3 arg4 harg4 arg5 harg5 arg6 harg6 arg7 harg7 hc0 hc1 hc2 x0 x1 x2 xs0).2.1) S512x64.size (by sl_kernel_rfl) y
  exact ⟨pc, hpc, hy⟩

/-- What case C leaves in the scratch: its pieces read back. -/
def sout1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) : Vec F S512x128 .f32 :=
  VS1.read (Elt F) (VS1.writes (Elt F) VS1.junk (kernelRun1_C c i arg3 harg3 arg4 harg4 arg5 harg5 arg6 harg6 arg7 harg7 hc0 hc1 hc2 x0 x1 x2 xs0).2.1)

/-- Case C: the one store into the result block covers it. -/
theorem cover1_C_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) (y : S1x512x128.Idx) :
    ∃ pc ∈ (kernelRun1_C c i arg3 harg3 arg4 harg4 arg5 harg5 arg6 harg6 arg7 harg7 hc0 hc1 hc2 x0 x1 x2 xs0).1, y ∈ pc.1.set :=
  View.cover_of_tiledL (kernelRun1_C c i arg3 harg3 arg4 harg4 arg5 harg5 arg6 harg6 arg7 harg7 hc0 hc1 hc2 x0 x1 x2 xs0).1 S1x512x128.size (by sl_kernel_rfl) y

/-- What case C leaves in the result block: its piece read back. -/
def out1_C_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) : Vec F S1x512x128 .f32 :=
  VO1_3.read (Elt F) (VO1_3.writes (Elt F) VO1_3.junk (kernelRun1_C c i arg3 harg3 arg4 harg4 arg5 harg5 arg6 harg6 arg7 harg7 hc0 hc1 hc2 x0 x1 x2 xs0).1)

/-- Case E: the one store into the result block covers it. -/
theorem cover1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) (y : S1x512x128.Idx) :
    ∃ pc ∈ (kernelRun1_E c i arg3 harg3 arg4 harg4 arg5 harg5 arg6 harg6 arg7 harg7 hc0 hc1 hc2 x0 x1 x2 xs0).1, y ∈ pc.1.set :=
  View.cover_of_tiledL (kernelRun1_E c i arg3 harg3 arg4 harg4 arg5 harg5 arg6 harg6 arg7 harg7 hc0 hc1 hc2 x0 x1 x2 xs0).1 S1x512x128.size (by sl_kernel_rfl) y

/-- What case E leaves in the result block: its piece read back. -/
def out1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) : Vec F S1x512x128 .f32 :=
  VO1_3.read (Elt F) (VO1_3.writes (Elt F) VO1_3.junk (kernelRun1_E c i arg3 harg3 arg4 harg4 arg5 harg5 arg6 harg6 arg7 harg7 hc0 hc1 hc2 x0 x1 x2 xs0).1)

section
variable (V : (c : Dev nD) → (b : Ref sig .tc) → Buf (Elt F) ((c : Thread nD τ).loc b))

/-! ## The scratch after each point -/

/-- What the scratch holds after the body at point `n`. -/
def scAt1 (c : Dev nD) : (n : ℕ) → n < cfg1.N → Vec F S512x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) ((hcond1_1 ⟨0, hn⟩).mpr (Nat.zero_le _)) (fun h => absurd ((hcond1_2 ⟨0, hn⟩).mp h) (by show ¬(0 % 4 = 3); omega)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) ((hcond1_1 ⟨n + 1, hn⟩).mpr (by show (n + 1) % 4 ≤ (n + 1) / 4 % 4; omega)) (fun h => absurd ((hcond1_2 ⟨n + 1, hn⟩).mp h) (by show ¬(n + 1) % 4 = 3; omega)) (iblk1 V c 0 ⟨n + 1, hn⟩) (iblk1 V c 1 ⟨n + 1, hn⟩) (iblk1 V c 2 ⟨n + 1, hn⟩)
    else if h1 : (n + 1) % 4 ≤ (n + 1) / 4 % 4 then
      if h2 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (scAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (scAt1 c n (Nat.lt_of_succ_lt hn))
    else scAt1 c n (Nat.lt_of_succ_lt hn)

/-- What the scratch holds when point `t` (not the first) starts. -/
abbrev scPrev1 (c : Dev nD) (t : Fin cfg1.N) : Vec F S512x128 .f32 :=
  scAt1 V c (t.val - 1) (Nat.lt_of_le_of_lt (Nat.sub_le _ _) t.isLt)

theorem scAt1_A (c : Dev nD) (t : Fin cfg1.N) (h0 : t.val % 4 = 0) (h1 : t.val % 4 ≤ t.val / 4 % 4) (h2 : ¬t.val % 4 = 3) :
    scAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) ((hcond1_1 t).mpr h1) (fun h => h2 ((hcond1_2 t).mp h)) (iblk1 V c 0 t) (iblk1 V c 1 t) (iblk1 V c 2 t) := by
  obtain ⟨n, hn⟩ := t
  cases n with
  | zero => exact rfl
  | succ n => exact (dif_pos h0).trans rfl

theorem scAt1_B (c : Dev nD) (t : Fin cfg1.N) (h0 : ¬t.val % 4 = 0) (h1 : t.val % 4 ≤ t.val / 4 % 4) (h2 : ¬t.val % 4 = 3) :
    scAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (scPrev1 V c t) := by
  obtain ⟨n, hn⟩ := t
  cases n with
  | zero => exact absurd (Nat.zero_mod _) h0
  | succ n => exact (dif_neg h0).trans ((dif_pos h1).trans ((dif_neg h2).trans rfl))

theorem scAt1_C (c : Dev nD) (t : Fin cfg1.N) (h0 : ¬t.val % 4 = 0) (h1 : t.val % 4 ≤ t.val / 4 % 4) (h2 : t.val % 4 = 3) :
    scAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) ((hcond1_2 t).mpr h2) (iblk1 V c 0 t) (iblk1 V c 1 t) (iblk1 V c 2 t) (scPrev1 V c t) := by
  obtain ⟨n, hn⟩ := t
  cases n with
  | zero => exact absurd (Nat.zero_mod _) h0
  | succ n => exact (dif_neg h0).trans ((dif_pos h1).trans ((dif_pos h2).trans rfl))

theorem scAt1_keep (c : Dev nD) (t : Fin cfg1.N) (h0 : ¬t.val % 4 = 0) (h1 : ¬t.val % 4 ≤ t.val / 4 % 4) :
    scAt1 V c t.val t.isLt = scPrev1 V c t := by
  obtain ⟨n, hn⟩ := t
  cases n with
  | zero => exact absurd (Nat.zero_mod _) h0
  | succ n => exact (dif_neg h0).trans ((dif_neg h1).trans rfl)

/-! ## The result block after each point -/

/-- What the result window's staging buffer holds after the body at point `t`: stored at kv = 3, a placeholder nothing
    consults elsewhere (the window is idle there and not written back). -/
def outAt1 (c : Dev nD) (t : Fin cfg1.N) : Vec F S1x512x128 .f32 :=
  if h2 : t.val % 4 = 3 then
    if h1 : t.val % 4 ≤ t.val / 4 % 4 then
      out1_C_3 c (grid1.coords t) (ms1_0 t) (hs1_0 t) (ms1_1 t) (hs1_1 t) (ms1_2 t) (hs1_2 t) (ms1_3 t) (hs1_3 t) scM1 (Memref.isWhole_whole _) (fun h => absurd ((hcond1_0 t).mp h) (by omega)) ((hcond1_1 t).mpr h1) ((hcond1_2 t).mpr h2) (iblk1 V c 0 t) (iblk1 V c 1 t) (iblk1 V c 2 t) (scPrev1 V c t)
    else
      out1_E_3 c (grid1.coords t) (ms1_0 t) (hs1_0 t) (ms1_1 t) (hs1_1 t) (ms1_2 t) (hs1_2 t) (ms1_3 t) (hs1_3 t) scM1 (Memref.isWhole_whole _) (fun h => absurd ((hcond1_0 t).mp h) (by omega)) (fun h => h1 ((hcond1_1 t).mp h)) ((hcond1_2 t).mpr h2) (iblk1 V c 0 t) (iblk1 V c 1 t) (iblk1 V c 2 t) (scPrev1 V c t)
  else VO1_3.read (Elt F) VO1_3.junk

theorem outAt1_C (c : Dev nD) (t : Fin cfg1.N) (h0 : ¬t.val % 4 = 0) (h1 : t.val % 4 ≤ t.val / 4 % 4) (h2 : t.val % 4 = 3) :
    outAt1 V c t = out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) ((hcond1_2 t).mpr h2) (iblk1 V c 0 t) (iblk1 V c 1 t) (iblk1 V c 2 t) (scPrev1 V c t) :=
  (dif_pos h2).trans ((dif_pos h1).trans rfl)

theorem outAt1_E (c : Dev nD) (t : Fin cfg1.N) (h0 : ¬t.val % 4 = 0) (h1 : ¬t.val % 4 ≤ t.val / 4 % 4) (h2 : t.val % 4 = 3) :
    outAt1 V c t = out1_E_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (scPrev1 V c t) :=
  (dif_pos h2).trans ((dif_neg h1).trans rfl)

/-! ## The invariant -/

/-- Before point `n`: at the start the region's base invariant (every scoped buffer no window stages at anything, the
    generator register at some state); afterwards the same with the scratch at the running sum the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c (n - 1) (by omega))) ∗ (∃ r, prngReg c r)) := by
  cases n with
  | zero => exact absurd rfl hz
  | succ n => rfl

/-! ## The proof data -/

/-- The attention region's proof data on core `c`: the arrays as the region finds them; after the body each input's
    buffer at its block, the result's at `outAt1`; the invariant above; nothing owed; the packed projection, read by
    three windows, held by each at its own share (a half, a quarter, a quarter), the result array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.Kernel.Hand

end
-- ==== Proof.KStages.lean ====
/-
  The buffers' contents at each boundary of the kernel program's run, as a fold from the launch memory: after the host
  operations that re-lay the arguments (x as 4096 rows, the weight matrix transposed, the bias as one row), after the
  projection region (its output array at what its write-backs leave), after the reshape of that output to
  [2, 2048, 3072], and after the attention region (the result array at what its write-backs leave).
-/
import proofs.«108929_j43173011259799_2_alg».proof.Proof.KRegion0
import proofs.«108929_j43173011259799_2_alg».proof.Proof.KR1Frame
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the reshape: the attention region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: the result array at what the pipeline leaves, every other buffer as entered (the
    packed projection is only read). -/
def W4 (c : Dev nD) : Valuation τ sig (Elt F) :=
  Function.update (W3 m c) (Proc.devRef .tc main_v6) ((dat1 (V3 m) c).arrAt 3 cfg1.N)
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_main_v6 (c : Dev nD) : W4 m c (Proc.devRef .tc main_v6) = (dat1 (V3 m) c).arrAt 3 cfg1.N := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..

end Cert.Kernel.Hand

end
-- ==== Proof.KR1Body.lean ====
/-
  The attention body at every point: which of the five cases a point is in is decided by its number (kv = t % 4,
  qi = t / 4 % 4); in each the case's run applies to the point's staging memrefs and input blocks, the invariant hands it
  the scratch at the running sum the point before left (at anything at the very first point) and takes it back at this
  point's.
-/
import proofs.«108929_j43173011259799_2_alg».proof.Proof.KR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [scAt1_A V c t h0 h1 h2]
    unfold sout1_A; (try dsimp only)
    by_cases hz : t.val = 0
    ·
      rw [PhiS1_castSucc V c t, PhiS1_zero V c _ _ hz, PhiA1_eq]
      iintro ⟨⟨⟨B1, B2, B3, B4, B5, B6, ⟨%ds0, HS0⟩⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) ((hcond1_1 t).mpr h1) (fun h => h2 ((hcond1_2 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [B1 B2 B3 B4 B5 B6 HS0 Hg]
      · isplitl [B1 B2 B3 B4 B5 B6 HS0]
        ·
          isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS1_castSucc V c t, PhiS1_pos V c _ _ hz]
      iintro ⟨⟨⟨B1, B2, B3, B4, B5, B6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) ((hcond1_1 t).mpr h1) (fun h => h2 ((hcond1_2 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [B1 B2 B3 B4 B5 B6 HS0 Hg]
      · isplitl [B1 B2 B3 B4 B5 B6 HS0]
        ·
          isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ t.val / 4 % 4
    · by_cases h2 : t.val % 4 = 3
      · rw [show (dat1 V c).leavesExact 3 t = owns (c : Thread nD τ) (ms1_3 t) fullShare ((dat1 V c).after 3 t) from by
        unfold Dat.leavesExact; rw [liveAt1_3 t ((hcond1_2 t).mpr h2)], after1_3]
        rw [scAt1_C V c t h0 h1 h2, outAt1_C V c t h0 h1 h2]
        unfold sout1_C out1_C_3; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) ((hcond1_2 t).mpr h2) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            unfold owns; iexists _; isplitr
            swap; · iexact HS0
            ipureintro; exact View.read_writes_of_cover _ _ _ _ _ (scover1_C c _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [scAt1_B V c t h0 h1 h2]
        unfold sout1_B; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            unfold owns; iexists _; isplitr
            swap; · iexact HS0
            ipureintro; exact View.read_writes_of_cover _ _ _ _ _ (scover1_B c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · by_cases h2 : t.val % 4 = 3
      · rw [show (dat1 V c).leavesExact 3 t = owns (c : Thread nD τ) (ms1_3 t) fullShare ((dat1 V c).after 3 t) from by
        unfold Dat.leavesExact; rw [liveAt1_3 t ((hcond1_2 t).mpr h2)], after1_3]
        rw [scAt1_keep V c t h0 h1, outAt1_E V c t h0 h1 h2]
        unfold out1_E_3; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_E c (grid1.coords t) _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, HS0⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            iexact HS0
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [scAt1_keep V c t h0 h1]
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_D c (grid1.coords t) _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            iexact HS0
          iexact Hg
        isplitl [Ho]; · iexact Ho
        isplitl [H0]; · iexact H0
        isplitl [H1]; · iexact H1
        isplitl [H2]; · iexact H2
        iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant entails the region's base invariant again: what the scratch holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨B1, B2, B3, B4, B5, B6, HS0⟩, Hg⟩
  isplitl [B1 B2 B3 B4 B5 B6 HS0]
  ·
    isplitl [B1]; · iexact B1
    isplitl [B2]; · iexact B2
    isplitl [B3]; · iexact B3
    isplitl [B4]; · iexact B4
    isplitl [B5]; · iexact B5
    isplitl [B6]; · iexact B6
    iexists _; iexact HS0
  iexact Hg

end

end Cert.Kernel.Hand

end
-- ==== Proof.KR1Share.lean ====
/-
  The packed projection is read by three windows of the attention region.  At entry the buffer, held whole, is dealt to
  them along the share (a half, a quarter, a quarter); at exit the three parts, still at the entry contents (an input
  array is never written), are joined back; the result array goes in and comes out whole.
-/
import proofs.«108929_j43173011259799_2_alg».proof.Proof.KR1Frame
import Idealize.ShloMosaic.Rules.PointsTo

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem arrs1 : Finset.univ.image (Pipeline.arrRef spec1) = {main_v5, main_v6} := by decide

/-- One buffer held whole is three holders of it, at a half, a quarter and a quarter. -/
theorem deal3 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) := by
  refine (pointsTo_share (PosShare.mem_left_op_right fullShare)).1.trans ?_
  exact sep_mono .rfl (pointsTo_share (PosShare.mem_left_op_right fullShare.right)).1

/-- And back. -/
theorem join3 {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) := by
  exact (sep_mono .rfl (pointsTo_share (PosShare.mem_left_op_right fullShare.right)).2).trans (pointsTo_share (PosShare.mem_left_op_right fullShare)).2

/-- ENTRY: the two buffers behind the region's arrays, whole at the entry contents, make the proof data's arrays. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [bigSep_W1, arrs1, bigSep_insert (by decide), bigSep_singleton]
  rw [(arr_whole1 0).set_eq_univ, (arr_whole1 3).set_eq_univ]
  refine (sep_mono (deal3 (V c main_v5)) .rfl).trans ?_
  iintro ⟨⟨Ha, Hb, Hc⟩, H6⟩
  isplitl [Ha]; · iexact Ha
  isplitl [Hb]; · iexact Hb
  isplitl [Hc]; · iexact Hc
  iexact H6

/-- EXIT: the proof data's arrays after the last point are the two buffers whole again, the packed projection as it was
    and the result array at what the write-backs left — at any valuation `V'` that says so. -/
theorem hjoin1 (c : Dev nD) (V' : (b : Ref sig .tc) → Buf (Elt F) ((c : Thread nD τ).loc b))
    (h5 : V' main_v5 = V c main_v5) (h6 : V' main_v6 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [bigSep_W1, arrs1, bigSep_insert (by decide), bigSep_singleton]
  rw [(arr_whole1 0).set_eq_univ, (arr_whole1 3).set_eq_univ]
  rw [h5, h6]
  dsimp only
  rw [show (dat1 V c).arrAt 0 cfg1.N = V c main_v5 from ((dat1 V c).arrAt_in 0 rfl _).trans (A_eq1 V c 0),
    show (dat1 V c).arrAt 1 cfg1.N = V c main_v5 from ((dat1 V c).arrAt_in 1 rfl _).trans (A_eq1 V c 1),
    show (dat1 V c).arrAt 2 cfg1.N = V c main_v5 from ((dat1 V c).arrAt_in 2 rfl _).trans (A_eq1 V c 2)]
  refine BIBase.Entails.trans ?_ (sep_mono (join3 (V c main_v5)) .rfl)
  iintro ⟨Ha, Hb, Hc, H6⟩
  isplitr [H6]
  · isplitl [Ha]; · iexact Ha
    isplitl [Hb]; · iexact Hb
    iexact Hc
  iexact H6

end

end Cert.Kernel.Hand

end
-- ==== Proof.KAssembly.lean ====
/-
  The whole run of the kernel program: @main is a host stretch, the projection region, a host stretch (one reshape) and
  the attention region.  Between two of them core `c` holds every unscoped buffer whole at that boundary's contents
  (the fold of Stages.lean), beside its generator register and nothing owed.  Each region splits its arrays out of the
  unscoped buffers at entry and puts them back at exit — the projection region's arrays are distinct buffers; the
  attention region reads one buffer through three windows, dealt along the share and joined back.  The run's post:
  the result array at what the attention region's write-backs leave, the three arguments as launched.
-/
import proofs.«108929_j43173011259799_2_alg».proof.Proof.KStages
import proofs.«108929_j43173011259799_2_alg».proof.Proof.KR1Body
import proofs.«108929_j43173011259799_2_alg».proof.Proof.KR1Share
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hrest1 (c : Dev nD) : ∀ b, b ∉ Finset.univ.image (Pipeline.arrRef spec1) → V4 m c b = V3 m c b :=
  fun b hb => W4_of_ne m c b fun e => hb (by rw [arrs1, e]; decide)

/-- The attention region's exit, the buffers' part: the two buffers behind its arrays at the exit contents and the
    unscoped rest as entered are the core's unscoped buffers at the exit contents. -/
theorem hexit_bufs1 (c : Dev nD) :
    iprop((Pipeline.arrBufs (Ix := Unit) (Name := ℕ) (U := UR sig nD τ) (Lvl := ℕ) spec1 c (V4 m c) : sProp 𝕄)
        ∗ Pipeline.unscopedRest (Ix := Unit) (Name := ℕ) (U := UR sig nD τ) (Lvl := ℕ) spec1 c (V3 m c))
      ⊢ StableHlo.held (c : Thread nD τ) (Pipeline.ucRefs τ sig) (W4 m c) := by
  rw [← Pipeline.unscopedBufs_held (Ix := Unit) (Name := ℕ) (U := UR sig nD τ) (Lvl := ℕ) c (W4 m c),
    Pipeline.unscopedBufs_split₀ (Pipeline.pin (pcfgs (F := F)) adm) 1 winFacts₀1.arr_unscoped c (V4 m c)]
  refine sep_mono .rfl (Entails.of_eq ?_)
  unfold Pipeline.unscopedRest
  exact bigSep_congr fun b hb => by rw [hrest1 m c b (Finset.mem_sdiff.mp hb).2]

/-! ## The arguments end as launched -/

theorem W4_arg (c : Dev nD) (b : Ref sig .tc) (h6 : b ≠ main_v6) (h1 : b ∉ (hostOps1_W : List (Ref sig .tc)))
    (ha : ∀ w, Pipeline.arrRef spec0 w ≠ b) (h0 : b ∉ (hostOps0_W : List (Ref sig .tc))) :
    W4 m c (Proc.devRef .tc b) = m ((c : Thread nD τ).loc b) :=
  (W4_of_ne m c b h6).trans ((StableHlo.after_of_writes_sub hostOps1 _ hostOps1_writes h1).trans
    ((W2_of_ne m c b ha).trans ((StableHlo.after_of_writes_sub hostOps0 _ hostOps0_writes h0).trans rfl)))

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.unscopedBufs_split₀ (Ix := Unit) (Name := ℕ) (U := UR sig nD τ) (Lvl := ℕ) (Pipeline.pin (pcfgs (F := F)) adm) 1 winFacts₀1.arr_unscoped c (V3 m c)
    rw [Pipeline.unscopedBufs_held] at hsplit
    iintro ⟨⟨Hub, Hp, HO⟩, -, -⟩
    ihave H := (Entails.of_eq hsplit) $$ Hub
    icases H with ⟨Hab, Hrest⟩
    ihave Ha := (hsplit1 (V3 m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hj : ((pdats m 1 c).arrays ((pdats m 1 c).arrAt · (Pipeline.pin (pcfgs (F := F)) adm 1).N) : sProp 𝕄)
        ⊢ Pipeline.arrBufs (Ix := Unit) (Name := ℕ) (U := UR sig nD τ) (Lvl := ℕ) spec1 c (V4 m c) :=
      hjoin1 (V3 m) c (V4 m c) (W4_of_ne m c main_v5 (by decide)) (W4_main_v6 m c)
    iintro ⟨Ha, HO, HY, Hrest⟩
    ihave Hab := hj $$ Ha
    imodintro
    isplitl [Hab Hrest HY]
    · isplitl [Hab Hrest]
      · iapply (hexit_bufs1 m c); isplitl [Hab] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has the result array at what the attention region's write-backs leave and
    the three argument arrays as launched. -/
theorem run_all : θ_run defs (onTc (τ := τ) (main (F := F))) ⟨m, fun _ => 0, ρ⟩ (fun r => ∀ c : Dev nD,
      r.2.mem ((c.tc : Thread nD τ).loc main_v6) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_main_v6 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.Kernel.Hand

end
-- ==== Proof.Region0.lean ====
/-
  Region 0 of the program: the fused projection kernel, one grid point per block of 512 rows.

  At a parameter V — the buffers' contents when the region is entered — this file states what each window's staging
  buffer holds when the body is called at a grid point (its block of the window's array, fetched there or not), what the
  body leaves in the output window's buffer (the one whole-block store of the projection's arithmetic applied to the
  three input blocks), the body's triple, the pipeline's proof data and the body obligation at every point.
-/
import proofs.«108929_j43173011259799_2_alg».proof.Proof.Gen.KernelIdeal.Launch
import proofs.«108929_j43173011259799_2_alg».proof.Proof.Gen.KernelIdeal.Skeleton
import proofs.«108929_j43173011259799_2_alg».proof.Proof.Gen.KernelIdeal.Points
import proofs.«108929_j43173011259799_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is V's and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the whole weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the whole bias row, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S512x3072 := Rect.unit (s := S512x3072) ![0, 0] S512x3072.size inb_S512x3072_S512x3072_0_0

/-! ## What the body leaves in the output window's buffer -/

/-- Window 3's staging buffer after the body, from the input windows' blocks: its one store, of the projection's
    arithmetic applied to the three blocks read whole. -/
def out0_3 (x0 : Vec F S512x1024 .f32) (x1 : Vec F S1024x3072 .bf16) (x2 : Vec F S1x3072 .f32) : Vec F S512x3072 .bf16 :=
  View.canon [⟨r0_3, k0_pay1 (View.ld x0 r0_0) (View.ld x1 r0_1) (View.ld x2 r0_2)⟩]

/-- The one store is of the whole buffer, so it covers it. -/
theorem cover0_3 (p0 : Vec F S512x3072 .bf16) (y : S512x3072.Idx) :
    ∃ pc ∈ ([⟨r0_3, p0⟩] : List (View.Piece (Elt F) S512x3072 .bf16)), y ∈ pc.1.set :=
  View.cover_of_tiled [⟨r0_3, p0⟩] S512x3072.size (by rfl) y

/-! ## The body's triple -/

set_option maxHeartbeats 1000000 in
/-- The kernel body on whole staging memrefs, the inputs' at contents x0, x1, x2 and the output's at anything, runs to
    the continuation holding the inputs' as they were and the output's at out0_3 of the inputs'. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x3072 .bf16) (harg4 : arg4.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c: the arrays as the region finds them; after the body at point t
    each input's buffer at its block and the output's at out0_3 of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Defs.lean ====
/-
  The attention region (the second kernel call), the part every case of its body shares.

  The grid is (p, qi, kv) = 16 × 4 × 4: p names a batch row and a pair of heads, qi a block of 512 query rows, kv a
  block of 512 key rows.  Windows 0, 1, 2 read the packed projection (one array, three windows: the query block, the key
  block and the value block of the head pair), window 3 is the result block, and a 512 × 128 scratch carries the running
  sum from one key block to the next.  The body has three conditionals on the coordinates: kv = 0 (reset the sum),
  kv ≤ qi (add this key block's contribution) and kv = 3 (store the sum into the result block).  Here: each window's
  block at a point, the three conditions in closed form over the point's number t = 16 p + 4 qi + kv (so t % 4 = kv
  and t / 4 % 4 = qi), and where the result window is idle.
-/
import proofs.«108929_j43173011259799_2_alg».proof.Proof.Gen.KernelIdeal.Launch
import proofs.«108929_j43173011259799_2_alg».proof.Proof.Gen.KernelIdeal.Skeleton
import proofs.«108929_j43173011259799_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's three conditions -/

/-- kv = 0: the running sum is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- kv · 512 < (qi + 1) · 512, that is kv ≤ qi: the key block meets the causal triangle of the query block. -/
abbrev cond1_1 (i : grid1.Coords) : Prop := (Scalar.cmpi .ne (Scalar.extui (Scalar.cmpi .slt (Scalar.muli (BitVec.ofNat 32 (i 2).val) 512#32) (Scalar.muli (Scalar.addi (BitVec.ofNat 32 (i 1).val) 1#32) 512#32))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)

/-- kv = 3: the last key block; the sum is stored into the result block. -/
abbrev cond1_2 (i : grid1.Coords) : Prop := k1_cond3 i = 1#1
theorem hcond1_2 : ∀ t : Fin cfg1.N, cond1_2 (grid1.coords t) ↔ t.val % 4 = 3 :=
  (by decide +kernel : ∀ t : Fin grid1.N, cond1_2 (grid1.coords t) ↔ t.val % 4 = 3)

/-! ## Where the result window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where kv ≠ 3 the body stores nothing into the result block, -/
theorem idleAt1_3 : ∀ t : Fin cfg1.N, ¬cond1_2 (grid1.coords t) → cfg1.idle 3 (grid1.coords t) = true := by decide +kernel
/-- and the pipeline does not write it back there; -/
theorem noFlush1_3 : ∀ t : Fin cfg1.N, ¬cond1_2 (grid1.coords t) → (cfg1.win 3).flush t = false := by decide +kernel
/-- where kv = 3 it does store. -/
theorem liveAt1_3 : ∀ t : Fin cfg1.N, cond1_2 (grid1.coords t) → cfg1.idle 3 (grid1.coords t) = false := by decide +kernel

/-! ## The memrefs the body is called with -/

abbrev VO1_3 : View sig .tc .vmem S1x512x128 .f32 := (Memref.whole cc1_stg3_0 : Memref sig .tc .vmem S1x512x128 .f32).view
abbrev ms1_0 (t : Fin cfg1.N) : Memref sig .tc .vmem S1x512x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x128 .f32 := win1_3.stage (cfg1.slots t 3)
abbrev hs1_3 (t : Fin cfg1.N) : (ms1_3 t).IsWhole := hstage1_3 ((cfg1.slots t 3).cast nbuf1_3)
/-- The scratch that carries the running sum. -/
abbrev scM1 : Memref sig .tc .vmem S512x128 .f32 := Memref.whole cc1_scratch0
abbrev VS1 : View sig .tc .vmem S512x128 .f32 := scM1.view

/-- The scoped buffers no window of this call stages, with the scratch named: the other call's staging buffers at
    anything, the scratch at anything, and the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.R1RunA.lean ====
/-
  The attention body in case A — kv = 0 (so kv ≤ qi) and kv ≠ 3: the sum is reset, then this key block's contribution is added; nothing is stored into the result block.
  The body runs on whole staging memrefs, the three inputs at their blocks; what each buffer it stores into ends with
  is a list of stored pieces, last first.
-/
import proofs.«108929_j43173011259799_2_alg».proof.Proof.R1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A: the pieces the result block (`L3`) and the scratch (`LS0`) end with, and the body's triple. -/
noncomputable def kernelRun1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨[], ?_, fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R1RunB.lean ====
/-
  The attention body in case B — 0 < kv ≤ qi and kv ≠ 3: this key block's contribution is added to the carried sum; nothing is stored into the result block.
  The body runs on whole staging memrefs, the three inputs at their blocks; what each buffer it stores into ends with
  is a list of stored pieces, last first.
-/
import proofs.«108929_j43173011259799_2_alg».proof.Proof.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B: the pieces the result block (`L3`) and the scratch (`LS0`) end with, and the body's triple. -/
noncomputable def kernelRun1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨[], ?_, fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R1RunC.lean ====
/-
  The attention body in case C — kv = 3 = qi: the last contribution is added and the sum is stored into the result block.
  The body runs on whole staging memrefs, the three inputs at their blocks; what each buffer it stores into ends with
  is a list of stored pieces, last first.
-/
import proofs.«108929_j43173011259799_2_alg».proof.Proof.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C: the pieces the result block (`L3`) and the scratch (`LS0`) end with, and the body's triple. -/
noncomputable def kernelRun1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__causal_relu_attn_kernel i arg3 harg3 arg4 harg4 arg5 harg5 arg6 harg6 arg7 harg7) K } := by
  refine ⟨?_, ?_, fun E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R1RunD.lean ====
/-
  The attention body in case D — qi < kv < 3: the key block lies wholly above the diagonal; nothing is read or stored, the carried sum stays.
  The body runs on whole staging memrefs, the three inputs at their blocks; what each buffer it stores into ends with
  is a list of stored pieces, last first.
-/
import proofs.«108929_j43173011259799_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case D: the pieces the result block (`L3`) and the scratch (`LS0`) end with, and the body's triple. -/
noncomputable def kernelRun1_D (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : ¬cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (xi3 : Vec F S1x512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0) -∗ K ⟨⟩))
          ⊢ wp frame (wpE (defs₀ (F := F)) Variants.none c none) E (cc1__causal_relu_attn_kernel i arg3 harg3 arg4 harg4 arg5 harg5 arg6 harg6 arg7 harg7) K } := by
  refine ⟨[], [], fun xi3 E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; isplitr; · ipureintro; exact harg7.read_unread _
    iexact HS0

end Cert.KernelIdeal.Hand

end
-- ==== Proof.R1RunE.lean ====
/-
  The attention body in case E — qi < kv = 3: nothing is added; the carried sum is stored into the result block.
  The body runs on whole staging memrefs, the three inputs at their blocks; what each buffer it stores into ends with
  is a list of stored pieces, last first.
-/
import proofs.«108929_j43173011259799_2_alg».proof.Proof.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case E: the pieces the result block (`L3`) and the scratch (`LS0`) end with, and the body's triple. -/
noncomputable def kernelRun1_E (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) :
    Σ' (L3 : List (View.Piece (Elt F) S1x512x128 .f32)), { LS0 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0) -∗ K ⟨⟩))
          ⊢ wp frame (wpE (defs₀ (F := F)) Variants.none c none) E (cc1__causal_relu_attn_kernel i arg3 harg3 arg4 harg4 arg5 harg5 arg6 harg6 arg7 harg7) K } := by
  refine ⟨?_, [], fun E K => ?run⟩
  case run =>
    simp only [cc1__causal_relu_attn_kernel_eq_skeleton]; unfold cc1__causal_relu_attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; isplitr; · ipureintro; exact harg7.read_unread _
    iexact HS0

end Cert.KernelIdeal.Hand

end
-- ==== Proof.R1Frame.lean ====
/-
  The attention region's proof data and its body obligation.

  After point t the scratch holds the running sum for the query block of t over the key blocks up to t's: reset and
  first contribution at kv = 0, one more contribution while kv ≤ qi, unchanged once kv > qi.  The result block is
  stored at kv = 3 only (from the sum, after that point's contribution if it has one); at the other points the result
  window is idle and is not written back.  The three input windows read one array, each holding it at its own share.
-/
import proofs.«108929_j43173011259799_2_alg».proof.Proof.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A: the two half pieces stored into the scratch tile it. -/
theorem scover1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) (y : S512x128.Idx) :
    ∃ pc ∈ (kernelRun1_A c i arg3 harg3 arg4 harg4 arg5 harg5 arg6 harg6 arg7 harg7 hc0 hc1 hc2 x0 x1 x2).2.1, y ∈ pc.1.set := by
  obtain ⟨pc, hpc, hy⟩ := View.cover_of_tiledL ((kernelRun1_A c i arg3 harg3 arg4 harg4 arg5 harg5 arg6 harg6 arg7 harg7 hc0 hc1 hc2 x0 x1 x2).2.1.take 2) S512x64.size (by sl_kernel_rfl) y
  exact ⟨pc, List.mem_of_mem_take hpc, hy⟩

/-- What case A leaves in the scratch: its pieces read back. -/
def sout1_A (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i)
    (x0 x1 x2 : Vec F S1x512x128 .bf16) : Vec F S512x128 .f32 :=
  VS1.read (Elt F) (VS1.writes (Elt F) VS1.junk (kernelRun1_A c i arg3 harg3 arg4 harg4 arg5 harg5 arg6 harg6 arg7 harg7 hc0 hc1 hc2 x0 x1 x2).2.1)

/-- Case B: the two half pieces stored into the scratch tile it. -/
theorem scover1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) (y : S512x128.Idx) :
    ∃ pc ∈ (kernelRun1_B c i arg3 harg3 arg4 harg4 arg5 harg5 arg6 harg6 arg7 harg7 hc0 hc1 hc2 x0 x1 x2 xs0).2.1, y ∈ pc.1.set := by
  obtain ⟨pc, hpc, hy⟩ := View.cover_of_tiledL ((kernelRun1_B c i arg3 harg3 arg4 harg4 arg5 harg5 arg6 harg6 arg7 harg7 hc0 hc1 hc2 x0 x1 x2 xs0).2.1) S512x64.size (by sl_kernel_rfl) y
  exact ⟨pc, hpc, hy⟩

/-- What case B leaves in the scratch: its pieces read back. -/
def sout1_B (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i)
    (x0 x1 x2 : Vec F S1x512x128 .bf16) (xs0 : Vec F S512x128 .f32) : Vec F S512x128 .f32 :=
  VS1.read (Elt F) (VS1.writes (Elt F) VS1.junk (kernelRun1_B c i arg3 harg3 arg4 harg4 arg5 harg5 arg6 harg6 arg7 harg7 hc0 hc1 hc2 x0 x1 x2 xs0).2.1)

/-- Case C: the two half pieces stored into the scratch tile it. -/
theorem scover1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) (y : S512x128.Idx) :
    ∃ pc ∈ (kernelRun1_C c i arg3 harg3 arg4 harg4 arg5 harg5 arg6 harg6 arg7 harg7 hc0 hc1 hc2 x0 x1 x2 xs0).2.1, y ∈ pc.1.set := by
  obtain ⟨pc, hpc, hy⟩ := View.cover_of_tiledL ((kernelRun1_C c i arg3 harg3 arg4 harg4 arg5 harg5 arg6 harg6 arg7 harg7 hc0 hc1 hc2 x0 x1 x2 xs0).2.1) S512x64.size (by sl_kernel_rfl) y
  exact ⟨pc, hpc, hy⟩

/-- What case C leaves in the scratch: its pieces read back. -/
def sout1_C (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) : Vec F S512x128 .f32 :=
  VS1.read (Elt F) (VS1.writes (Elt F) VS1.junk (kernelRun1_C c i arg3 harg3 arg4 harg4 arg5 harg5 arg6 harg6 arg7 harg7 hc0 hc1 hc2 x0 x1 x2 xs0).2.1)

/-- Case C: the one store into the result block covers it. -/
theorem cover1_C_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) (y : S1x512x128.Idx) :
    ∃ pc ∈ (kernelRun1_C c i arg3 harg3 arg4 harg4 arg5 harg5 arg6 harg6 arg7 harg7 hc0 hc1 hc2 x0 x1 x2 xs0).1, y ∈ pc.1.set :=
  View.cover_of_tiledL (kernelRun1_C c i arg3 harg3 arg4 harg4 arg5 harg5 arg6 harg6 arg7 harg7 hc0 hc1 hc2 x0 x1 x2 xs0).1 S1x512x128.size (by sl_kernel_rfl) y

/-- What case C leaves in the result block: its piece read back. -/
def out1_C_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i)
    (x0 x1 x2 : Vec F S1x512x128 .bf16) (xs0 : Vec F S512x128 .f32) : Vec F S1x512x128 .f32 :=
  VO1_3.read (Elt F) (VO1_3.writes (Elt F) VO1_3.junk (kernelRun1_C c i arg3 harg3 arg4 harg4 arg5 harg5 arg6 harg6 arg7 harg7 hc0 hc1 hc2 x0 x1 x2 xs0).1)

/-- Case E: the one store into the result block covers it. -/
theorem cover1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) (y : S1x512x128.Idx) :
    ∃ pc ∈ (kernelRun1_E c i arg3 harg3 arg4 harg4 arg5 harg5 arg6 harg6 arg7 harg7 hc0 hc1 hc2 x0 x1 x2 xs0).1, y ∈ pc.1.set :=
  View.cover_of_tiledL (kernelRun1_E c i arg3 harg3 arg4 harg4 arg5 harg5 arg6 harg6 arg7 harg7 hc0 hc1 hc2 x0 x1 x2 xs0).1 S1x512x128.size (by sl_kernel_rfl) y

/-- What case E leaves in the result block: its piece read back. -/
def out1_E_3 (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec F S1x512x128 .bf16) (xs0 : Vec F S512x128 .f32) : Vec F S1x512x128 .f32 :=
  VO1_3.read (Elt F) (VO1_3.writes (Elt F) VO1_3.junk (kernelRun1_E c i arg3 harg3 arg4 harg4 arg5 harg5 arg6 harg6 arg7 harg7 hc0 hc1 hc2 x0 x1 x2 xs0).1)

section
variable (V : (c : Dev nD) → (b : Ref sig .tc) → Buf (Elt F) ((c : Thread nD τ).loc b))

/-! ## The scratch after each point -/

/-- What the scratch holds after the body at point `n`. -/
def scAt1 (c : Dev nD) : (n : ℕ) → n < cfg1.N → Vec F S512x128 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) ((hcond1_1 ⟨0, hn⟩).mpr (Nat.zero_le _)) (fun h => absurd ((hcond1_2 ⟨0, hn⟩).mp h) (by show ¬(0 % 4 = 3); omega)) (iblk1 V c 0 ⟨0, hn⟩) (iblk1 V c 1 ⟨0, hn⟩) (iblk1 V c 2 ⟨0, hn⟩)
  | n + 1, hn =>
    if h0 : (n + 1) % 4 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) ((hcond1_1 ⟨n + 1, hn⟩).mpr (by show (n + 1) % 4 ≤ (n + 1) / 4 % 4; omega)) (fun h => absurd ((hcond1_2 ⟨n + 1, hn⟩).mp h) (by show ¬(n + 1) % 4 = 3; omega)) (iblk1 V c 0 ⟨n + 1, hn⟩) (iblk1 V c 1 ⟨n + 1, hn⟩) (iblk1 V c 2 ⟨n + 1, hn⟩)
    else if h1 : (n + 1) % 4 ≤ (n + 1) / 4 % 4 then
      if h2 : (n + 1) % 4 = 3 then
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (scAt1 c n (Nat.lt_of_succ_lt hn))
      else
        sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (scAt1 c n (Nat.lt_of_succ_lt hn))
    else scAt1 c n (Nat.lt_of_succ_lt hn)

/-- What the scratch holds when point `t` (not the first) starts. -/
abbrev scPrev1 (c : Dev nD) (t : Fin cfg1.N) : Vec F S512x128 .f32 :=
  scAt1 V c (t.val - 1) (Nat.lt_of_le_of_lt (Nat.sub_le _ _) t.isLt)

theorem scAt1_A (c : Dev nD) (t : Fin cfg1.N) (h0 : t.val % 4 = 0) (h1 : t.val % 4 ≤ t.val / 4 % 4) (h2 : ¬t.val % 4 = 3) :
    scAt1 V c t.val t.isLt = sout1_A c (grid1.coords t) (ms1_0 t) (hs1_0 t) (ms1_1 t) (hs1_1 t) (ms1_2 t) (hs1_2 t) (ms1_3 t) (hs1_3 t) scM1 (Memref.isWhole_whole _) ((hcond1_0 t).mpr h0) ((hcond1_1 t).mpr h1) (fun h => h2 ((hcond1_2 t).mp h)) (iblk1 V c 0 t) (iblk1 V c 1 t) (iblk1 V c 2 t) := by
  obtain ⟨n, hn⟩ := t
  cases n with
  | zero => exact rfl
  | succ n => exact (dif_pos h0).trans rfl

theorem scAt1_B (c : Dev nD) (t : Fin cfg1.N) (h0 : ¬t.val % 4 = 0) (h1 : t.val % 4 ≤ t.val / 4 % 4) (h2 : ¬t.val % 4 = 3) :
    scAt1 V c t.val t.isLt = sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (fun h => h2 ((hcond1_2 t).mp h)) (iblk1 V c 0 t) (iblk1 V c 1 t) (iblk1 V c 2 t) (scPrev1 V c t) := by
  obtain ⟨n, hn⟩ := t
  cases n with
  | zero => exact absurd (Nat.zero_mod _) h0
  | succ n => exact (dif_neg h0).trans ((dif_pos h1).trans ((dif_neg h2).trans rfl))

theorem scAt1_C (c : Dev nD) (t : Fin cfg1.N) (h0 : ¬t.val % 4 = 0) (h1 : t.val % 4 ≤ t.val / 4 % 4) (h2 : t.val % 4 = 3) :
    scAt1 V c t.val t.isLt = sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) ((hcond1_2 t).mpr h2) (iblk1 V c 0 t) (iblk1 V c 1 t) (iblk1 V c 2 t) (scPrev1 V c t) := by
  obtain ⟨n, hn⟩ := t
  cases n with
  | zero => exact absurd (Nat.zero_mod _) h0
  | succ n => exact (dif_neg h0).trans ((dif_pos h1).trans ((dif_pos h2).trans rfl))

theorem scAt1_keep (c : Dev nD) (t : Fin cfg1.N) (h0 : ¬t.val % 4 = 0) (h1 : ¬t.val % 4 ≤ t.val / 4 % 4) :
    scAt1 V c t.val t.isLt = scPrev1 V c t := by
  obtain ⟨n, hn⟩ := t
  cases n with
  | zero => exact absurd (Nat.zero_mod _) h0
  | succ n => exact (dif_neg h0).trans ((dif_neg h1).trans rfl)

/-! ## The result block after each point -/

/-- What the result window's staging buffer holds after the body at point `t`: stored at kv = 3, a placeholder nothing
    consults elsewhere (the window is idle there and not written back). -/
def outAt1 (c : Dev nD) (t : Fin cfg1.N) : Vec F S1x512x128 .f32 :=
  if h2 : t.val % 4 = 3 then
    if h1 : t.val % 4 ≤ t.val / 4 % 4 then
      out1_C_3 c (grid1.coords t) (ms1_0 t) (hs1_0 t) (ms1_1 t) (hs1_1 t) (ms1_2 t) (hs1_2 t) (ms1_3 t) (hs1_3 t) scM1 (Memref.isWhole_whole _) (fun h => absurd ((hcond1_0 t).mp h) (by omega)) ((hcond1_1 t).mpr h1) ((hcond1_2 t).mpr h2) (iblk1 V c 0 t) (iblk1 V c 1 t) (iblk1 V c 2 t) (scPrev1 V c t)
    else
      out1_E_3 c (grid1.coords t) (ms1_0 t) (hs1_0 t) (ms1_1 t) (hs1_1 t) (ms1_2 t) (hs1_2 t) (ms1_3 t) (hs1_3 t) scM1 (Memref.isWhole_whole _) (fun h => absurd ((hcond1_0 t).mp h) (by omega)) (fun h => h1 ((hcond1_1 t).mp h)) ((hcond1_2 t).mpr h2) (iblk1 V c 0 t) (iblk1 V c 1 t) (iblk1 V c 2 t) (scPrev1 V c t)
  else VO1_3.read (Elt F) VO1_3.junk

theorem outAt1_C (c : Dev nD) (t : Fin cfg1.N) (h0 : ¬t.val % 4 = 0) (h1 : t.val % 4 ≤ t.val / 4 % 4) (h2 : t.val % 4 = 3) :
    outAt1 V c t = out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) ((hcond1_2 t).mpr h2) (iblk1 V c 0 t) (iblk1 V c 1 t) (iblk1 V c 2 t) (scPrev1 V c t) :=
  (dif_pos h2).trans ((dif_pos h1).trans rfl)

theorem outAt1_E (c : Dev nD) (t : Fin cfg1.N) (h0 : ¬t.val % 4 = 0) (h1 : ¬t.val % 4 ≤ t.val / 4 % 4) (h2 : t.val % 4 = 3) :
    outAt1 V c t = out1_E_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) ((hcond1_2 t).mpr h2) (iblk1 V c 0 t) (iblk1 V c 1 t) (iblk1 V c 2 t) (scPrev1 V c t) :=
  (dif_pos h2).trans ((dif_neg h1).trans rfl)

/-! ## The invariant -/

/-- Before point `n`: at the start the region's base invariant (every scoped buffer no window stages at anything, the
    generator register at some state); afterwards the same with the scratch at the running sum the point before left. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c n hn)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (scAt1 V c (n - 1) (by omega))) ∗ (∃ r, prngReg c r)) := by
  cases n with
  | zero => exact absurd rfl hz
  | succ n => rfl

/-! ## The proof data -/

/-- The attention region's proof data on core `c`: the arrays as the region finds them; after the body each input's
    buffer at its block, the result's at `outAt1`; the invariant above; nothing owed; the packed projection, read by
    three windows, held by each at its own share (a half, a quarter, a quarter), the result array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end

end Cert.KernelIdeal.Hand

end
-- ==== Proof.Stages.lean ====
/-
  The buffers' contents at each boundary of the kernel program's run, as a fold from the launch memory: after the host
  operations that re-lay the arguments (x as 4096 rows, the weight matrix transposed, the bias as one row), after the
  projection region (its output array at what its write-backs leave), after the reshape of that output to
  [2, 2048, 3072], and after the attention region (the result array at what its write-backs leave).
-/
import proofs.«108929_j43173011259799_2_alg».proof.Proof.Region0
import proofs.«108929_j43173011259799_2_alg».proof.Proof.R1Frame
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch: the projection region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the projection region's exit: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the reshape: the attention region's entry. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the attention region's exit: the result array at what the pipeline leaves, every other buffer as entered (the
    packed projection is only read). -/
def W4 (c : Dev nD) : Valuation τ sig (Elt F) :=
  Function.update (W3 m c) (Proc.devRef .tc main_v6) ((dat1 (V3 m) c).arrAt 3 cfg1.N)
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W4_main_v6 (c : Dev nD) : W4 m c (Proc.devRef .tc main_v6) = (dat1 (V3 m) c).arrAt 3 cfg1.N := by
  unfold W4; exact Function.update_self ..
theorem W4_of_ne (c : Dev nD) (b : Ref sig .tc) (hb : b ≠ main_v6) :
    W4 m c (Proc.devRef .tc b) = W3 m c (Proc.devRef .tc b) := by
  unfold W4; exact Function.update_of_ne (StableHlo.devRef_ne_of_ne hb) ..

end Cert.KernelIdeal.Hand

end
-- ==== Proof.R1Body.lean ====
/-
  The attention body at every point: which of the five cases a point is in is decided by its number (kv = t % 4,
  qi = t / 4 % 4); in each the case's run applies to the point's staging memrefs and input blocks, the invariant hands it
  the scratch at the running sum the point before left (at anything at the very first point) and takes it back at this
  point's.
-/
import proofs.«108929_j43173011259799_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 4 = 0
  · have h1 : t.val % 4 ≤ t.val / 4 % 4 := by omega
    have h2 : ¬t.val % 4 = 3 := by omega
    rw [Dat.leavesExact_idle (dat1 V c) 3 t (idleAt1_3 t (fun h => h2 ((hcond1_2 t).mp h))) (noFlush1_3 t (fun h => h2 ((hcond1_2 t).mp h)))]
    rw [scAt1_A V c t h0 h1 h2]
    unfold sout1_A; (try dsimp only)
    by_cases hz : t.val = 0
    ·
      rw [PhiS1_castSucc V c t, PhiS1_zero V c _ _ hz, PhiA1_eq]
      iintro ⟨⟨⟨B1, B2, B3, B4, B5, B6, ⟨%ds0, HS0⟩⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) ((hcond1_1 t).mpr h1) (fun h => h2 ((hcond1_2 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [B1 B2 B3 B4 B5 B6 HS0 Hg]
      · isplitl [B1 B2 B3 B4 B5 B6 HS0]
        ·
          isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    ·
      rw [PhiS1_castSucc V c t, PhiS1_pos V c _ _ hz]
      iintro ⟨⟨⟨B1, B2, B3, B4, B5, B6, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) ((hcond1_1 t).mpr h1) (fun h => h2 ((hcond1_2 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [B1 B2 B3 B4 B5 B6 HS0 Hg]
      · isplitl [B1 B2 B3 B4 B5 B6 HS0]
        ·
          isplitl [B1]; · iexact B1
          isplitl [B2]; · iexact B2
          isplitl [B3]; · iexact B3
          isplitl [B4]; · iexact B4
          isplitl [B5]; · iexact B5
          isplitl [B6]; · iexact B6
          unfold owns; iexists _; isplitr
          swap; · iexact HS0
          ipureintro; exact View.read_writes_of_cover _ _ _ _ _ (scover1_A c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 ≤ t.val / 4 % 4
    · by_cases h2 : t.val % 4 = 3
      · rw [show (dat1 V c).leavesExact 3 t = owns (c : Thread nD τ) (ms1_3 t) fullShare ((dat1 V c).after 3 t) from by
        unfold Dat.leavesExact; rw [liveAt1_3 t ((hcond1_2 t).mpr h2)], after1_3]
        rw [scAt1_C V c t h0 h1 h2, outAt1_C V c t h0 h1 h2]
        unfold sout1_C out1_C_3; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) ((hcond1_2 t).mpr h2) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            unfold owns; iexists _; isplitr
            swap; · iexact HS0
            ipureintro; exact View.read_writes_of_cover _ _ _ _ _ (scover1_C c _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [scAt1_B V c t h0 h1 h2]
        unfold sout1_B; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            unfold owns; iexists _; isplitr
            swap; · iexact HS0
            ipureintro; exact View.read_writes_of_cover _ _ _ _ _ (scover1_B c _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
    · by_cases h2 : t.val % 4 = 3
      · rw [show (dat1 V c).leavesExact 3 t = owns (c : Thread nD τ) (ms1_3 t) fullShare ((dat1 V c).after 3 t) from by
        unfold Dat.leavesExact; rw [liveAt1_3 t ((hcond1_2 t).mpr h2)], after1_3]
        rw [scAt1_keep V c t h0 h1, outAt1_E V c t h0 h1 h2]
        unfold out1_E_3; (try dsimp only)
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_E c (grid1.coords t) _ _ _ _ _ _ _ _ _ _ (fun h => h0 ((hcond1_0 t).mp h)) (fun h => h1 ((hcond1_1 t).mp h)) ((hcond1_2 t).mpr h2) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, HS0⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            iexact HS0
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_E_3 c _ _ _ _ _ _ _ _ _ _ _ _ _ _ _ _ _ _)
      · rw [Dat.leavesExact_idle (dat1 V c) 3 t (idleAt1_3 t (fun h => h2 ((hcond1_2 t).mp h))) (noFlush1_3 t (fun h => h2 ((hcond1_2 t).mp h)))]
        rw [scAt1_keep V c t h0 h1]
        rw [PhiS1_castSucc V c t, PhiS1_pos V c _ _ hz]
        iintro ⟨⟨⟨B1, B2, B3, B4, B5, B6, HS0⟩, Hg⟩, Ho, ⟨%d0, H0⟩, ⟨%d1, H1⟩, ⟨%d2, H2⟩, ⟨%d3, H3⟩⟩
        iapply ((kernelRun1_D c (grid1.coords t) _ _ _ _ _ _ _ _ _ _ (fun h => h0 ((hcond1_0 t).mp h)) (fun h => h1 ((hcond1_1 t).mp h)) (fun h => h2 ((hcond1_2 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, HS0⟩
        isplitl [B1 B2 B3 B4 B5 B6 HS0 Hg]
        · isplitl [B1 B2 B3 B4 B5 B6 HS0]
          ·
            isplitl [B1]; · iexact B1
            isplitl [B2]; · iexact B2
            isplitl [B3]; · iexact B3
            isplitl [B4]; · iexact B4
            isplitl [B5]; · iexact B5
            isplitl [B6]; · iexact B6
            iexact HS0
          iexact Hg
        isplitl [Ho]; · iexact Ho
        isplitl [H0]; · iexact H0
        isplitl [H1]; · iexact H1
        isplitl [H2]; · iexact H2
        iexists _; iexact H3

/-- The body obligation of the attention region, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant entails the region's base invariant again: what the scratch holds is forgotten. -/
theorem hout1 (c : Dev nD) : (dat1 V c).Φ (Fin.last cfg1.N) ⊢ Pipeline.ΦA spec1 c := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨B1, B2, B3, B4, B5, B6, HS0⟩, Hg⟩
  isplitl [B1 B2 B3 B4 B5 B6 HS0]
  ·
    isplitl [B1]; · iexact B1
    isplitl [B2]; · iexact B2
    isplitl [B3]; · iexact B3
    isplitl [B4]; · iexact B4
    isplitl [B5]; · iexact B5
    isplitl [B6]; · iexact B6
    iexists _; iexact HS0
  iexact Hg

end

end Cert.KernelIdeal.Hand

end
-- ==== Proof.R1Share.lean ====
/-
  The packed projection is read by three windows of the attention region.  At entry the buffer, held whole, is dealt to
  them along the share (a half, a quarter, a quarter); at exit the three parts, still at the entry contents (an input
  array is never written), are joined back; the result array goes in and comes out whole.
-/
import proofs.«108929_j43173011259799_2_alg».proof.Proof.R1Frame
import Idealize.ShloMosaic.Rules.PointsTo

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem arrs1 : Finset.univ.image (Pipeline.arrRef spec1) = {main_v5, main_v6} := by decide

/-- One buffer held whole is three holders of it, at a half, a quarter and a quarter. -/
theorem deal3 {ℓ : Loc nD τ sig} (f : Buf (Elt F) ℓ) :
    (ℓ ↦{fullShare} f : sProp 𝕄) ⊢ iprop((ℓ ↦{fullShare.left} f) ∗ (ℓ ↦{fullShare.right.left} f) ∗ (ℓ ↦{fullShare.right.right} f)) := by
  refine (pointsTo_share (PosShare.mem_left_op_right fullShare)).1.trans ?_
  exact sep_mono .rfl (pointsTo_share (PosShare.mem_left_op_right fullShare.right)).1

/-- And back. -/
theorem join3 {ℓ : Loc nD τ sig} (f : Buf (Elt F) ℓ) :
    iprop((ℓ ↦{fullShare.left} f) ∗ (ℓ ↦{fullShare.right.left} f) ∗ (ℓ ↦{fullShare.right.right} f)) ⊢ (ℓ ↦{fullShare} f : sProp 𝕄) := by
  exact (sep_mono .rfl (pointsTo_share (PosShare.mem_left_op_right fullShare.right)).2).trans (pointsTo_share (PosShare.mem_left_op_right fullShare)).2

/-- ENTRY: the two buffers behind the region's arrays, whole at the entry contents, make the proof data's arrays. -/
theorem hsplit1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  unfold Pipeline.arrBufs Dat.arrays
  rw [bigSep_W1, arrs1, bigSep_insert (by decide), bigSep_singleton]
  rw [(arr_whole1 0).set_eq_univ, (arr_whole1 3).set_eq_univ]
  refine (sep_mono (deal3 (V c main_v5)) .rfl).trans ?_
  iintro ⟨⟨Ha, Hb, Hc⟩, H6⟩
  isplitl [Ha]; · iexact Ha
  isplitl [Hb]; · iexact Hb
  isplitl [Hc]; · iexact Hc
  iexact H6

/-- EXIT: the proof data's arrays after the last point are the two buffers whole again, the packed projection as it was
    and the result array at what the write-backs left — at any valuation `V'` that says so. -/
theorem hjoin1 (c : Dev nD) (V' : (b : Ref sig .tc) → Buf (Elt F) ((c : Thread nD τ).loc b))
    (h5 : V' main_v5 = V c main_v5) (h6 : V' main_v6 = (dat1 V c).arrAt 3 cfg1.N) :
    (dat1 V c).arrays ((dat1 V c).arrAt · cfg1.N)
      ⊢ (Pipeline.arrBufs (Ix := Unit) (Name := ℕ) (U := UR sig nD τ) (Lvl := ℕ) spec1 c V' : sProp 𝕄) := by
  unfold Pipeline.arrBufs Dat.arrays
  rw [bigSep_W1, arrs1, bigSep_insert (by decide), bigSep_singleton]
  rw [(arr_whole1 0).set_eq_univ, (arr_whole1 3).set_eq_univ]
  rw [h5, h6]
  dsimp only
  rw [show (dat1 V c).arrAt 0 cfg1.N = V c main_v5 from ((dat1 V c).arrAt_in 0 rfl _).trans (A_eq1 V c 0),
    show (dat1 V c).arrAt 1 cfg1.N = V c main_v5 from ((dat1 V c).arrAt_in 1 rfl _).trans (A_eq1 V c 1),
    show (dat1 V c).arrAt 2 cfg1.N = V c main_v5 from ((dat1 V c).arrAt_in 2 rfl _).trans (A_eq1 V c 2)]
  refine BIBase.Entails.trans ?_ (sep_mono (join3 (V c main_v5)) .rfl)
  iintro ⟨Ha, Hb, Hc, H6⟩
  isplitr [H6]
  · isplitl [Ha]; · iexact Ha
    isplitl [Hb]; · iexact Hb
    iexact Hc
  iexact H6

end

end Cert.KernelIdeal.Hand

end
-- ==== Proof.Assembly.lean ====
/-
  The whole run of the kernel program: @main is a host stretch, the projection region, a host stretch (one reshape) and
  the attention region.  Between two of them core `c` holds every unscoped buffer whole at that boundary's contents
  (the fold of Stages.lean), beside its generator register and nothing owed.  Each region splits its arrays out of the
  unscoped buffers at entry and puts them back at exit — the projection region's arrays are distinct buffers; the
  attention region reads one buffer through three windows, dealt along the share and joined back.  The run's post:
  the result array at what the attention region's write-backs leave, the three arguments as launched.
-/
import proofs.«108929_j43173011259799_2_alg».proof.Proof.Stages
import proofs.«108929_j43173011259799_2_alg».proof.Proof.R1Body
import proofs.«108929_j43173011259799_2_alg».proof.Proof.R1Share
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
theorem hrest1 (c : Dev nD) : ∀ b, b ∉ Finset.univ.image (Pipeline.arrRef spec1) → V4 m c b = V3 m c b :=
  fun b hb => W4_of_ne m c b fun e => hb (by rw [arrs1, e]; decide)

/-- The attention region's exit, the buffers' part: the two buffers behind its arrays at the exit contents and the
    unscoped rest as entered are the core's unscoped buffers at the exit contents. -/
theorem hexit_bufs1 (c : Dev nD) :
    iprop((Pipeline.arrBufs (Ix := Unit) (Name := ℕ) (U := UR sig nD τ) (Lvl := ℕ) spec1 c (V4 m c) : sProp 𝕄)
        ∗ Pipeline.unscopedRest (Ix := Unit) (Name := ℕ) (U := UR sig nD τ) (Lvl := ℕ) spec1 c (V3 m c))
      ⊢ StableHlo.held (c : Thread nD τ) (Pipeline.ucRefs τ sig) (W4 m c) := by
  rw [← Pipeline.unscopedBufs_held (Ix := Unit) (Name := ℕ) (U := UR sig nD τ) (Lvl := ℕ) c (W4 m c),
    Pipeline.unscopedBufs_split₀ (Pipeline.pin (pcfgs (F := F)) adm) 1 winFacts₀1.arr_unscoped c (V4 m c)]
  refine sep_mono .rfl (Entails.of_eq ?_)
  unfold Pipeline.unscopedRest
  exact bigSep_congr fun b hb => by rw [hrest1 m c b (Finset.mem_sdiff.mp hb).2]

/-! ## The arguments end as launched -/

theorem W4_arg (c : Dev nD) (b : Ref sig .tc) (h6 : b ≠ main_v6) (h1 : b ∉ (hostOps1_W : List (Ref sig .tc)))
    (ha : ∀ w, Pipeline.arrRef spec0 w ≠ b) (h0 : b ∉ (hostOps0_W : List (Ref sig .tc))) :
    W4 m c (Proc.devRef .tc b) = m ((c : Thread nD τ).loc b) :=
  (W4_of_ne m c b h6).trans ((StableHlo.after_of_writes_sub hostOps1 _ hostOps1_writes h1).trans
    ((W2_of_ne m c b ha).trans ((StableHlo.after_of_writes_sub hostOps0 _ hostOps0_writes h0).trans rfl)))

/-! ## The regions as segments -/

set_option backward.isDefEq.respectTransparency.types false in
/-- The projection region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.unscopedBufs_split₀ (Ix := Unit) (Name := ℕ) (U := UR sig nD τ) (Lvl := ℕ) (Pipeline.pin (pcfgs (F := F)) adm) 1 winFacts₀1.arr_unscoped c (V3 m c)
    rw [Pipeline.unscopedBufs_held] at hsplit
    iintro ⟨⟨Hub, Hp, HO⟩, -, -⟩
    ihave H := (Entails.of_eq hsplit) $$ Hub
    icases H with ⟨Hab, Hrest⟩
    ihave Ha := (hsplit1 (V3 m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hj : ((pdats m 1 c).arrays ((pdats m 1 c).arrAt · (Pipeline.pin (pcfgs (F := F)) adm 1).N) : sProp 𝕄)
        ⊢ Pipeline.arrBufs (Ix := Unit) (Name := ℕ) (U := UR sig nD τ) (Lvl := ℕ) spec1 c (V4 m c) :=
      hjoin1 (V3 m) c (V4 m c) (W4_of_ne m c main_v5 (by decide)) (W4_main_v6 m c)
    iintro ⟨Ha, HO, HY, Hrest⟩
    ihave Hab := hj $$ Ha
    imodintro
    isplitl [Hab Hrest HY]
    · isplitl [Hab Hrest]
      · iapply (hexit_bufs1 m c); isplitl [Hab] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state has the result array at what the attention region's write-backs leave and
    the three argument arrays as launched. -/
theorem run_all : θ_run defs (onTc (τ := τ) (main (F := F))) ⟨m, fun _ => 0, ρ⟩ (fun r => ∀ c : Dev nD,
      r.2.mem ((c.tc : Thread nD τ).loc main_v6) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v6 (by decide))).trans (W4_main_v6 m c),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide))⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_all m ρ)

end Cert.KernelIdeal.Hand

end
-- ==== Proof.Spec.lean ====
/-
  The mathematics both programs compute, stated once as a function of the three argument arrays read as extended reals.

  The fused projection: row (bb, tt) of the activations against row o of the weight matrix, plus the bias,
      qkv bb tt o = (∑ k, x[bb, tt, k] · W[o, k]) + b[o],
  its 3072 columns being, head by head (16 heads of 64 components), the queries (columns 0 … 1023), the keys
  (1024 … 2047) and the values (2048 … 3071).  The attention has no softmax: the weight of key row j for query row tt in
  head h is the score ⟨q, k⟩ · 1/8 rectified at zero when j ≤ tt and zero otherwise, and the result is the weighted sum of
  the value rows,
      attn bb tt h d = ∑ j, weight bb h tt j · v[bb, j, h, d].
  The two literals (1/8 and 0) are kept as the float words both programs carry; nothing evaluates them.
-/
import Idealize.ShloMosaic.PureOps.Ideal
import Idealize.ShloMosaic.Lib.ValueIdx

noncomputable section

open scoped BigOperators

namespace Cert.Spec

open Idealize.ShloMosaic Idealize.ShloMosaic.ValueIdx

/-- The score scale 1/8 as the float word both programs carry. -/
abbrev scale : EReal := Ideal.ofBits .f32 0x3E000000#32
/-- The float zero word. -/
abbrev zero : EReal := Ideal.ofBits .f32 0x00000000#32

/-- The column of the fused projection holding component `e` of head `h` of the queries (`s = 0`), the keys (`s = 1`)
    or the values (`s = 2`). -/
def col (s : Fin 3) (h : Fin 16) (e : Fin 64) : Fin 3072 :=
  ⟨s.val * 1024 + h.val * 64 + e.val, by have := s.isLt; have := h.isLt; have := e.isLt; omega⟩

/-- The fused projection at row (bb, tt), column o. -/
def qkv (x : (⟨3, ![2, 2048, 1024]⟩ : Shape).Idx → EReal) (W : (⟨2, ![3072, 1024]⟩ : Shape).Idx → EReal)
    (b : (⟨1, ![3072]⟩ : Shape).Idx → EReal) (bb : Fin 2) (tt : Fin 2048) (o : Fin 3072) : EReal :=
  (∑ k : Fin 1024, x (ix3 bb tt k) * W (ix2 o k)) + b (ix1 o)

/-- The weight of key row `j` for query row `tt` in head `h`: the scaled score rectified at zero on and below the
    diagonal, zero above it. -/
def weight (Q : Fin 2 → Fin 2048 → Fin 3072 → EReal) (bb : Fin 2) (h : Fin 16) (tt j : Fin 2048) : EReal :=
  if j.val ≤ tt.val then max ((∑ e : Fin 64, Q bb tt (col 0 h e) * Q bb j (col 1 h e)) * scale) zero else zero

/-- The attention's result at row (bb, tt), head `h`, component `d`. -/
def attn (Q : Fin 2 → Fin 2048 → Fin 3072 → EReal) (bb : Fin 2) (tt : Fin 2048) (h : Fin 16) (d : Fin 64) : EReal :=
  ∑ j : Fin 2048, weight Q bb h tt j * Q bb j (col 2 h d)

/-- The result at coordinates (bb, tt, cc): channel `cc` is component `cc % 64` of head `cc / 64`. -/
def Gat (x : (⟨3, ![2, 2048, 1024]⟩ : Shape).Idx → EReal) (W : (⟨2, ![3072, 1024]⟩ : Shape).Idx → EReal)
    (b : (⟨1, ![3072]⟩ : Shape).Idx → EReal) (bb : Fin 2) (tt : Fin 2048) (cc : Fin 1024) : EReal :=
  attn (qkv x W b) bb tt ⟨cc.val / 64, by have := cc.isLt; omega⟩ ⟨cc.val % 64, Nat.mod_lt _ (by decide)⟩

/-- The whole result array. -/
def G (x : (⟨3, ![2, 2048, 1024]⟩ : Shape).Idx → EReal) (W : (⟨2, ![3072, 1024]⟩ : Shape).Idx → EReal)
    (b : (⟨1, ![3072]⟩ : Shape).Idx → EReal) : (⟨3, ![2, 2048, 1024]⟩ : Shape).Idx → EReal :=
  fun i => Gat x W b (i 0) (i 1) (i 2)

theorem G_ix3 (x : (⟨3, ![2, 2048, 1024]⟩ : Shape).Idx → EReal) (W : (⟨2, ![3072, 1024]⟩ : Shape).Idx → EReal)
    (b : (⟨1, ![3072]⟩ : Shape).Idx → EReal) (bb : Fin 2) (tt : Fin 2048) (cc : Fin 1024) :
    G x W b (ix3 bb tt cc) = Gat x W b bb tt cc := rfl

end Cert.Spec

end
-- ==== Proof.RefSideProj.lean ====
/-
  The reference's fused projection read at an index: the stage that adds the bias to the product of the activations
  with the weight matrix is, at row (bb, tt) and column o, the specification's `qkv`.
-/
import proofs.«108929_j43173011259799_2_alg».proof.Proof.Gen.ReferenceIdeal.Read
import proofs.«108929_j43173011259799_2_alg».proof.Proof.Spec

noncomputable section

open scoped BigOperators

namespace Cert.RefSide

open Cert.ReferenceIdeal Cert.ReferenceIdeal.Read Idealize.ShloMosaic Idealize.ShloMosaic.ValueIdx

/-- The contraction of the first product reads the activations' row (bb, tt) at k … -/
theorem lidx_v0 (bb : Fin 2) (tt : Fin 2048) (o : Fin 3072) (k : Fin 1024) :
    lidx_main_v0 (ix3 bb tt o) k = ix3 bb tt k :=
  funext fun a => Fin.ext (by match a with | ⟨0, _⟩ => rfl | ⟨1, _⟩ => rfl | ⟨2, _⟩ => rfl)

/-- … and the weight matrix's row o at k. -/
theorem ridx_v0 (bb : Fin 2) (tt : Fin 2048) (o : Fin 3072) (k : Fin 1024) :
    ridx_main_v0 (ix3 bb tt o) k = ix2 o k :=
  funext fun a => Fin.ext (by match a with | ⟨0, _⟩ => rfl | ⟨1, _⟩ => rfl)

/-- The bias broadcast over the rows reads the bias at the column. -/
theorem idx_v1_v2 (bb : Fin 2) (tt : Fin 2048) (o : Fin 3072) :
    idx_main_v1 (idx_main_v2 (ix3 bb tt o)) = ix1 o :=
  funext fun a => Fin.ext (by match a with | ⟨0, _⟩ => rfl)

/-- The fused projection at row (bb, tt), column o. -/
theorem v3_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (tt : Fin 2048) (o : Fin 3072) :
    val_main_v3 (F := Ideal) x W b (ix3 bb tt o) = Cert.Spec.qkv x W b bb tt o := by
  rw [val_main_v3_apply, val_main_v0_apply, val_main_v2_apply, val_main_v1_apply, idx_v1_v2]
  simp only [lidx_v0, ridx_v0]
  rfl

/-- Component e of head h of the queries at row (bb, tt) sits, after the transpose, the reshape and the slice, at column
    `col 0 h e` of the fused projection. -/
theorem idx_q (bb : Fin 2) (h : Fin 16) (tt : Fin 2048) (e : Fin 64) :
    idx_main_v4 (idx_main_v7 (idx_main_v8 (ix4 bb h tt e))) = ix3 bb tt (Cert.Spec.col 0 h e) := by
  have h0 := bb.isLt; have h1 := h.isLt; have h2 := tt.isLt; have h3 := e.isLt
  funext a; refine Fin.ext ?_
  match a with
  | ⟨0, _⟩ => show ((((bb.val * 2048 + tt.val) * 16 + h.val) * 64 + e.val) / 2097152) = bb.val; omega
  | ⟨1, _⟩ => show ((((bb.val * 2048 + tt.val) * 16 + h.val) * 64 + e.val) / 1024 % 2048) = tt.val; omega
  | ⟨2, _⟩ => show ((((bb.val * 2048 + tt.val) * 16 + h.val) * 64 + e.val) % 1024) = 0 * 1024 + h.val * 64 + e.val; omega

/-- The queries, head by head, are columns of the fused projection. -/
theorem v8_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt : Fin 2048) (e : Fin 64) :
    val_main_v8 (F := Ideal) x W b (ix4 bb h tt e) = Cert.Spec.qkv x W b bb tt (Cert.Spec.col 0 h e) := by
  rw [val_main_v8_apply, val_main_v7_apply, val_main_v4_apply, idx_q, v3_ix]

/-- Component e of head h of the keys at row (bb, tt) sits, after the transpose, the reshape and the slice, at column
    `col 1 h e` of the fused projection. -/
theorem idx_k (bb : Fin 2) (h : Fin 16) (tt : Fin 2048) (e : Fin 64) :
    idx_main_v5 (idx_main_v9 (idx_main_v10 (ix4 bb h tt e))) = ix3 bb tt (Cert.Spec.col 1 h e) := by
  have h0 := bb.isLt; have h1 := h.isLt; have h2 := tt.isLt; have h3 := e.isLt
  funext a; refine Fin.ext ?_
  match a with
  | ⟨0, _⟩ => show ((((bb.val * 2048 + tt.val) * 16 + h.val) * 64 + e.val) / 2097152) = bb.val; omega
  | ⟨1, _⟩ => show ((((bb.val * 2048 + tt.val) * 16 + h.val) * 64 + e.val) / 1024 % 2048) = tt.val; omega
  | ⟨2, _⟩ => show 1024 + ((((bb.val * 2048 + tt.val) * 16 + h.val) * 64 + e.val) % 1024) = 1 * 1024 + h.val * 64 + e.val; omega

/-- The keys, head by head, are columns of the fused projection. -/
theorem v10_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt : Fin 2048) (e : Fin 64) :
    val_main_v10 (F := Ideal) x W b (ix4 bb h tt e) = Cert.Spec.qkv x W b bb tt (Cert.Spec.col 1 h e) := by
  rw [val_main_v10_apply, val_main_v9_apply, val_main_v5_apply, idx_k, v3_ix]

/-- Component e of head h of the values at row (bb, tt) sits, after the transpose, the reshape and the slice, at column
    `col 2 h e` of the fused projection. -/
theorem idx_v (bb : Fin 2) (h : Fin 16) (tt : Fin 2048) (e : Fin 64) :
    idx_main_v6 (idx_main_v11 (idx_main_v12 (ix4 bb h tt e))) = ix3 bb tt (Cert.Spec.col 2 h e) := by
  have h0 := bb.isLt; have h1 := h.isLt; have h2 := tt.isLt; have h3 := e.isLt
  funext a; refine Fin.ext ?_
  match a with
  | ⟨0, _⟩ => show ((((bb.val * 2048 + tt.val) * 16 + h.val) * 64 + e.val) / 2097152) = bb.val; omega
  | ⟨1, _⟩ => show ((((bb.val * 2048 + tt.val) * 16 + h.val) * 64 + e.val) / 1024 % 2048) = tt.val; omega
  | ⟨2, _⟩ => show 2048 + ((((bb.val * 2048 + tt.val) * 16 + h.val) * 64 + e.val) % 1024) = 2 * 1024 + h.val * 64 + e.val; omega

/-- The values, head by head, are columns of the fused projection. -/
theorem v12_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt : Fin 2048) (e : Fin 64) :
    val_main_v12 (F := Ideal) x W b (ix4 bb h tt e) = Cert.Spec.qkv x W b bb tt (Cert.Spec.col 2 h e) := by
  rw [val_main_v12_apply, val_main_v11_apply, val_main_v6_apply, idx_v, v3_ix]

end Cert.RefSide

end
-- ==== Proof.RefSideScore.lean ====
/-
  The reference's attention weights read at an index: the scaled score of query row tt against key row j in head h,
  rectified at zero, kept on and below the diagonal and replaced by zero above it, is the specification's `weight`.
  The diagonal test is made on 32-bit words: row ≥ column as signed words, which for coordinates below 2048 is the order
  of the naturals.
-/
import proofs.«108929_j43173011259799_2_alg».proof.Proof.Gen.ReferenceIdeal.Read
import proofs.«108929_j43173011259799_2_alg».proof.Proof.Spec
import proofs.«108929_j43173011259799_2_alg».proof.Proof.RefSideProj

noncomputable section

open scoped BigOperators

namespace Cert.RefSide

open Cert.ReferenceIdeal Cert.ReferenceIdeal.Read Idealize.ShloMosaic Idealize.ShloMosaic.ValueIdx

/-- A coordinate below 2048 is, as a signed 32-bit word, itself. -/
theorem toInt_small (n : Nat) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The diagonal test on words: "row + 0 ≥ column" holds exactly when the column is at most the row. -/
theorem mask_word (t j : Nat) (ht : t < 2048) (hj : j < 2048) :
    IntOp.cmpi .sge (IntOp.addi (BitVec.ofNat 32 t) 0#32) (BitVec.ofNat 32 j) = if j ≤ t then 1#1 else 0#1 := by
  unfold IntOp.cmpi IntOp.addi
  rw [BitVec.add_zero]
  show BitVec.ofBool ((BitVec.ofNat 32 j).sle (BitVec.ofNat 32 t)) = _
  rw [BitVec.sle_eq_decide, toInt_small j hj, toInt_small t ht]
  by_cases h : j ≤ t
  · rw [if_pos h, decide_eq_true (by exact_mod_cast h)]; rfl
  · rw [if_neg h, decide_eq_false (by exact_mod_cast h)]; rfl

/-- The lower-triangular mask at (tt, j). -/
theorem v17_ix (tt j : Fin 2048) :
    val_main_v17 (F := Ideal) (ix2 tt j) = if j.val ≤ tt.val then 1#1 else 0#1 := by
  rw [val_main_v17_apply, val_main_call0_v4_apply, val_main_call0_v2_apply, val_main_call0_v0_apply,
    val_main_call0_v1_apply, val_main_call0_c_apply, val_main_call0_v3_apply, val_main_v16_apply, val_main_c_apply,
    val_main_call0_v5_apply, val_main_call0_c_0_apply]
  refine (congrArg (fun c => Scalar.select c 1#1 0#1) (mask_word tt.val j.val tt.isLt j.isLt)).trans ?_
  by_cases h : j.val ≤ tt.val
  · rw [if_pos h]; exact select_one _ _
  · rw [if_neg h]; exact select_zero _ _

/-- The score's contraction reads the query row tt … -/
theorem lidx_v13 (bb : Fin 2) (h : Fin 16) (tt j : Fin 2048) (k : Fin 64) :
    lidx_main_v13 (ix4 bb h tt j) k = ix4 bb h tt k :=
  funext fun a => Fin.ext (by match a with | ⟨0, _⟩ => rfl | ⟨1, _⟩ => rfl | ⟨2, _⟩ => rfl | ⟨3, _⟩ => rfl)

/-- … against the key row j. -/
theorem ridx_v13 (bb : Fin 2) (h : Fin 16) (tt j : Fin 2048) (k : Fin 64) :
    ridx_main_v13 (ix4 bb h tt j) k = ix4 bb h j k :=
  funext fun a => Fin.ext (by match a with | ⟨0, _⟩ => rfl | ⟨1, _⟩ => rfl | ⟨2, _⟩ => rfl | ⟨3, _⟩ => rfl)

/-- The mask broadcast over batches and heads reads the mask at (tt, j). -/
theorem idx_mask (bb : Fin 2) (h : Fin 16) (tt j : Fin 2048) :
    idx_main_call2_v1 (ix4 bb h tt j) = ix2 tt j :=
  funext fun a => Fin.ext (by match a with | ⟨0, _⟩ => rfl | ⟨1, _⟩ => rfl)

/-- The scaled score, rectified at zero. -/
theorem v18_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt j : Fin 2048) :
    val_main_v18 (F := Ideal) x W b (ix4 bb h tt j)
      = max ((∑ e : Fin 64, Cert.Spec.qkv x W b bb tt (Cert.Spec.col 0 h e) * Cert.Spec.qkv x W b bb j (Cert.Spec.col 1 h e))
          * Cert.Spec.scale) Cert.Spec.zero := by
  rw [val_main_v18_apply, val_main_v15_apply, val_main_v13_apply, val_main_v14_apply, val_main_cst_apply,
    val_main_call1_v0_apply, val_main_call1_cst_apply]
  simp only [lidx_v13, ridx_v13, v8_ix, v10_ix]
  rfl

/-- The attention weight of key row j for query row tt in head h. -/
theorem v19_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt j : Fin 2048) :
    val_main_v19 (F := Ideal) x W b (ix4 bb h tt j) = Cert.Spec.weight (Cert.Spec.qkv x W b) bb h tt j := by
  rw [val_main_v19_apply, val_main_call2_v1_apply, idx_mask, v17_ix, v18_ix, val_main_call2_v2_apply,
    val_main_call2_v0_apply, val_main_cst_0_apply]
  unfold Cert.Spec.weight
  by_cases hjt : j.val ≤ tt.val
  · rw [if_pos hjt, if_pos hjt]; exact select_one _ _
  · rw [if_neg hjt, if_neg hjt]; exact select_zero _ _

end Cert.RefSide

end
-- ==== Proof.RefSide.lean ====
/-
  The reference's run read back: every weakly fair execution of the reference ends with its result array at
  `Cert.Spec.G` of its three argument arrays (and the arguments unchanged).

  The result's channel cc at row (bb, tt) is, before the last reshape and transpose, component cc % 64 of head cc / 64 of
  the product of the attention weights with the value rows; that product contracts the key row, so it is the
  specification's `attn` of the fused projection.
-/
import proofs.«108929_j43173011259799_2_alg».proof.Defs
import proofs.«108929_j43173011259799_2_alg».proof.Proof.Gen.ReferenceIdeal.Run
import proofs.«108929_j43173011259799_2_alg».proof.Proof.Gen.ReferenceIdeal.Read
import proofs.«108929_j43173011259799_2_alg».proof.Proof.Spec
import proofs.«108929_j43173011259799_2_alg».proof.Proof.RefSideProj
import proofs.«108929_j43173011259799_2_alg».proof.Proof.RefSideScore

noncomputable section

open scoped BigOperators

namespace Cert.RefSide

open Cert.ReferenceIdeal Cert.ReferenceIdeal.Read Idealize.ShloMosaic Idealize.ShloMosaic.TcCoe Idealize.SL.Sem
  Idealize.ShloMosaic.ValueIdx

/-- The weighted sum's contraction reads the weights of query row tt … -/
theorem lidx_v20 (bb : Fin 2) (h : Fin 16) (tt : Fin 2048) (d : Fin 64) (k : Fin 2048) :
    lidx_main_v20 (ix4 bb h tt d) k = ix4 bb h tt k :=
  funext fun a => Fin.ext (by match a with | ⟨0, _⟩ => rfl | ⟨1, _⟩ => rfl | ⟨2, _⟩ => rfl | ⟨3, _⟩ => rfl)

/-- … against component d of the value row k. -/
theorem ridx_v20 (bb : Fin 2) (h : Fin 16) (tt : Fin 2048) (d : Fin 64) (k : Fin 2048) :
    ridx_main_v20 (ix4 bb h tt d) k = ix4 bb h k d :=
  funext fun a => Fin.ext (by match a with | ⟨0, _⟩ => rfl | ⟨1, _⟩ => rfl | ⟨2, _⟩ => rfl | ⟨3, _⟩ => rfl)

/-- The weighted sum of the value rows is the specification's attention. -/
theorem v20_ix (x : (⟨S2x2048x1024, .f32⟩ : BufTy).Contents (Elt Ideal)) (W : (⟨S3072x1024, .f32⟩ : BufTy).Contents (Elt Ideal))
    (b : (⟨S3072, .f32⟩ : BufTy).Contents (Elt Ideal)) (bb : Fin 2) (h : Fin 16) (tt : Fin 2048) (d : Fin 64) :
    val_main_v20 (F := Ideal) x W b (ix4 bb h tt d) = Cert.Spec.attn (Cert.Spec.qkv x W b) bb tt h d := by
  rw [val_main_v20_apply]
  simp only [lidx_v20, ridx_v20, v19_ix, v12_ix]
  rfl

/-- Channel cc of row (bb, tt) of the result is component cc % 64 of head cc / 64. -/
theorem idx_out (bb : Fin 2) (tt : Fin 2048) (cc : Fin 1024) :
    idx_main_v21 (idx_main_v22 (ix3 bb tt cc))
      = ix4 bb (⟨cc.val / 64, by have := cc.isLt; omega⟩ : Fin 16) tt (⟨cc.val % 64, Nat.mod_lt _ (by decide)⟩ : Fin 64) := by
  have h0 := bb.isLt; have h1 := tt.isLt; have h2 := cc.isLt
  funext a; refine Fin.ext ?_
  match a with
  | ⟨0, _⟩ => show (((bb.val * 2048 + tt.val) * 1024 + cc.val) / 2097152) = bb.val; omega
  | ⟨1, _⟩ => show (((bb.val * 2048 + tt.val) * 1024 + cc.val) / 64 % 16) = cc.val / 64; omega
  | ⟨2, _⟩ => show (((bb.val * 2048 + tt.val) * 1024 + cc.val) / 1024 % 2048) = tt.val; omega
  | ⟨3, _⟩ => show (((bb.val * 2048 + tt.val) * 1024 + cc.val) % 64) = cc.val % 64; omega

/-- The reference's last stage, as a function of its three argument arrays, is the specification. -/
theorem result_eq (x : (⟨S2x2048x1024, .f32⟩ : BufTy).Contents (Elt Ideal)) (W : (⟨S3072x1024, .f32⟩ : BufTy).Contents (Elt Ideal))
    (b : (⟨S3072, .f32⟩ : BufTy).Contents (Elt Ideal)) :
    val_main_v22 (F := Ideal) x W b = Cert.Spec.G x W b := by
  funext i
  obtain ⟨bb, tt, cc, rfl⟩ : ∃ (bb : Fin 2) (tt : Fin 2048) (cc : Fin 1024), i = ix3 bb tt cc := ⟨i 0, i 1, i 2, eq_ix3 i⟩
  rw [val_main_v22_apply, val_main_v21_apply, idx_out, v20_ix, Cert.Spec.G_ix3]
  rfl

theorem run_spec (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v22)
          = Cert.Spec.G (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run (Cert.ReferenceIdeal.defs (F := Ideal)) _ _).mono
    (fun _ h c => ⟨(h c).1.trans ((val_main_v22_eq (F := Ideal) _ _ _).trans (result_eq _ _ _)), (h c).2⟩)
    (Cert.ReferenceIdeal.Value.run (F := Ideal) m ρ)

end Cert.RefSide

end
-- ==== Proof.Region0Value.lean ====
/-
  Region 0 of the program at the ideal values: the array the fused projection kernel leaves.

  The body's arithmetic at an index of its block is the row of the activations block against the column of the weight
  matrix, plus the bias at the column; a grid point writes back the block of rows it was handed; the eight blocks of
  512 rows tile the 4096 rows; so the output array ends holding, at row i and column o,
      (∑ k, x[i, k] · Wt[k, o]) + b[0, o]
  of the three arrays the region finds.
-/
import proofs.«108929_j43173011259799_2_alg».proof.Proof.Region0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an index -/

/-- The projection's dimension numbers: rows by the contraction times the contraction by columns. -/
abbrev D0 : DotDims S512x1024 S1024x3072 S512x3072 := dot_S512x1024_S1024x3072_S512x3072_1_0_0_1_n_n

theorem lhs0_0 (j : S512x3072.Idx) (q : D0.contr.Idx) : (D0.lhsIdx j q 0).val = (j 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs0_1 (j : S512x3072.Idx) (q : D0.contr.Idx) : (D0.lhsIdx j q 1).val = (q ⟨0, by decide⟩).val :=
  D0.lhsIdx_val_of_single rfl j q
theorem rhs0_0 (j : S512x3072.Idx) (q : D0.contr.Idx) : (D0.rhsIdx j q 0).val = (q ⟨0, by decide⟩).val :=
  D0.rhsIdx_val_of_single rfl j q
theorem rhs0_1 (j : S512x3072.Idx) (q : D0.contr.Idx) : (D0.rhsIdx j q 1).val = (j 1).val := by
  unfold DotDims.rhsIdx
  rw [dif_neg (show ¬(1 : Fin S1024x3072.rank) ∈ D0.rhsBatch by decide), dif_pos (show (1 : Fin S1024x3072.rank) ∈ D0.rhsNonContracting by decide)]
  rfl

/-- The product into the zero accumulator at row r, column o: the sum over the contraction coordinate. -/
theorem matmul0_apply (a : FVec Ideal S512x1024 .bf16) (b : FVec Ideal S1024x3072 .bf16) (r : Fin 512) (o : Fin 3072) :
    FloatOps.matmul D0 none a b (constant (F := Ideal) S512x3072 .f32 0x00000000#32) (ix2 r o)
      = ∑ k : Fin 1024, a (ix2 r k) * b (ix2 k o) := by
  rw [Ideal.matmul_constant_zero_apply, ← Equiv.sum_comp (contrEquiv1 D0 1024 rfl rfl).symm]
  refine Finset.sum_congr rfl fun k _ => ?_
  have hk := contrEquiv1_symm_val D0 1024 rfl rfl k
  have el : D0.lhsIdx (ix2 r o) ((contrEquiv1 D0 1024 rfl rfl).symm k) = ix2 r k := funext fun ax => Fin.ext (by
    match ax with
    | ⟨0, _⟩ => exact lhs0_0 _ _
    | ⟨1, _⟩ => exact (lhs0_1 _ _).trans hk)
  have er : D0.rhsIdx (ix2 r o) ((contrEquiv1 D0 1024 rfl rfl).symm k) = ix2 k o := funext fun ax => Fin.ext (by
    match ax with
    | ⟨0, _⟩ => exact (rhs0_0 _ _).trans hk
    | ⟨1, _⟩ => exact rhs0_1 _ _)
  rw [el, er]

/-- The body's stored value at row r, column o of its block: the activations' row against the weights' column, plus the
    bias at the column (the changes of format are the identity on extended reals). -/
theorem pay0_apply (x0 : Vec Ideal S512x1024 .f32) (x1 : Vec Ideal S1024x3072 .bf16) (x2 : Vec Ideal S1x3072 .f32)
    (r : Fin 512) (o : Fin 3072) :
    k0_pay1 (F := Ideal) x0 x1 x2 (ix2 r o)
      = (∑ k : Fin 1024, (x0 (ix2 r k) : EReal) * (x1 (ix2 k o) : EReal)) + (x2 (ix2 (0 : Fin 1) o) : EReal) := by
  unfold k0_pay1
  rw [shapeCast_self, shapeCast_self, shapeCast_self]
  refine (addf_apply _ _ _).trans ?_
  rw [broadcastTo_1b_ab_apply]
  refine congrArg (· + _) ?_
  exact matmul0_apply _ _ r o

/-! ## From blocks to the array -/

-- the buffers' contents when the region is entered, at the ideal values
variable (V : (c : Dev nD) → (b : Ref sig .tc) → Buf (Elt Ideal) ((c : Thread nD τ).loc b))

theorem hz0 : (![0, 0] : Fin 2 → Nat) = fun _ => 0 := funext fun a => by fin_cases a <;> rfl

/-- The array the region leaves, as one function of the three arrays it reads: row i of the activations against
    column o of the weights, plus the bias at column o. -/
def G0 (a0 : S4096x1024.Idx → EReal) (a1 : S1024x3072.Idx → EReal) (a2 : S1x3072.Idx → EReal) : S4096x3072.Idx → EReal :=
  fun i => (∑ k : Fin 1024, a0 (ix2 (⟨(i 0).val, idx2_lt0 i⟩ : Fin 4096) k) * a1 (ix2 k (⟨(i 1).val, idx2_lt1 i⟩ : Fin 3072)))
    + a2 (ix2 (0 : Fin 1) (⟨(i 1).val, idx2_lt1 i⟩ : Fin 3072))

theorem G0_ix2 (a0 : S4096x1024.Idx → EReal) (a1 : S1024x3072.Idx → EReal) (a2 : S1x3072.Idx → EReal) (r : Fin 4096) (o : Fin 3072) :
    G0 a0 a1 a2 (ix2 r o) = (∑ k : Fin 1024, a0 (ix2 r k) * a1 (ix2 k o)) + a2 (ix2 (0 : Fin 1) o) := rfl

/-- The printed index maps, decided over the grid: the activations' and the output's blocks move with the point along
    the rows; the weights and the bias are one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The activations' block at point t is rows 512 t … 512 t + 511 of the array. -/
theorem iblk0_0_apply (c : Dev nD) (t : Fin cfg0.N) (x : S512x1024.Idx) (k : S4096x1024.Idx)
    (hk0 : (k 0).val = t.val * 512 + (x 0).val) (hk1 : (k 1).val = (x 1).val) :
    (iblk0 V c 0 t : Vec Ideal S512x1024 .f32) x = (V c main_v0 : S4096x1024.Idx → EReal) k := by
  obtain ⟨e0, e1, -⟩ := idx_facts0 t
  unfold iblk0
  rw [View.read_apply]
  show V c main_v0 _ = V c main_v0 _
  refine congrArg (V c main_v0) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-- The weights' block at every point is the whole array. -/
theorem iblk0_1_apply (c : Dev nD) (t : Fin cfg0.N) (x : S1024x3072.Idx) :
    (iblk0 V c 1 t : Vec Ideal S1024x3072 .bf16) x = (V c main_v2 : S1024x3072.Idx → EReal) x := by
  obtain ⟨-, -, e0, e1, -⟩ := idx_facts0 t
  unfold iblk0
  rw [View.read_apply]
  show V c main_v2 _ = V c main_v2 _
  refine congrArg (V c main_v2) (funext fun a => Fin.ext ?_)
  match a with
  | ⟨0, _⟩ => show win0_1.index t (0 : Fin 2) * 1024 + 1 * (x 0).val = (x 0).val; rw [e0]; omega
  | ⟨1, _⟩ => show win0_1.index t (1 : Fin 2) * 3072 + 1 * (x 1).val = (x 1).val; rw [e1]; omega

/-- The bias' block at every point is the whole array. -/
theorem iblk0_2_apply (c : Dev nD) (t : Fin cfg0.N) (x : S1x3072.Idx) :
    (iblk0 V c 2 t : Vec Ideal S1x3072 .f32) x = (V c main_v3 : S1x3072.Idx → EReal) x := by
  obtain ⟨-, -, -, -, e0, e1, -⟩ := idx_facts0 t
  unfold iblk0
  rw [View.read_apply]
  show V c main_v3 _ = V c main_v3 _
  refine congrArg (V c main_v3) (funext fun a => Fin.ext ?_)
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-- What the body leaves in the output's buffer, from three blocks, at row r, column o. -/
theorem out0_3_apply (x0 : Vec Ideal S512x1024 .f32) (x1 : Vec Ideal S1024x3072 .bf16) (x2 : Vec Ideal S1x3072 .f32)
    (r : Fin 512) (o : Fin 3072) :
    out0_3 (F := Ideal) x0 x1 x2 (ix2 r o)
      = (∑ k : Fin 1024, (x0 (ix2 r k) : EReal) * (x1 (ix2 k o) : EReal)) + (x2 (ix2 (0 : Fin 1) o) : EReal) := by
  unfold out0_3
  rw [View.canon_unit_zero hz0]
  simp only [View.ld_unit_zero (S := S512x1024) hz0, View.ld_unit_zero (S := S1024x3072) hz0, View.ld_unit_zero (S := S1x3072) hz0]
  exact pay0_apply x0 x1 x2 r o

/-- What point t writes back is block t of G0 of the arrays the region finds. -/
theorem flushed0_3_eq (c : Dev nD) (t : Fin cfg0.N) :
    (dat0 (F := Ideal) V c).flushed 3 t
      = ((cfg0.win 3).blk t).view.read (Elt Ideal) (G0 (V c main_v0) (V c main_v2) (V c main_v3)) := by
  show (cfg0.win 3).cut (grid0.coords t) ((dat0 V c).after 3 t) = _
  rw [after0_3]
  obtain ⟨-, -, -, -, -, -, e0, e1⟩ := idx_facts0 t
  have hN : grid0.N = 8 := N_0
  have ht : t.val < grid0.N := t.isLt
  funext j
  have hj0 : (j 0).val < 512 := (j 0).isLt
  have hj1 : (j 1).val < 3072 := (j 1).isLt
  have hemb : ((cfg0.win 3).blk t).view.emb j
      = (ix2 (⟨t.val * 512 + (j 0).val, by omega⟩ : Fin 4096) (⟨(j 1).val, hj1⟩ : Fin 3072) : S4096x3072.Idx) := by
    funext a; apply Fin.ext
    match a with
    | ⟨0, _⟩ => show win0_3.index t (0 : Fin 2) * 512 + 1 * (j 0).val = t.val * 512 + (j 0).val; rw [e0]; omega
    | ⟨1, _⟩ => show win0_3.index t (1 : Fin 2) * 3072 + 1 * (j 1).val = (j 1).val; rw [e1]; omega
  have hj : j = (ix2 (⟨(j 0).val, hj0⟩ : Fin 512) (⟨(j 1).val, hj1⟩ : Fin 3072) : S512x3072.Idx) := by
    funext a
    match a with
    | ⟨0, _⟩ => rfl
    | ⟨1, _⟩ => rfl
  show out0_3 (iblk0 V c 0 t) (iblk0 V c 1 t) (iblk0 V c 2 t) j
    = G0 (V c main_v0) (V c main_v2) (V c main_v3) (((cfg0.win 3).blk t).view.emb j)
  rw [hemb, G0_ix2]
  refine (congrArg (out0_3 (iblk0 V c 0 t) (iblk0 V c 1 t) (iblk0 V c 2 t)) hj).trans ?_
  rw [out0_3_apply, iblk0_2_apply V c t]
  refine congrArg₂ (· + ·) (Finset.sum_congr rfl fun k _ => ?_) rfl
  rw [iblk0_1_apply V c t]
  exact congrArg₂ (· * ·) (iblk0_0_apply V c t _ _ rfl rfl) rfl

/-- An index of the array is in point t's block iff each coordinate is in the block's range on its axis. -/
theorem mem_blk0_3 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v4).slice (win0_3.rect t)).set ↔ _
  rw [View.set_slice_whole, Rect.mem_set_unit]
  exact Iff.rfl

/-- Row i of the array is in the block of point i / 512: the eight blocks of 512 rows tile the 4096 rows. -/
theorem cover0_arr (i : S4096x3072.Idx) : ∃ t : Fin cfg0.N, (cfg0.win 3).flush t = true ∧ i ∈ ((cfg0.win 3).blk t).view.set := by
  have hN : grid0.N = 8 := N_0
  have hi0 : (i 0).val < 4096 := idx2_lt0 i
  have hi1 : (i 1).val < 3072 := idx2_lt1 i
  have htN : (i 0).val / 512 < grid0.N := by rw [hN]; omega
  refine ⟨⟨(i 0).val / 512, htN⟩, flush0_3 _, ?_⟩
  obtain ⟨-, -, -, -, -, -, e0, e1⟩ := idx_facts0 ⟨(i 0).val / 512, htN⟩
  rw [mem_blk0_3]
  intro a
  match a with
  | ⟨0, _⟩ =>
    show win0_3.index ⟨(i 0).val / 512, htN⟩ (0 : Fin 2) * 512 ≤ (i 0).val ∧ (i 0).val < win0_3.index ⟨(i 0).val / 512, htN⟩ (0 : Fin 2) * 512 + 512
    rw [e0]; show (i 0).val / 512 * 512 ≤ (i 0).val ∧ (i 0).val < (i 0).val / 512 * 512 + 512; omega
  | ⟨1, _⟩ =>
    show win0_3.index ⟨(i 0).val / 512, htN⟩ (1 : Fin 2) * 3072 ≤ (i 1).val ∧ (i 1).val < win0_3.index ⟨(i 0).val / 512, htN⟩ (1 : Fin 2) * 3072 + 3072
    rw [e1]; omega

/-- THE ARRAY the region leaves: at row i, column o, the activations' row i against the weights' column o, plus the
    bias at column o — of the three arrays as the region finds them. -/
theorem final0_G (c : Dev nD) :
    (dat0 (F := Ideal) V c).arrAt 3 cfg0.N = G0 (V c main_v0) (V c main_v2) (V c main_v3) :=
  (dat0 (F := Ideal) V c).arrAt_eq_of_cover 3 (G0 (V c main_v0) (V c main_v2) (V c main_v3))
    (fun t _ => flushed0_3_eq V c t) cover0_arr

/-- The three arrays the region reads, as it finds them, read as functions to the extended reals: the activations
    [4096, 1024], the weights [1024, 3072], the bias [1, 3072]. -/
abbrev xArr0 (c : Dev nD) : S4096x1024.Idx → EReal := V c main_v0
abbrev wArr0 (c : Dev nD) : S1024x3072.Idx → EReal := V c main_v2
abbrev bArr0 (c : Dev nD) : S1x3072.Idx → EReal := V c main_v3

/-- The same, the function written out. -/
theorem final0 (c : Dev nD) :
    (dat0 (F := Ideal) V c).arrAt 3 cfg0.N
      = fun i : S4096x3072.Idx => (∑ k : Fin 1024, xArr0 V c (ix2 (⟨(i 0).val, idx2_lt0 i⟩ : Fin 4096) k)
            * wArr0 V c (ix2 k (⟨(i 1).val, idx2_lt1 i⟩ : Fin 3072)))
          + bArr0 V c (ix2 (0 : Fin 1) (⟨(i 1).val, idx2_lt1 i⟩ : Fin 3072)) :=
  final0_G V c

/-- The same read at row r, column o. -/
theorem final0_apply (c : Dev nD) (r : Fin 4096) (o : Fin 3072) :
    (dat0 (F := Ideal) V c).arrAt 3 cfg0.N (ix2 r o : S4096x3072.Idx)
      = (∑ k : Fin 1024, xArr0 V c (ix2 r k) * wArr0 V c (ix2 k o)) + bArr0 V c (ix2 (0 : Fin 1) o) := by
  rw [final0_G]; rfl

end Cert.KernelIdeal.Hand

end
-- ==== Proof.AttnPayloadOps.lean ====
/-
  The attention body's operations that are not pointwise, each read at one index, at the ideal values (extended reals,
  every operation exact).

  A block [1, 512, 64] viewed as [512, 64] reads (0, r, e) at (r, e).  The score product contracts the 64 components of a
  query row with those of a key row; the value product contracts the 512 key rows of a weight row with a value column;
  each accumulates into the zero array, so each is a plain finite sum.  The mask compares the global row numbers
  qi · 512 + r and kv · 512 + j as signed 32-bit words; both are below 2048, so the comparison is the order of the
  naturals.
-/
import proofs.«108929_j43173011259799_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.AttnMath

open Idealize.ShloMosaic Idealize.ShloMosaic.ValueIdx Cert.KernelIdeal Cert.KernelIdeal.Gen

/-- A [1, 512, 64] block viewed as [512, 64] reads (0, r, e) at (r, e): the two row-major positions agree. -/
theorem dropUnit64_apply {α : Type} (v : S1x512x64.Idx → α) (r : Fin 512) (e : Fin 64) :
    shapeCast S512x64 v shapeCasts_S1x512x64_S512x64 (ix2 r e) = v (ix3 0 r e) :=
  shapeCast_apply v shapeCasts_S1x512x64_S512x64 (ix2 r e) (ix3 0 r e) (by
    rewrite [Shape.rowMajor_val_three, Shape.rowMajor_val_two]
    show (0 * 512 + r.val) * 64 + e.val = r.val * 64 + e.val
    omega)

/-- The score product's operand indices at output index i and contraction index q, coordinate by coordinate. -/
theorem scores_lhs_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
theorem scores_lhs_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem scores_rhs_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
theorem scores_rhs_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- The score product at (r, j): the sum over the 64 components of row r of the left operand times row j of the right. -/
theorem scores_apply (a b : FVec Ideal S512x64 .bf16) (r j : Fin 512) :
    matmul dot_S512x64_S512x64_S512x512_1_1_0_0_n_n none a b (constant (F := Ideal) S512x512 .f32 0x00000000#32) (ix2 r j)
      = ∑ e : Fin 64, a (ix2 r e) * b (ix2 j e) := by
  simp only [matmul]
  rw [Ideal.matmul_constant_zero_apply,
    ← Equiv.sum_comp (contrEquiv1 dot_S512x64_S512x64_S512x512_1_1_0_0_n_n 64 rfl rfl).symm]
  refine Finset.sum_congr rfl fun e _ => ?_
  have he := contrEquiv1_symm_val dot_S512x64_S512x64_S512x512_1_1_0_0_n_n 64 rfl rfl e
  have el : dot_S512x64_S512x64_S512x512_1_1_0_0_n_n.lhsIdx (ix2 r j)
      ((contrEquiv1 dot_S512x64_S512x64_S512x512_1_1_0_0_n_n 64 rfl rfl).symm e) = ix2 r e :=
    funext fun c => Fin.ext (by
      match c with
      | ⟨0, _⟩ => exact scores_lhs_0 _ _
      | ⟨1, _⟩ => exact (scores_lhs_1 _ _).trans he)
  have er : dot_S512x64_S512x64_S512x512_1_1_0_0_n_n.rhsIdx (ix2 r j)
      ((contrEquiv1 dot_S512x64_S512x64_S512x512_1_1_0_0_n_n 64 rfl rfl).symm e) = ix2 j e :=
    funext fun c => Fin.ext (by
      match c with
      | ⟨0, _⟩ => exact scores_rhs_0 _ _
      | ⟨1, _⟩ => exact (scores_rhs_1 _ _).trans he)
  rw [el, er]

/-- The value product's operand indices at output index i and contraction index q, coordinate by coordinate. -/
theorem weighted_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem weighted_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem weighted_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q
theorem weighted_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The value product at (r, d): the sum over the 512 key rows of the weight at (r, j) times the value at (j, d). -/
theorem weighted_apply (p : FVec Ideal S512x512 .bf16) (v : FVec Ideal S512x64 .bf16) (r : Fin 512) (d : Fin 64) :
    matmul dot_S512x512_S512x64_S512x64_1_0_0_1_n_n none p v (constant (F := Ideal) S512x64 .f32 0x00000000#32) (ix2 r d)
      = ∑ j : Fin 512, p (ix2 r j) * v (ix2 j d) := by
  simp only [matmul]
  rw [Ideal.matmul_constant_zero_apply,
    ← Equiv.sum_comp (contrEquiv1 dot_S512x512_S512x64_S512x64_1_0_0_1_n_n 512 rfl rfl).symm]
  refine Finset.sum_congr rfl fun j _ => ?_
  have hj := contrEquiv1_symm_val dot_S512x512_S512x64_S512x64_1_0_0_1_n_n 512 rfl rfl j
  have el : dot_S512x512_S512x64_S512x64_1_0_0_1_n_n.lhsIdx (ix2 r d)
      ((contrEquiv1 dot_S512x512_S512x64_S512x64_1_0_0_1_n_n 512 rfl rfl).symm j) = ix2 r j :=
    funext fun c => Fin.ext (by
      match c with
      | ⟨0, _⟩ => exact weighted_lhs_0 _ _
      | ⟨1, _⟩ => exact (weighted_lhs_1 _ _).trans hj)
  have er : dot_S512x512_S512x64_S512x64_1_0_0_1_n_n.rhsIdx (ix2 r d)
      ((contrEquiv1 dot_S512x512_S512x64_S512x64_1_0_0_1_n_n 512 rfl rfl).symm j) = ix2 j d :=
    funext fun c => Fin.ext (by
      match c with
      | ⟨0, _⟩ => exact (weighted_rhs_0 _ _).trans hj
      | ⟨1, _⟩ => exact weighted_rhs_1 _ _)
  rw [el, er]

/-- Signed comparison of two 32-bit words that encode naturals below 2048 is the comparison of the naturals. -/
theorem sle_ofNat_small (m n : Nat) (hm : m < 2048) (hn : n < 2048) :
    (BitVec.ofNat 32 m).sle (BitVec.ofNat 32 n) = decide (m ≤ n) := by
  have e : ∀ k : Nat, k < 2048 → (BitVec.ofNat 32 k).toInt = (k : Int) := fun k hk => by
    have hk' : (BitVec.ofNat 32 k).toNat = k := by rw [BitVec.toNat_ofNat]; omega
    rw [BitVec.toInt_eq_toNat_of_lt (by rw [hk']; omega), hk']
  unfold BitVec.sle
  rw [e m hm, e n hn]
  simp

/-- The mask at (r, j): set exactly when global key row kv · 512 + j is at or before global query row qi · 512 + r. -/
theorem mask_apply (qi kv : Fin 4) (r j : Fin 512) :
    k1_pay4 (BitVec.ofNat 32 qi.val) (BitVec.ofNat 32 kv.val) (ix2 r j)
      = if kv.val * 512 + j.val ≤ qi.val * 512 + r.val then 1#1 else 0#1 := by
  have hq := qi.isLt
  have hk := kv.isLt
  have hr := r.isLt
  have hj := j.isLt
  unfold k1_pay4
  show IntOp.cmpi .sge
      (IntOp.addi (Scalar.muli (BitVec.ofNat 32 qi.val) 512#32) (iota .tc S512x512 32 [0] iota_S512x512_d0_w32 (ix2 r j)))
      (IntOp.addi (Scalar.muli (BitVec.ofNat 32 kv.val) 512#32) (iota .tc S512x512 32 [1] iota_S512x512_d1_w32 (ix2 r j))) = _
  rw [iota_single_apply, iota_single_apply]
  show BitVec.ofBool ((BitVec.ofNat 32 kv.val * BitVec.ofNat 32 512 + BitVec.ofNat 32 j.val).sle
      (BitVec.ofNat 32 qi.val * BitVec.ofNat 32 512 + BitVec.ofNat 32 r.val)) = _
  rw [← BitVec.ofNat_mul, ← BitVec.ofNat_mul, ← BitVec.ofNat_add, ← BitVec.ofNat_add,
    sle_ofNat_small _ _ (by omega) (by omega)]
  by_cases h : kv.val * 512 + j.val ≤ qi.val * 512 + r.val
  · rw [if_pos h, decide_eq_true h]; rfl
  · rw [if_neg h, decide_eq_false h]; rfl

end Cert.KernelIdeal.AttnMath

end
-- ==== Proof.AttnPayload.lean ====
/-
  The attention body's arithmetic, read at one element, at the ideal values (extended reals, every operation exact, the
  format changes the identity).

  One step of the body adds to the accumulator, for query row r of the block at position qi and component d,
      ∑ j, w r j · v[j, d],
  the sum over the 512 rows j of the key/value block at position kv, where the weight w r j is the score ⟨q r, k j⟩ · 1/8
  rectified at zero when global key row kv · 512 + j is at or before global query row qi · 512 + r, and zero otherwise.
  Both heads of a 128-lane block run this same step on their own 64 lanes.  The initial accumulator is the zero array and
  the final store adds a leading unit axis.
-/
import proofs.«108929_j43173011259799_2_alg».proof.Proof.AttnPayloadOps
import proofs.«108929_j43173011259799_2_alg».proof.Proof.Spec
import Idealize.ShloMosaic.Lib.ValueLayout

noncomputable section

open scoped BigOperators

namespace Cert.KernelIdeal.AttnMath

open Idealize.ShloMosaic Idealize.ShloMosaic.ValueIdx Cert.KernelIdeal Cert.KernelIdeal.Gen

/-- The weight of row j of a key block at position kv for row r of a query block at position qi. -/
def w (qi kv : Fin 4) (q k : Fin 512 → Fin 64 → EReal) (r j : Fin 512) : EReal :=
  if kv.val * 512 + j.val ≤ qi.val * 512 + r.val then max ((∑ e : Fin 64, q r e * k j e) * Cert.Spec.scale) Cert.Spec.zero else Cert.Spec.zero

/-- One accumulation step over operands already read as [512, 64] arrays, for any mask word array assumed to be the
    causal one (bit 1 exactly where the key row is on or below the query row). -/
theorem step_apply (qi kv : Fin 4) (m : IVec S512x512 1)
    (hm : ∀ r j : Fin 512, m (ix2 r j) = if kv.val * 512 + j.val ≤ qi.val * 512 + r.val then 1#1 else 0#1)
    (a b : FVec Ideal S512x64 .bf16) (vv : Vec Ideal S1x512x64 .bf16) (acc : Vec Ideal S512x64 .f32) (r : Fin 512) (d : Fin 64) :
    k1_pay2 (F := Ideal) m a b vv acc (ix2 r d)
      = acc (ix2 r d) + ∑ j : Fin 512, w qi kv (fun r e => a (ix2 r e)) (fun j e => b (ix2 j e)) r j * vv (ix3 0 j d) := by
  unfold k1_pay2
  rw [shapeCast_self]
  refine (addf_apply _ _ _).trans ?_
  refine congrArg (acc (ix2 r d) + ·) ?_
  refine (weighted_apply _ _ r d).trans ?_
  refine Finset.sum_congr rfl fun j _ => ?_
  rw [dropUnit64_apply]
  refine congrArg (· * vv (ix3 0 j d)) ?_
  show Scalar.select (m (ix2 r j))
      (max (matmul dot_S512x64_S512x64_S512x512_1_1_0_0_n_n none a b (constant (F := Ideal) S512x512 .f32 0x00000000#32) (ix2 r j)
        * Cert.Spec.scale) Cert.Spec.zero)
      Cert.Spec.zero = _
  rw [hm r j, scores_apply]
  unfold w
  by_cases h : kv.val * 512 + j.val ≤ qi.val * 512 + r.val
  · rw [if_pos h, if_pos h, select_one]
  · rw [if_neg h, if_neg h, select_zero]

/-- The second head's step: the mask, and the query and key blocks viewed as [512, 64], come from the first head's part. -/
theorem pay2_apply (qi kv : Fin 4) (v41 v43 v45 : Vec Ideal S1x512x64 .bf16) (v56 : Vec Ideal S512x64 .f32) (r : Fin 512) (d : Fin 64) :
    k1_pay2 (F := Ideal) (k1_pay4 (BitVec.ofNat 32 qi.val) (BitVec.ofNat 32 kv.val)) (k1_pay6 v41) (k1_pay7 v43) v45 v56 (ix2 r d)
      = v56 (ix2 r d) + ∑ j : Fin 512, w qi kv (fun r e => v41 (ix3 0 r e)) (fun j e => v43 (ix3 0 j e)) r j * v45 (ix3 0 j d) := by
  have hq : (fun (r : Fin 512) (e : Fin 64) => k1_pay6 (F := Ideal) v41 (ix2 r e)) = fun r e => v41 (ix3 0 r e) :=
    funext fun r => funext fun e => dropUnit64_apply v41 r e
  have hk : (fun (j : Fin 512) (e : Fin 64) => k1_pay7 (F := Ideal) v43 (ix2 j e)) = fun j e => v43 (ix3 0 j e) :=
    funext fun j => funext fun e => dropUnit64_apply v43 j e
  rw [step_apply qi kv _ (mask_apply qi kv), hq, hk]

/-- The first head's step is the same arithmetic on its own three blocks. -/
theorem pay5_apply (qi kv : Fin 4) (v21 v23 v25 : Vec Ideal S1x512x64 .bf16) (v36 : Vec Ideal S512x64 .f32) (r : Fin 512) (d : Fin 64) :
    k1_pay5 (F := Ideal) (BitVec.ofNat 32 qi.val) (BitVec.ofNat 32 kv.val) v21 v23 v25 v36 (ix2 r d)
      = v36 (ix2 r d) + ∑ j : Fin 512, w qi kv (fun r e => v21 (ix3 0 r e)) (fun j e => v23 (ix3 0 j e)) r j * v25 (ix3 0 j d) :=
  pay2_apply qi kv v21 v23 v25 v36 r d

/-- The initial accumulator: the zero word is the real 0. -/
theorem pay1_apply (i : S512x128.Idx) : k1_pay1 (F := Ideal) i = 0 := by
  unfold k1_pay1
  rw [shapeCast_self]
  exact Ideal.ofBits_zero_f32

/-- The final store adds a leading unit axis: (0, r, l) reads (r, l). -/
theorem pay3_apply (v12 : Vec Ideal S512x128 .f32) (r : Fin 512) (l : Fin 128) : k1_pay3 (F := Ideal) v12 (ix3 0 r l) = v12 (ix2 r l) :=
  shapeCast_apply v12 shapeCasts_S512x128_S1x512x128 (ix3 0 r l) (ix2 r l) (by
    rewrite [Shape.rowMajor_val_two, Shape.rowMajor_val_three]
    show r.val * 128 + l.val = (0 * 512 + r.val) * 128 + l.val
    omega)

end Cert.KernelIdeal.AttnMath

end
-- ==== Proof.R1Pieces.lean ====
/-
  What each case of the attention body leaves in the scratch and in the result block, read at one element, at the ideal
  values.

  The scratch [512, 128] carries the running sums of two heads side by side: lanes 0 … 63 belong to the first head of
  the pair and lanes 64 … 127 to the second.  Each step stores the two halves separately, each half being that head's
  step on its own 64 lanes of the query, key and value blocks and of the carried sum.  So after a step the scratch at
  row r, lane (h, d) is the carried sum there plus ∑ j, w r j · v[j, (h, d)]; the first step of a row of points starts
  from zero; the last one copies the scratch into the result block under a leading unit axis.
-/
import proofs.«108929_j43173011259799_2_alg».proof.Proof.R1Frame
import proofs.«108929_j43173011259799_2_alg».proof.Proof.AttnPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal.AttnMath

/-- Lane d of half h of a 128-lane block. -/
def lane (h : Fin 2) (d : Fin 64) : Fin 128 := ⟨h.val * 64 + d.val, by have := h.isLt; have := d.isLt; omega⟩

section Halves
variable {Val : EltTy → Type} [∀ e, Nonempty (Val e)]

/-- Two stores of [512, 64] halves into a [512, 128] buffer, the right half last: the left half reads the first store. -/
theorem canon_halves_lo (w1 w0 : S512x64.Idx → Val .f32) (L : List (View.Piece Val S512x128 .f32)) (r : Fin 512) (d : Fin 64) :
    View.canon (Val := Val) (s := S512x128) (e := .f32)
      (⟨Rect.unit ![0, 64] ![512, 64] inb_S512x128_S512x64_0_64, w1⟩ :: ⟨Rect.unit ![0, 0] ![512, 64] inb_S512x128_S512x64_0_0, w0⟩ :: L)
      (ix2 r (lane 0 d)) = w0 (ix2 r d) := by
  have hd := d.isLt
  rw [View.canon_cons_of_not_mem]
  · have e : (Rect.unit (s := S512x128) ![0, 0] ![512, 64] inb_S512x128_S512x64_0_0).emb (ix2 r d) = ix2 r (lane 0 d) :=
      funext fun a => Fin.ext (by
        match a with
        | ⟨0, _⟩ => show 0 + 1 * r.val = r.val; omega
        | ⟨1, _⟩ => show 0 + 1 * d.val = 0 * 64 + d.val; omega)
    rw [← e]
    exact View.canon_cons_emb (Rect.unit (s := S512x128) ![0, 0] ![512, 64] inb_S512x128_S512x64_0_0) w0 L (ix2 r d)
  · intro hm
    have hm' : ix2 r (lane 0 d) ∈ (Rect.unit (s := S512x128) ![0, 64] ![512, 64] inb_S512x128_S512x64_0_64).set := hm
    have h1 := (Rect.mem_set_unit.mp hm') 1
    have h2 : (64 : Nat) ≤ 0 * 64 + d.val := h1.1
    omega

/-- The right half reads the last store. -/
theorem canon_halves_hi (w1 w0 : S512x64.Idx → Val .f32) (L : List (View.Piece Val S512x128 .f32)) (r : Fin 512) (d : Fin 64) :
    View.canon (Val := Val) (s := S512x128) (e := .f32)
      (⟨Rect.unit ![0, 64] ![512, 64] inb_S512x128_S512x64_0_64, w1⟩ :: ⟨Rect.unit ![0, 0] ![512, 64] inb_S512x128_S512x64_0_0, w0⟩ :: L)
      (ix2 r (lane 1 d)) = w1 (ix2 r d) := by
  have e : (Rect.unit (s := S512x128) ![0, 64] ![512, 64] inb_S512x128_S512x64_0_64).emb (ix2 r d) = ix2 r (lane 1 d) :=
    funext fun a => Fin.ext (by
      match a with
      | ⟨0, _⟩ => show 0 + 1 * r.val = r.val; omega
      | ⟨1, _⟩ => show 64 + 1 * d.val = 1 * 64 + d.val; omega)
  rw [← e]
  exact View.canon_cons_emb (Rect.unit (s := S512x128) ![0, 64] ![512, 64] inb_S512x128_S512x64_0_64) w1 _ (ix2 r d)

end Halves

/-- A [1, 512, 64] load of half h of a whole [1, 512, 128] buffer holding x reads x at lane (h, e). -/
theorem load3_lo (arg : Memref sig .tc .vmem S1x512x128 .bf16) (harg : arg.IsWhole) (x : Vec F S1x512x128 .bf16) (r : Fin 512) (e : Fin 64) :
    View.readAt (Elt F) arg.view (Rect.unit (s := S1x512x128) ![0, 0, 0] ![1, 512, 64] inb_S1x512x128_S1x512x64_0_0_0).toLoadRect (harg.unread x) (ix3 0 r e)
      = x (ix3 0 r (lane 0 e)) := by
  rw [View.readAt_eq_ld, harg.read_unread]
  show x _ = x _
  refine congrArg x (funext fun a => Fin.ext ?_)
  match a with
  | ⟨0, _⟩ => rfl
  | ⟨1, _⟩ => show 0 + 1 * r.val = r.val; omega
  | ⟨2, _⟩ => show 0 + 1 * e.val = 0 * 64 + e.val; omega

theorem load3_hi (arg : Memref sig .tc .vmem S1x512x128 .bf16) (harg : arg.IsWhole) (x : Vec F S1x512x128 .bf16) (r : Fin 512) (e : Fin 64) :
    View.readAt (Elt F) arg.view (Rect.unit (s := S1x512x128) ![0, 0, 64] ![1, 512, 64] inb_S1x512x128_S1x512x64_0_0_64).toLoadRect (harg.unread x) (ix3 0 r e)
      = x (ix3 0 r (lane 1 e)) := by
  rw [View.readAt_eq_ld, harg.read_unread]
  show x _ = x _
  refine congrArg x (funext fun a => Fin.ext ?_)
  match a with
  | ⟨0, _⟩ => rfl
  | ⟨1, _⟩ => show 0 + 1 * r.val = r.val; omega
  | ⟨2, _⟩ => show 64 + 1 * e.val = 1 * 64 + e.val; omega

/-- A [512, 64] load of half h of the whole [512, 128] scratch holding x reads x at lane (h, d). -/
theorem load2_lo (arg : Memref sig .tc .vmem S512x128 .f32) (harg : arg.IsWhole) (x : Vec F S512x128 .f32) (r : Fin 512) (d : Fin 64) :
    View.readAt (Elt F) arg.view (Rect.unit (s := S512x128) ![0, 0] ![512, 64] inb_S512x128_S512x64_0_0).toLoadRect (harg.unread x) (ix2 r d)
      = x (ix2 r (lane 0 d)) := by
  rw [View.readAt_eq_ld, harg.read_unread]
  show x _ = x _
  refine congrArg x (funext fun a => Fin.ext ?_)
  match a with
  | ⟨0, _⟩ => show 0 + 1 * r.val = r.val; omega
  | ⟨1, _⟩ => show 0 + 1 * d.val = 0 * 64 + d.val; omega

theorem load2_hi (arg : Memref sig .tc .vmem S512x128 .f32) (harg : arg.IsWhole) (x : Vec F S512x128 .f32) (r : Fin 512) (d : Fin 64) :
    View.readAt (Elt F) arg.view (Rect.unit (s := S512x128) ![0, 64] ![512, 64] inb_S512x128_S512x64_0_64).toLoadRect (harg.unread x) (ix2 r d)
      = x (ix2 r (lane 1 d)) := by
  rw [View.readAt_eq_ld, harg.read_unread]
  show x _ = x _
  refine congrArg x (funext fun a => Fin.ext ?_)
  match a with
  | ⟨0, _⟩ => show 0 + 1 * r.val = r.val; omega
  | ⟨1, _⟩ => show 64 + 1 * d.val = 1 * 64 + d.val; omega

/-! ## The scratch after a step, at the ideal values -/

/-- One step's contribution to row r, lane (h, d) of the scratch: the sum over the key block's rows of the weight times the value. -/
def contrib (qi kv : Fin 4) (x0 x1 x2 : Vec Ideal S1x512x128 .bf16) (r : Fin 512) (h : Fin 2) (d : Fin 64) : EReal :=
  ∑ j : Fin 512, w qi kv (fun r e => x0 (ix3 0 r (lane h e))) (fun j e => x1 (ix3 0 j (lane h e))) r j * x2 (ix3 0 j (lane h d))

/-- The two half stores of a step, over whatever was stored before: on the left half the first head's step on the carried
    sum's left half. -/
theorem step_canon_lo (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (qi kv : Fin 4) (hq : (i 1).val = qi.val) (hk : (i 2).val = kv.val)
    (x0 x1 x2 : Vec Ideal S1x512x128 .bf16) (acc : Vec Ideal S512x128 .f32) (alo ahi : Vec Ideal S512x64 .f32)
    (hlo : ∀ r d, alo (ix2 r d) = acc (ix2 r (lane 0 d))) (hhi : ∀ r d, ahi (ix2 r d) = acc (ix2 r (lane 1 d)))
    (L : List (View.Piece (Elt Ideal) S512x128 .f32)) (r : Fin 512) (d : Fin 64) :
    View.canon (Val := Elt Ideal) (s := S512x128) (e := .f32)
      (⟨Rect.unit ![0, 64] ![512, 64] inb_S512x128_S512x64_0_64,
          k1_pay2 (F := Ideal) (k1_pay4 (BitVec.ofNat 32 (i 1).val) (BitVec.ofNat 32 (i 2).val))
            (k1_pay6 (View.readAt (Elt Ideal) arg3.view (Rect.unit (s := S1x512x128) ![0, 0, 64] ![1, 512, 64] inb_S1x512x128_S1x512x64_0_0_64).toLoadRect (harg3.unread x0)))
            (k1_pay7 (View.readAt (Elt Ideal) arg4.view (Rect.unit (s := S1x512x128) ![0, 0, 64] ![1, 512, 64] inb_S1x512x128_S1x512x64_0_0_64).toLoadRect (harg4.unread x1)))
            (View.readAt (Elt Ideal) arg5.view (Rect.unit (s := S1x512x128) ![0, 0, 64] ![1, 512, 64] inb_S1x512x128_S1x512x64_0_0_64).toLoadRect (harg5.unread x2))
            ahi⟩ ::
       ⟨Rect.unit ![0, 0] ![512, 64] inb_S512x128_S512x64_0_0,
          k1_pay5 (F := Ideal) (BitVec.ofNat 32 (i 1).val) (BitVec.ofNat 32 (i 2).val)
            (View.readAt (Elt Ideal) arg3.view (Rect.unit (s := S1x512x128) ![0, 0, 0] ![1, 512, 64] inb_S1x512x128_S1x512x64_0_0_0).toLoadRect (harg3.unread x0))
            (View.readAt (Elt Ideal) arg4.view (Rect.unit (s := S1x512x128) ![0, 0, 0] ![1, 512, 64] inb_S1x512x128_S1x512x64_0_0_0).toLoadRect (harg4.unread x1))
            (View.readAt (Elt Ideal) arg5.view (Rect.unit (s := S1x512x128) ![0, 0, 0] ![1, 512, 64] inb_S1x512x128_S1x512x64_0_0_0).toLoadRect (harg5.unread x2))
            alo⟩ :: L)
      (ix2 r (lane 0 d)) = acc (ix2 r (lane 0 d)) + contrib qi kv x0 x1 x2 r 0 d := by
  refine (canon_halves_lo _ _ L r d).trans ?_
  rw [hq, hk]
  refine (pay5_apply qi kv _ _ _ _ r d).trans ?_
  unfold contrib
  simp only [load3_lo, hlo]

/-- On the right half the second head's step on the carried sum's right half. -/
theorem step_canon_hi (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (qi kv : Fin 4) (hq : (i 1).val = qi.val) (hk : (i 2).val = kv.val)
    (x0 x1 x2 : Vec Ideal S1x512x128 .bf16) (acc : Vec Ideal S512x128 .f32) (alo ahi : Vec Ideal S512x64 .f32)
    (hlo : ∀ r d, alo (ix2 r d) = acc (ix2 r (lane 0 d))) (hhi : ∀ r d, ahi (ix2 r d) = acc (ix2 r (lane 1 d)))
    (L : List (View.Piece (Elt Ideal) S512x128 .f32)) (r : Fin 512) (d : Fin 64) :
    View.canon (Val := Elt Ideal) (s := S512x128) (e := .f32)
      (⟨Rect.unit ![0, 64] ![512, 64] inb_S512x128_S512x64_0_64,
          k1_pay2 (F := Ideal) (k1_pay4 (BitVec.ofNat 32 (i 1).val) (BitVec.ofNat 32 (i 2).val))
            (k1_pay6 (View.readAt (Elt Ideal) arg3.view (Rect.unit (s := S1x512x128) ![0, 0, 64] ![1, 512, 64] inb_S1x512x128_S1x512x64_0_0_64).toLoadRect (harg3.unread x0)))
            (k1_pay7 (View.readAt (Elt Ideal) arg4.view (Rect.unit (s := S1x512x128) ![0, 0, 64] ![1, 512, 64] inb_S1x512x128_S1x512x64_0_0_64).toLoadRect (harg4.unread x1)))
            (View.readAt (Elt Ideal) arg5.view (Rect.unit (s := S1x512x128) ![0, 0, 64] ![1, 512, 64] inb_S1x512x128_S1x512x64_0_0_64).toLoadRect (harg5.unread x2))
            ahi⟩ ::
       ⟨Rect.unit ![0, 0] ![512, 64] inb_S512x128_S512x64_0_0,
          k1_pay5 (F := Ideal) (BitVec.ofNat 32 (i 1).val) (BitVec.ofNat 32 (i 2).val)
            (View.readAt (Elt Ideal) arg3.view (Rect.unit (s := S1x512x128) ![0, 0, 0] ![1, 512, 64] inb_S1x512x128_S1x512x64_0_0_0).toLoadRect (harg3.unread x0))
            (View.readAt (Elt Ideal) arg4.view (Rect.unit (s := S1x512x128) ![0, 0, 0] ![1, 512, 64] inb_S1x512x128_S1x512x64_0_0_0).toLoadRect (harg4.unread x1))
            (View.readAt (Elt Ideal) arg5.view (Rect.unit (s := S1x512x128) ![0, 0, 0] ![1, 512, 64] inb_S1x512x128_S1x512x64_0_0_0).toLoadRect (harg5.unread x2))
            alo⟩ :: L)
      (ix2 r (lane 1 d)) = acc (ix2 r (lane 1 d)) + contrib qi kv x0 x1 x2 r 1 d := by
  refine (canon_halves_hi _ _ L r d).trans ?_
  rw [hq, hk]
  refine (pay2_apply qi kv _ _ _ _ r d).trans ?_
  unfold contrib
  simp only [load3_hi, hhi]

/-- Both halves at once. -/
theorem step_canon (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (qi kv : Fin 4) (hq : (i 1).val = qi.val) (hk : (i 2).val = kv.val)
    (x0 x1 x2 : Vec Ideal S1x512x128 .bf16) (acc : Vec Ideal S512x128 .f32) (alo ahi : Vec Ideal S512x64 .f32)
    (hlo : ∀ r d, alo (ix2 r d) = acc (ix2 r (lane 0 d))) (hhi : ∀ r d, ahi (ix2 r d) = acc (ix2 r (lane 1 d)))
    (L : List (View.Piece (Elt Ideal) S512x128 .f32)) (h : Fin 2) : ∀ (r : Fin 512) (d : Fin 64),
    View.canon (Val := Elt Ideal) (s := S512x128) (e := .f32)
      (⟨Rect.unit ![0, 64] ![512, 64] inb_S512x128_S512x64_0_64,
          k1_pay2 (F := Ideal) (k1_pay4 (BitVec.ofNat 32 (i 1).val) (BitVec.ofNat 32 (i 2).val))
            (k1_pay6 (View.readAt (Elt Ideal) arg3.view (Rect.unit (s := S1x512x128) ![0, 0, 64] ![1, 512, 64] inb_S1x512x128_S1x512x64_0_0_64).toLoadRect (harg3.unread x0)))
            (k1_pay7 (View.readAt (Elt Ideal) arg4.view (Rect.unit (s := S1x512x128) ![0, 0, 64] ![1, 512, 64] inb_S1x512x128_S1x512x64_0_0_64).toLoadRect (harg4.unread x1)))
            (View.readAt (Elt Ideal) arg5.view (Rect.unit (s := S1x512x128) ![0, 0, 64] ![1, 512, 64] inb_S1x512x128_S1x512x64_0_0_64).toLoadRect (harg5.unread x2))
            ahi⟩ ::
       ⟨Rect.unit ![0, 0] ![512, 64] inb_S512x128_S512x64_0_0,
          k1_pay5 (F := Ideal) (BitVec.ofNat 32 (i 1).val) (BitVec.ofNat 32 (i 2).val)
            (View.readAt (Elt Ideal) arg3.view (Rect.unit (s := S1x512x128) ![0, 0, 0] ![1, 512, 64] inb_S1x512x128_S1x512x64_0_0_0).toLoadRect (harg3.unread x0))
            (View.readAt (Elt Ideal) arg4.view (Rect.unit (s := S1x512x128) ![0, 0, 0] ![1, 512, 64] inb_S1x512x128_S1x512x64_0_0_0).toLoadRect (harg4.unread x1))
            (View.readAt (Elt Ideal) arg5.view (Rect.unit (s := S1x512x128) ![0, 0, 0] ![1, 512, 64] inb_S1x512x128_S1x512x64_0_0_0).toLoadRect (harg5.unread x2))
            alo⟩ :: L)
      (ix2 r (lane h d)) = acc (ix2 r (lane h d)) + contrib qi kv x0 x1 x2 r h d := by
  revert h
  exact Fin.forall_fin_two.mpr ⟨step_canon_lo c i arg3 harg3 arg4 harg4 arg5 harg5 arg6 harg6 arg7 harg7 qi kv hq hk x0 x1 x2 acc alo ahi hlo hhi L, step_canon_hi c i arg3 harg3 arg4 harg4 arg5 harg5 arg6 harg6 arg7 harg7 qi kv hq hk x0 x1 x2 acc alo ahi hlo hhi L⟩

theorem hz2 : (![0, 0] : Fin 2 → Nat) = fun _ => 0 := funext fun a => by fin_cases a <;> rfl
theorem hz3 : (![0, 0, 0] : Fin 3 → Nat) = fun _ => 0 := funext fun a => by fin_cases a <;> rfl

/-- Every lane of a 128-lane block is lane d of half h for h = l / 64, d = l % 64. -/
theorem lane_surj (l : Fin 128) : ∃ (h : Fin 2) (d : Fin 64), l = lane h d :=
  ⟨⟨l.val / 64, by have := l.isLt; omega⟩, ⟨l.val % 64, Nat.mod_lt _ (by decide)⟩, Fin.ext (by show l.val = l.val / 64 * 64 + l.val % 64; omega)⟩

/-- A step that is not the first and not the last of its row of points: the carried sum plus this key block's contribution. -/
theorem sout1_B_apply (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : ¬cond1_2 i) (qi kv : Fin 4) (hq : (i 1).val = qi.val) (hk : (i 2).val = kv.val)
    (x0 x1 x2 : Vec Ideal S1x512x128 .bf16) (xs0 : Vec Ideal S512x128 .f32) (h : Fin 2) (r : Fin 512) (d : Fin 64) :
    sout1_B (F := Ideal) c i arg3 harg3 arg4 harg4 arg5 harg5 arg6 harg6 arg7 harg7 hc0 hc1 hc2 x0 x1 x2 xs0 (ix2 r (lane h d)) = xs0 (ix2 r (lane h d)) + contrib qi kv x0 x1 x2 r h d := by
  unfold sout1_B
  rw [View.read_writes_eq_canon _ _ _ (scover1_B c i arg3 harg3 arg4 harg4 arg5 harg5 arg6 harg6 arg7 harg7 hc0 hc1 hc2 x0 x1 x2 xs0)]
  unfold kernelRun1_B
  dsimp only
  sl_unfold_words
  exact step_canon c i arg3 harg3 arg4 harg4 arg5 harg5 arg6 harg6 arg7 harg7 qi kv hq hk x0 x1 x2 xs0 _ _ (load2_lo arg7 harg7 xs0) (load2_hi arg7 harg7 xs0) [] h r d

/-- The last step of a row of points leaves the same in the scratch. -/
theorem sout1_C_apply (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i) (qi kv : Fin 4) (hq : (i 1).val = qi.val) (hk : (i 2).val = kv.val)
    (x0 x1 x2 : Vec Ideal S1x512x128 .bf16) (xs0 : Vec Ideal S512x128 .f32) (h : Fin 2) (r : Fin 512) (d : Fin 64) :
    sout1_C (F := Ideal) c i arg3 harg3 arg4 harg4 arg5 harg5 arg6 harg6 arg7 harg7 hc0 hc1 hc2 x0 x1 x2 xs0 (ix2 r (lane h d)) = xs0 (ix2 r (lane h d)) + contrib qi kv x0 x1 x2 r h d := by
  unfold sout1_C
  rw [View.read_writes_eq_canon _ _ _ (scover1_C c i arg3 harg3 arg4 harg4 arg5 harg5 arg6 harg6 arg7 harg7 hc0 hc1 hc2 x0 x1 x2 xs0)]
  unfold kernelRun1_C
  dsimp only
  sl_unfold_words
  exact step_canon c i arg3 harg3 arg4 harg4 arg5 harg5 arg6 harg6 arg7 harg7 qi kv hq hk x0 x1 x2 xs0 _ _ (load2_lo arg7 harg7 xs0) (load2_hi arg7 harg7 xs0) [] h r d

/-- The first step of a row of points: the sum is reset, so the scratch holds this key block's contribution alone. -/
theorem sout1_A_apply (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : cond1_0 i) (hc1 : cond1_1 i) (hc2 : ¬cond1_2 i) (qi kv : Fin 4) (hq : (i 1).val = qi.val) (hk : (i 2).val = kv.val)
    (x0 x1 x2 : Vec Ideal S1x512x128 .bf16) (h : Fin 2) (r : Fin 512) (d : Fin 64) :
    sout1_A (F := Ideal) c i arg3 harg3 arg4 harg4 arg5 harg5 arg6 harg6 arg7 harg7 hc0 hc1 hc2 x0 x1 x2 (ix2 r (lane h d)) = contrib qi kv x0 x1 x2 r h d := by
  unfold sout1_A
  rw [View.read_writes_eq_canon _ _ _ (scover1_A c i arg3 harg3 arg4 harg4 arg5 harg5 arg6 harg6 arg7 harg7 hc0 hc1 hc2 x0 x1 x2)]
  unfold kernelRun1_A
  dsimp only
  sl_unfold_words
  refine (step_canon c i arg3 harg3 arg4 harg4 arg5 harg5 arg6 harg6 arg7 harg7 qi kv hq hk x0 x1 x2 (fun _ => 0) _ _ ?hlo ?hhi _ h r d).trans (zero_add _)
  case hlo =>
    intro r d
    refine (congrFun (View.readCov_eq_canon' _ _ _) _).trans ?_
    beta_reduce
    refine (congrFun (View.canon_unit_zero (S := S512x128) hz2 _ _) _).trans ?_
    exact pay1_apply _
  case hhi =>
    intro r d
    refine (congrFun (View.readCov_eq_canon' _ _ _) _).trans ?_
    beta_reduce
    rw [View.canon_cons_of_not_mem]
    · refine (congrFun (View.canon_unit_zero (S := S512x128) hz2 _ _) _).trans ?_
      exact pay1_apply _
    · intro hm
      have hm' : (Rect.unit (s := S512x128) ![0, 64] ![512, 64] inb_S512x128_S512x64_0_64).toLoadRect.idx (ix2 r d)
          ∈ (Rect.unit (s := S512x128) ![0, 0] ![512, 64] inb_S512x128_S512x64_0_0).set := hm
      have h1 := (Rect.mem_set_unit.mp hm') 1
      have h2 : 64 + 1 * d.val < 0 + 64 := h1.2
      omega

/-- What the last step of a row of points stores into the result block: the scratch it leaves, with a leading unit axis. -/
theorem out1_C_3_apply (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : cond1_1 i) (hc2 : cond1_2 i) (qi kv : Fin 4) (hq : (i 1).val = qi.val) (hk : (i 2).val = kv.val)
    (x0 x1 x2 : Vec Ideal S1x512x128 .bf16) (xs0 : Vec Ideal S512x128 .f32) (h : Fin 2) (r : Fin 512) (d : Fin 64) :
    out1_C_3 (F := Ideal) c i arg3 harg3 arg4 harg4 arg5 harg5 arg6 harg6 arg7 harg7 hc0 hc1 hc2 x0 x1 x2 xs0 (ix3 0 r (lane h d)) = xs0 (ix2 r (lane h d)) + contrib qi kv x0 x1 x2 r h d := by
  unfold out1_C_3
  rw [View.read_writes_eq_canon _ _ _ (cover1_C_3 c i arg3 harg3 arg4 harg4 arg5 harg5 arg6 harg6 arg7 harg7 hc0 hc1 hc2 x0 x1 x2 xs0)]
  unfold kernelRun1_C
  dsimp only
  sl_unfold_words
  refine (congrFun (View.canon_unit_zero (S := S1x512x128) hz3 _ _) _).trans ?_
  refine (pay3_apply _ r (lane h d)).trans ?_
  refine (congrFun (View.readCov_eq_canon' _ _ _) _).trans ?_
  beta_reduce
  have e : (Rect.unit (s := S512x128) ![0, 0] ![512, 128] inb_S512x128_S512x128_0_0).toLoadRect.idx (ix2 r (lane h d)) = ix2 r (lane h d) :=
    funext fun a => Fin.ext (by
      match a with
      | ⟨0, _⟩ => show 0 + 1 * r.val = r.val; omega
      | ⟨1, _⟩ => show 0 + 1 * (lane h d).val = (lane h d).val; omega)
  refine (congrArg _ e).trans ?_
  exact step_canon c i arg3 harg3 arg4 harg4 arg5 harg5 arg6 harg6 arg7 harg7 qi kv hq hk x0 x1 x2 xs0 _ _ (load2_lo arg7 harg7 xs0) (load2_hi arg7 harg7 xs0) [] h r d

/-- Past the causal triangle the last point of a row stores the carried sum as it is. -/
theorem out1_E_3_apply (c : Dev nD) (i : grid1.Coords) (arg3 : Memref sig .tc .vmem S1x512x128 .bf16) (harg3 : arg3.IsWhole) (arg4 : Memref sig .tc .vmem S1x512x128 .bf16) (harg4 : arg4.IsWhole) (arg5 : Memref sig .tc .vmem S1x512x128 .bf16) (harg5 : arg5.IsWhole) (arg6 : Memref sig .tc .vmem S1x512x128 .f32) (harg6 : arg6.IsWhole) (arg7 : Memref sig .tc .vmem S512x128 .f32) (harg7 : arg7.IsWhole) (hc0 : ¬cond1_0 i) (hc1 : ¬cond1_1 i) (hc2 : cond1_2 i)
    (x0 x1 x2 : Vec Ideal S1x512x128 .bf16) (xs0 : Vec Ideal S512x128 .f32) (r : Fin 512) (l : Fin 128) :
    out1_E_3 (F := Ideal) c i arg3 harg3 arg4 harg4 arg5 harg5 arg6 harg6 arg7 harg7 hc0 hc1 hc2 x0 x1 x2 xs0 (ix3 0 r l) = xs0 (ix2 r l) := by
  unfold out1_E_3
  rw [View.read_writes_eq_canon _ _ _ (cover1_E_3 c i arg3 harg3 arg4 harg4 arg5 harg5 arg6 harg6 arg7 harg7 hc0 hc1 hc2 x0 x1 x2 xs0)]
  unfold kernelRun1_E
  dsimp only
  sl_unfold_words
  refine (congrFun (View.canon_unit_zero (S := S1x512x128) hz3 _ _) _).trans ?_
  refine (pay3_apply _ r l).trans ?_
  rw [View.readAt_eq_ld, harg7.read_unread, View.ld_unit_zero (S := S512x128) hz2]

end Cert.KernelIdeal.Hand

end
-- ==== Proof.LibBlockSum.lean ====
/-
  A sum over 2048 rows taken in four blocks of 512.

  Every row number J below 2048 is kv · 512 + j for exactly one block number kv below 4 and one position j below 512
  (quotient and remainder by 512), so a finite sum over the rows, in any commutative monoid, is the sum over the blocks of
  the sums over the positions inside a block.
-/
import Mathlib.Data.Fintype.BigOperators

open scoped BigOperators

namespace Cert.LibBlockSum

/-- Block number and position inside the block, against the row number: quotient and remainder by 512. -/
def blockEquiv : Fin 4 × Fin 512 ≃ Fin 2048 where
  toFun p := ⟨p.1.val * 512 + p.2.val, by have := p.1.isLt; have := p.2.isLt; omega⟩
  invFun J := (⟨J.val / 512, by have := J.isLt; omega⟩, ⟨J.val % 512, Nat.mod_lt _ (by decide)⟩)
  left_inv p := by
    rcases p with ⟨a, b⟩
    have ha := a.isLt
    have hb := b.isLt
    refine Prod.ext (Fin.ext ?_) (Fin.ext ?_)
    · show (a.val * 512 + b.val) / 512 = a.val
      omega
    · show (a.val * 512 + b.val) % 512 = b.val
      omega
  right_inv J := Fin.ext (by
    show J.val / 512 * 512 + J.val % 512 = J.val
    omega)

/-- A sum over 2048 rows is the sum over four blocks of the sums over the 512 rows of each block. -/
theorem sum_blocks {M : Type*} [AddCommMonoid M] (f : Fin 2048 → M) :
    ∑ J : Fin 2048, f J = ∑ kv : Fin 4, ∑ j : Fin 512, f ⟨kv.val * 512 + j.val, by have := kv.isLt; have := j.isLt; omega⟩ := by
  rw [← Equiv.sum_comp blockEquiv f, Fintype.sum_prod_type]
  rfl

end Cert.LibBlockSum
-- ==== Proof.AttnPayloadBlocks.lean ====
/-
  The causal attention sum of one query row, taken block by block.

  Query row qi · 512 + r sees key row kv · 512 + j only when the key row is at or before it.  When kv > qi every row of
  key block kv lies after the query row, so every weight of that block is zero and the block contributes nothing: the sum
  over the 2048 key rows is the sum over the blocks kv ≤ qi of the sums over their 512 rows.  Zero times anything is zero
  on the extended reals, so no finiteness is needed.
-/
import proofs.«108929_j43173011259799_2_alg».proof.Proof.Spec
import proofs.«108929_j43173011259799_2_alg».proof.Proof.LibBlockSum
import Idealize.ShloMosaic.PureOps.Ideal.Laws

noncomputable section

open scoped BigOperators

namespace Cert.KernelIdeal.AttnMath

open Idealize.ShloMosaic

/-- The attention's result at query row qi · 512 + r as a sum over the key blocks at or before block qi. -/
theorem attn_blocks (Q : Fin 2 → Fin 2048 → Fin 3072 → EReal) (bb : Fin 2) (h : Fin 16) (d : Fin 64) (qi : Fin 4) (r : Fin 512) :
    Cert.Spec.attn Q bb ⟨qi.val * 512 + r.val, by have := qi.isLt; have := r.isLt; omega⟩ h d
      = ∑ kv : Fin 4, if kv.val ≤ qi.val then
          ∑ j : Fin 512, Cert.Spec.weight Q bb h ⟨qi.val * 512 + r.val, by have := qi.isLt; have := r.isLt; omega⟩ ⟨kv.val * 512 + j.val, by have := kv.isLt; have := j.isLt; omega⟩
            * Q bb ⟨kv.val * 512 + j.val, by have := kv.isLt; have := j.isLt; omega⟩ (Cert.Spec.col 2 h d)
        else 0 := by
  unfold Cert.Spec.attn
  rw [Cert.LibBlockSum.sum_blocks]
  refine Finset.sum_congr rfl fun kv _ => ?_
  by_cases hkv : kv.val ≤ qi.val
  · rw [if_pos hkv]
  · rw [if_neg hkv]
    refine Finset.sum_eq_zero fun j _ => ?_
    have hr := r.isLt
    have hj := j.isLt
    unfold Cert.Spec.weight
    rw [if_neg (by show ¬(kv.val * 512 + j.val ≤ qi.val * 512 + r.val); omega)]
    show Ideal.ofBits .f32 0x00000000#32 * _ = 0
    rw [Ideal.ofBits_zero_f32, zero_mul]

end Cert.KernelIdeal.AttnMath

end
-- ==== Proof.R1ValueBlocks.lean ====
/-
  The attention region's input blocks read at an index, and one step's contribution in the terms of the specification.

  Point t of the grid (p, qi, kv) = 16 × 4 × 4 has p = t / 16, qi = t / 4 % 4, kv = t % 4.  Its query block is rows
  qi · 512 … of batch row p / 8 at the 128 columns of head pair p % 8; its key and value blocks are rows min kv qi · 512 …
  at the same head pair's columns in the key and value thirds of the packed projection.  Lane (h, e) of a block is
  component e of head 2 (p % 8) + h.  Inside the causal triangle (kv ≤ qi) the step's contribution to the scratch is
  therefore key block kv's part of the attention sum of the specification.
-/
import proofs.«108929_j43173011259799_2_alg».proof.Proof.R1Frame
import proofs.«108929_j43173011259799_2_alg».proof.Proof.R1Pieces
import proofs.«108929_j43173011259799_2_alg».proof.Proof.AttnPayloadBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal.AttnMath

/-- The four windows' block indices at point t, whose coordinates are p = t / 16, qi = t / 4 % 4, kv = t % 4: the batch
    row p / 8 = t / 128; the query block qi, the key and value block min kv qi; the head pair p % 8 = t / 16 % 8, at
    lane-block offsets 0, 8, 16 of the packed projection. -/
theorem idx1_facts : ∀ t : Fin cfg1.N,
    win1_0.index t (0 : Fin 3) = t.val / 128 ∧ win1_0.index t (1 : Fin 3) = t.val / 4 % 4 ∧ win1_0.index t (2 : Fin 3) = t.val / 16 % 8
    ∧ win1_1.index t (0 : Fin 3) = t.val / 128 ∧ win1_1.index t (1 : Fin 3) = min (t.val % 4) (t.val / 4 % 4) ∧ win1_1.index t (2 : Fin 3) = 8 + t.val / 16 % 8
    ∧ win1_2.index t (0 : Fin 3) = t.val / 128 ∧ win1_2.index t (1 : Fin 3) = min (t.val % 4) (t.val / 4 % 4) ∧ win1_2.index t (2 : Fin 3) = 16 + t.val / 16 % 8
    ∧ win1_3.index t (0 : Fin 3) = t.val / 128 ∧ win1_3.index t (1 : Fin 3) = t.val / 4 % 4 ∧ win1_3.index t (2 : Fin 3) = t.val / 16 % 8 :=
  (by decide +kernel : ∀ t : Fin grid1.N, _)

/-- The point's coordinates qi and kv. -/
theorem coords1_facts : ∀ t : Fin cfg1.N, (grid1.coords t 1).val = t.val / 4 % 4 ∧ (grid1.coords t 2).val = t.val % 4 :=
  (by decide +kernel : ∀ t : Fin grid1.N, _)

section
variable (V : (c : Dev nD) → (b : Ref sig .tc) → Buf (Elt Ideal) ((c : Thread nD τ).loc b))

/-- The packed projection as the region finds it, as an array of extended reals. -/
abbrev qArr1 (c : Dev nD) : S2x2048x3072.Idx → EReal := V c main_v5

/-- The same by coordinates. -/
abbrev Q1 (c : Dev nD) : Fin 2 → Fin 2048 → Fin 3072 → EReal := fun bb tt o => qArr1 V c (ix3 bb tt o)

/-- The query block at point t reads rows qi · 512 + r, columns (p % 8) · 128 + l of batch row p / 8. -/
theorem iblk1_0_apply (c : Dev nD) (t : Fin cfg1.N) (r : Fin 512) (l : Fin 128) :
    (iblk1 V c 0 t : Vec Ideal S1x512x128 .bf16) (ix3 0 r l)
      = qArr1 V c (ix3 ⟨t.val / 128, by have : t.val < 256 := t.isLt; omega⟩ ⟨t.val / 4 % 4 * 512 + r.val, by have := r.isLt; omega⟩ ⟨t.val / 16 % 8 * 128 + l.val, by have := l.isLt; omega⟩) := by
  obtain ⟨e0, e1, e2, -⟩ := idx1_facts t
  unfold iblk1
  rw [View.read_apply]
  show V c main_v5 _ = V c main_v5 _
  congr 1
  funext a
  apply Fin.ext
  match a with
  | ⟨0, _⟩ => show win1_0.index t (0 : Fin 3) * 1 + 1 * 0 = t.val / 128; rw [e0]; omega
  | ⟨1, _⟩ => show win1_0.index t (1 : Fin 3) * 512 + 1 * r.val = t.val / 4 % 4 * 512 + r.val; rw [e1]; omega
  | ⟨2, _⟩ => show win1_0.index t (2 : Fin 3) * 128 + 1 * l.val = t.val / 16 % 8 * 128 + l.val; rw [e2]; omega

/-- The key block at point t reads rows min kv qi · 512 + j, columns 1024 + (p % 8) · 128 + l. -/
theorem iblk1_1_apply (c : Dev nD) (t : Fin cfg1.N) (j : Fin 512) (l : Fin 128) :
    (iblk1 V c 1 t : Vec Ideal S1x512x128 .bf16) (ix3 0 j l)
      = qArr1 V c (ix3 ⟨t.val / 128, by have : t.val < 256 := t.isLt; omega⟩ ⟨min (t.val % 4) (t.val / 4 % 4) * 512 + j.val, by have := j.isLt; omega⟩ ⟨(8 + t.val / 16 % 8) * 128 + l.val, by have := l.isLt; omega⟩) := by
  obtain ⟨-, -, -, e0, e1, e2, -⟩ := idx1_facts t
  unfold iblk1
  rw [View.read_apply]
  show V c main_v5 _ = V c main_v5 _
  congr 1
  funext a
  apply Fin.ext
  match a with
  | ⟨0, _⟩ => show win1_1.index t (0 : Fin 3) * 1 + 1 * 0 = t.val / 128; rw [e0]; omega
  | ⟨1, _⟩ => show win1_1.index t (1 : Fin 3) * 512 + 1 * j.val = min (t.val % 4) (t.val / 4 % 4) * 512 + j.val; rw [e1]; omega
  | ⟨2, _⟩ => show win1_1.index t (2 : Fin 3) * 128 + 1 * l.val = (8 + t.val / 16 % 8) * 128 + l.val; rw [e2]; omega

/-- The value block at point t reads rows min kv qi · 512 + j, columns 2048 + (p % 8) · 128 + l. -/
theorem iblk1_2_apply (c : Dev nD) (t : Fin cfg1.N) (j : Fin 512) (l : Fin 128) :
    (iblk1 V c 2 t : Vec Ideal S1x512x128 .bf16) (ix3 0 j l)
      = qArr1 V c (ix3 ⟨t.val / 128, by have : t.val < 256 := t.isLt; omega⟩ ⟨min (t.val % 4) (t.val / 4 % 4) * 512 + j.val, by have := j.isLt; omega⟩ ⟨(16 + t.val / 16 % 8) * 128 + l.val, by have := l.isLt; omega⟩) := by
  obtain ⟨-, -, -, -, -, -, e0, e1, e2, -⟩ := idx1_facts t
  unfold iblk1
  rw [View.read_apply]
  show V c main_v5 _ = V c main_v5 _
  congr 1
  funext a
  apply Fin.ext
  match a with
  | ⟨0, _⟩ => show win1_2.index t (0 : Fin 3) * 1 + 1 * 0 = t.val / 128; rw [e0]; omega
  | ⟨1, _⟩ => show win1_2.index t (1 : Fin 3) * 512 + 1 * j.val = min (t.val % 4) (t.val / 4 % 4) * 512 + j.val; rw [e1]; omega
  | ⟨2, _⟩ => show win1_2.index t (2 : Fin 3) * 128 + 1 * l.val = (16 + t.val / 16 % 8) * 128 + l.val; rw [e2]; omega

/-- The head that half h of head pair hp carries. -/
def headOf (hp : Fin 8) (h : Fin 2) : Fin 16 := ⟨hp.val * 2 + h.val, by have := hp.isLt; have := h.isLt; omega⟩

/-- Key block kv's contribution to the attention of query row qi · 512 + r, head (hp, h), component d of batch row bb. -/
def blockSum (c : Dev nD) (bb : Fin 2) (hp : Fin 8) (qi kv : Fin 4) (r : Fin 512) (h : Fin 2) (d : Fin 64) : EReal :=
  ∑ j : Fin 512, Cert.Spec.weight (Q1 V c) bb (headOf hp h) ⟨qi.val * 512 + r.val, by have := qi.isLt; have := r.isLt; omega⟩ ⟨kv.val * 512 + j.val, by have := kv.isLt; have := j.isLt; omega⟩
    * Q1 V c bb ⟨kv.val * 512 + j.val, by have := kv.isLt; have := j.isLt; omega⟩ (Cert.Spec.col 2 (headOf hp h) d)

/-- Inside the causal triangle (kv ≤ qi) the step's contribution at point t is that block sum. -/
theorem contrib_eq (c : Dev nD) (t : Fin cfg1.N) (bb : Fin 2) (hp : Fin 8) (qi kv : Fin 4)
    (hbb : bb.val = t.val / 128) (hhp : hp.val = t.val / 16 % 8) (hqi : qi.val = t.val / 4 % 4) (hkv : kv.val = t.val % 4)
    (hle : kv.val ≤ qi.val) (r : Fin 512) (h : Fin 2) (d : Fin 64) :
    contrib qi kv (iblk1 V c 0 t) (iblk1 V c 1 t) (iblk1 V c 2 t) r h d = blockSum V c bb hp qi kv r h d := by
  have hh := h.isLt
  unfold contrib blockSum
  refine Finset.sum_congr rfl fun j _ => ?_
  have e2 : (iblk1 V c 2 t : Vec Ideal S1x512x128 .bf16) (ix3 0 j (lane h d))
      = Q1 V c bb ⟨kv.val * 512 + j.val, by have := kv.isLt; have := j.isLt; omega⟩ (Cert.Spec.col 2 (headOf hp h) d) := by
    rw [iblk1_2_apply]
    refine congrArg (qArr1 V c) (funext fun a => Fin.ext ?_)
    match a with
    | ⟨0, _⟩ => exact hbb.symm
    | ⟨1, _⟩ => show min (t.val % 4) (t.val / 4 % 4) * 512 + j.val = kv.val * 512 + j.val; rw [← hkv, ← hqi, Nat.min_eq_left hle]
    | ⟨2, _⟩ =>
      have hd := d.isLt
      show (16 + t.val / 16 % 8) * 128 + (h.val * 64 + d.val) = 2 * 1024 + (hp.val * 2 + h.val) * 64 + d.val
      rw [← hhp]; omega
  have ew : w qi kv (fun r e => (iblk1 V c 0 t : Vec Ideal S1x512x128 .bf16) (ix3 0 r (lane h e)))
        (fun j e => (iblk1 V c 1 t : Vec Ideal S1x512x128 .bf16) (ix3 0 j (lane h e))) r j
      = Cert.Spec.weight (Q1 V c) bb (headOf hp h) ⟨qi.val * 512 + r.val, by have := qi.isLt; have := r.isLt; omega⟩ ⟨kv.val * 512 + j.val, by have := kv.isLt; have := j.isLt; omega⟩ := by
    have e0 : (fun (r : Fin 512) (e : Fin 64) => (iblk1 V c 0 t : Vec Ideal S1x512x128 .bf16) (ix3 0 r (lane h e)))
        = fun r e => Q1 V c bb ⟨qi.val * 512 + r.val, by have := qi.isLt; have := r.isLt; omega⟩ (Cert.Spec.col 0 (headOf hp h) e) := by
      funext r e
      rw [iblk1_0_apply]
      refine congrArg (qArr1 V c) (funext fun a => Fin.ext ?_)
      match a with
      | ⟨0, _⟩ => exact hbb.symm
      | ⟨1, _⟩ => show t.val / 4 % 4 * 512 + r.val = qi.val * 512 + r.val; rw [hqi]
      | ⟨2, _⟩ =>
        have he := e.isLt
        show t.val / 16 % 8 * 128 + (h.val * 64 + e.val) = 0 * 1024 + (hp.val * 2 + h.val) * 64 + e.val
        rw [← hhp]; omega
    have e1 : (fun (j : Fin 512) (e : Fin 64) => (iblk1 V c 1 t : Vec Ideal S1x512x128 .bf16) (ix3 0 j (lane h e)))
        = fun j e => Q1 V c bb ⟨kv.val * 512 + j.val, by have := kv.isLt; have := j.isLt; omega⟩ (Cert.Spec.col 1 (headOf hp h) e) := by
      funext j e
      rw [iblk1_1_apply]
      refine congrArg (qArr1 V c) (funext fun a => Fin.ext ?_)
      match a with
      | ⟨0, _⟩ => exact hbb.symm
      | ⟨1, _⟩ => show min (t.val % 4) (t.val / 4 % 4) * 512 + j.val = kv.val * 512 + j.val; rw [← hkv, ← hqi, Nat.min_eq_left hle]
      | ⟨2, _⟩ =>
        have he := e.isLt
        show (8 + t.val / 16 % 8) * 128 + (h.val * 64 + e.val) = 1 * 1024 + (hp.val * 2 + h.val) * 64 + e.val
        rw [← hhp]; omega
    rw [e0, e1]
    rfl
  rw [ew, e2]

end

end Cert.KernelIdeal.Hand

end
-- ==== Proof.R1ValueInv.lean ====
/-
  The attention region's invariant: what the scratch holds after each point.

  Along a row of points (fixed p and qi, kv = 0 … 3) the scratch starts from key block 0's contribution, gains key block
  kv's contribution while kv ≤ qi, and is left alone once kv > qi.  So after the point numbered n it holds, at row r and
  lane (h, d), the attention sum of query row qi · 512 + r of head (p % 8, h), component d, over the key blocks up to
  min kv qi — by induction on n, one case of the body per step.
-/
import proofs.«108929_j43173011259799_2_alg».proof.Proof.R1Frame
import proofs.«108929_j43173011259799_2_alg».proof.Proof.R1ValueBlocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal.AttnMath

/-- The sum over the blocks up to block 0 is block 0's term. -/
theorem psum_zero {M : Type*} [AddCommMonoid M] (f : Fin 4 → M) :
    (∑ k : Fin 4, if k.val ≤ 0 then f k else 0) = f 0 := by
  rw [Fin.sum_univ_four]
  simp

/-- The sum over the blocks up to block m + 1 is the sum up to block m plus block m + 1's term. -/
theorem psum_succ {M : Type*} [AddCommMonoid M] (f : Fin 4 → M) (m : Nat) (hm : m + 1 < 4) :
    (∑ k : Fin 4, if k.val ≤ m + 1 then f k else 0) = (∑ k : Fin 4, if k.val ≤ m then f k else 0) + f ⟨m + 1, hm⟩ := by
  rw [Fin.sum_univ_four, Fin.sum_univ_four]
  have hm' : m < 3 := by omega
  interval_cases m
  all_goals simp

section
variable (V : (c : Dev nD) → (b : Ref sig .tc) → Buf (Elt Ideal) ((c : Thread nD τ).loc b))

/-- The attention sum of query row qi · 512 + r over the key blocks up to block m. -/
def psumAt (c : Dev nD) (bb : Fin 2) (hp : Fin 8) (qi : Fin 4) (m : Nat) (r : Fin 512) (h : Fin 2) (d : Fin 64) : EReal :=
  ∑ k : Fin 4, if k.val ≤ m then blockSum V c bb hp qi k r h d else 0

/-- At the first point of a row of points (kv = 0) the scratch holds block 0's contribution. -/
theorem scAt1_A_apply (c : Dev nD) (t : Fin cfg1.N) (h0 : t.val % 4 = 0) (bb : Fin 2) (hp : Fin 8) (qi kv : Fin 4) (hbb : bb.val = t.val / 128) (hhp : hp.val = t.val / 16 % 8) (hqi : qi.val = t.val / 4 % 4) (hkv : kv.val = t.val % 4) (r : Fin 512) (h : Fin 2) (d : Fin 64) :
    scAt1 V c t.val t.isLt (ix2 r (lane h d)) = blockSum V c bb hp qi kv r h d := by
  have hc := coords1_facts t
  have h1 : t.val % 4 ≤ t.val / 4 % 4 := by omega
  have h2 : ¬t.val % 4 = 3 := by omega
  rw [scAt1_A V c t h0 h1 h2]
  rw [sout1_A_apply c (grid1.coords t) (ms1_0 t) (hs1_0 t) (ms1_1 t) (hs1_1 t) (ms1_2 t) (hs1_2 t) (ms1_3 t) (hs1_3 t) scM1 (Memref.isWhole_whole _) ((hcond1_0 t).mpr h0) ((hcond1_1 t).mpr h1) (fun hh => h2 ((hcond1_2 t).mp hh)) qi kv (hc.1.trans hqi.symm) (hc.2.trans hkv.symm) (iblk1 V c 0 t) (iblk1 V c 1 t) (iblk1 V c 2 t) h r d]
  exact contrib_eq V c t bb hp qi kv hbb hhp hqi hkv (by omega) r h d

/-- At a later point inside the causal triangle the scratch holds what it held plus block kv's contribution. -/
theorem scAt1_BC_apply (c : Dev nD) (t : Fin cfg1.N) (h0 : ¬t.val % 4 = 0) (h1 : t.val % 4 ≤ t.val / 4 % 4) (bb : Fin 2) (hp : Fin 8) (qi kv : Fin 4) (hbb : bb.val = t.val / 128) (hhp : hp.val = t.val / 16 % 8) (hqi : qi.val = t.val / 4 % 4) (hkv : kv.val = t.val % 4) (r : Fin 512) (h : Fin 2) (d : Fin 64) :
    scAt1 V c t.val t.isLt (ix2 r (lane h d)) = scPrev1 V c t (ix2 r (lane h d)) + blockSum V c bb hp qi kv r h d := by
  have hc := coords1_facts t
  by_cases h2 : t.val % 4 = 3
  · rw [scAt1_C V c t h0 h1 h2]
    rw [sout1_C_apply c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) ((hcond1_2 t).mpr h2) qi kv (hc.1.trans hqi.symm) (hc.2.trans hkv.symm) (iblk1 V c 0 t) (iblk1 V c 1 t) (iblk1 V c 2 t) (scPrev1 V c t) h r d]
    rw [contrib_eq V c t bb hp qi kv hbb hhp hqi hkv (by omega) r h d]
  · rw [scAt1_B V c t h0 h1 h2]
    rw [sout1_B_apply c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) (fun hh => h2 ((hcond1_2 t).mp hh)) qi kv (hc.1.trans hqi.symm) (hc.2.trans hkv.symm) (iblk1 V c 0 t) (iblk1 V c 1 t) (iblk1 V c 2 t) (scPrev1 V c t) h r d]
    rw [contrib_eq V c t bb hp qi kv hbb hhp hqi hkv (by omega) r h d]

/-- THE INVARIANT: after point n the scratch holds the attention sum of the point's query rows over the key blocks up to
    min kv qi. -/
theorem scAt1_eq (c : Dev nD) : ∀ (n : ℕ) (hn : n < cfg1.N) (bb : Fin 2) (hp : Fin 8) (qi : Fin 4)
    (hbb : bb.val = n / 128) (hhp : hp.val = n / 16 % 8) (hqi : qi.val = n / 4 % 4) (r : Fin 512) (h : Fin 2) (d : Fin 64),
    scAt1 V c n hn (ix2 r (lane h d)) = psumAt V c bb hp qi (min (n % 4) qi.val) r h d := by
  intro n
  induction n with
  | zero =>
    intro hn bb hp qi hbb hhp hqi r h d
    have e := scAt1_A_apply V c ⟨0, hn⟩ rfl bb hp qi 0 hbb hhp hqi rfl r h d
    rw [show min (0 % 4) qi.val = 0 from by simp]
    unfold psumAt
    rw [psum_zero]
    exact e
  | succ n ih =>
    intro hn bb hp qi hbb hhp hqi r h d
    by_cases h0 : (n + 1) % 4 = 0
    · have e := scAt1_A_apply V c ⟨n + 1, hn⟩ h0 bb hp qi 0 hbb hhp hqi h0.symm r h d
      rw [h0, show min 0 qi.val = 0 from by simp]
      unfold psumAt
      rw [psum_zero]
      exact e
    · have hprev := ih (Nat.lt_of_succ_lt hn) bb hp qi (by omega) (by omega) (by omega) r h d
      by_cases h1 : (n + 1) % 4 ≤ (n + 1) / 4 % 4
      · obtain ⟨m, hm1, hm2⟩ : ∃ m, n % 4 = m ∧ (n + 1) % 4 = m + 1 := ⟨n % 4, rfl, by omega⟩
        have hm4 : m + 1 < 4 := by omega
        have hmq : m + 1 ≤ qi.val := by omega
        have e := scAt1_BC_apply V c ⟨n + 1, hn⟩ h0 h1 bb hp qi ⟨m + 1, hm4⟩ hbb hhp hqi hm2.symm r h d
        refine e.trans ?_
        rw [show scPrev1 V c ⟨n + 1, hn⟩ = scAt1 V c n (Nat.lt_of_succ_lt hn) from rfl, hprev, hm1, hm2,
          Nat.min_eq_left (by omega), Nat.min_eq_left hmq]
        unfold psumAt
        exact (psum_succ _ m hm4).symm
      · have e : scAt1 V c (n + 1) hn = scAt1 V c n (Nat.lt_of_succ_lt hn) := scAt1_keep V c ⟨n + 1, hn⟩ h0 h1
        rw [e, hprev]
        congr 1
        omega

end

end Cert.KernelIdeal.Hand

end
-- ==== Proof.R1Value.lean ====
/-
  The attention region's result array.

  A point with kv = 3 stores the scratch into its result block; by the invariant that is the attention of the
  specification at the point's query rows and head pair (all key blocks up to qi: the causal sum taken block by block).
  Only those points write the result window back, each one block (1, 512, 128) at (p / 8, qi, p % 8), and these blocks
  tile the array: index (bb, tt, cc) belongs to the point p = bb · 8 + cc / 128, qi = tt / 512.  So after the region the
  result array is the attention of the packed projection as the region finds it, channel cc being component cc % 64 of
  head cc / 64.
-/
import proofs.«108929_j43173011259799_2_alg».proof.Proof.R1Frame
import proofs.«108929_j43173011259799_2_alg».proof.Proof.R1ValueInv
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

open Cert.KernelIdeal.AttnMath

section
variable (V : (c : Dev nD) → (b : Ref sig .tc) → Buf (Elt Ideal) ((c : Thread nD τ).loc b))

/-- What the last point of a row of points (kv = 3) stores into the result block: the attention of the specification at
    the point's query rows and head pair. -/
theorem outAt1_apply (c : Dev nD) (t : Fin cfg1.N) (h2 : t.val % 4 = 3) (bb : Fin 2) (hp : Fin 8) (qi : Fin 4)
    (hbb : bb.val = t.val / 128) (hhp : hp.val = t.val / 16 % 8) (hqi : qi.val = t.val / 4 % 4) (r : Fin 512) (h : Fin 2) (d : Fin 64) :
    outAt1 V c t (ix3 0 r (lane h d))
      = Cert.Spec.attn (Q1 V c) bb ⟨qi.val * 512 + r.val, by have := qi.isLt; have := r.isLt; omega⟩ (headOf hp h) d := by
  have hc := coords1_facts t
  have hq3 := qi.isLt
  have h0 : ¬t.val % 4 = 0 := by omega
  have hs : outAt1 V c t (ix3 0 r (lane h d)) = scAt1 V c t.val t.isLt (ix2 r (lane h d)) := by
    by_cases h1 : t.val % 4 ≤ t.val / 4 % 4
    · rw [outAt1_C V c t h0 h1 h2, scAt1_C V c t h0 h1 h2]
      rw [out1_C_3_apply c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) ((hcond1_2 t).mpr h2) qi 3 (hc.1.trans hqi.symm) (hc.2.trans h2) (iblk1 V c 0 t) (iblk1 V c 1 t) (iblk1 V c 2 t) (scPrev1 V c t) h r d]
      rw [sout1_C_apply c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) ((hcond1_1 t).mpr h1) ((hcond1_2 t).mpr h2) qi 3 (hc.1.trans hqi.symm) (hc.2.trans h2) (iblk1 V c 0 t) (iblk1 V c 1 t) (iblk1 V c 2 t) (scPrev1 V c t) h r d]
    · rw [outAt1_E V c t h0 h1 h2, scAt1_keep V c t h0 h1]
      exact out1_E_3_apply c (grid1.coords t) (ms1_0 t) (hs1_0 t) (ms1_1 t) (hs1_1 t) (ms1_2 t) (hs1_2 t) (ms1_3 t) (hs1_3 t) scM1 (Memref.isWhole_whole _) (fun hh => h0 ((hcond1_0 t).mp hh)) (fun hh => h1 ((hcond1_1 t).mp hh)) ((hcond1_2 t).mpr h2) (iblk1 V c 0 t) (iblk1 V c 1 t) (iblk1 V c 2 t) (scPrev1 V c t) r (lane h d)
  rw [hs, scAt1_eq V c t.val t.isLt bb hp qi hbb hhp hqi r h d, h2, Nat.min_eq_right (by omega)]
  unfold psumAt blockSum
  exact (attn_blocks (Q1 V c) bb (headOf hp h) d qi r).symm

/-- The attention of the specification as one array: channel cc is component cc % 64 of head cc / 64. -/
abbrev G1 (c : Dev nD) : S2x2048x1024.Idx → EReal := fun i =>
  Cert.Spec.attn (Q1 V c) (i 0) (i 1) ⟨(i 2).val / 64, by have h : (i 2).val < 1024 := (i 2).isLt; omega⟩ ⟨(i 2).val % 64, Nat.mod_lt _ (by decide)⟩

/-- What a point with kv = 3 writes back is its block of that array. -/
theorem flushed1_eq (c : Dev nD) (t : Fin cfg1.N) (hf : (cfg1.win 3).flush t = true) :
    (dat1 V c).flushed 3 t = ((cfg1.win 3).blk t).view.read (Elt Ideal) (G1 V c) := by
  have h2 : t.val % 4 = 3 := (flush1_3 t).mp hf
  have ht : t.val < 256 := t.isLt
  obtain ⟨-, -, -, -, -, -, -, -, -, e0, e1, e2⟩ := idx1_facts t
  show (cfg1.win 3).cut (grid1.coords t) ((dat1 V c).after 3 t) = _
  rw [after1_3]
  funext j
  rw [View.read_apply]
  obtain ⟨r, l, rfl⟩ : ∃ (r : Fin 512) (l : Fin 128), j = ix3 0 r l := ⟨j 1, j 2, funext fun a => by
    match a with
    | ⟨0, _⟩ => exact Fin.ext (by have h : (j 0).val < 1 := (j 0).isLt; show (j 0).val = 0; omega)
    | ⟨1, _⟩ => rfl
    | ⟨2, _⟩ => rfl⟩
  obtain ⟨h, d, rfl⟩ := lane_surj l
  have hh := h.isLt
  have hd := d.isLt
  have hr := r.isLt
  have eidx : ((cfg1.win 3).blk t).view.emb (ix3 0 r (lane h d))
      = ix3 (⟨t.val / 128, by omega⟩ : Fin 2) (⟨t.val / 4 % 4 * 512 + r.val, by omega⟩ : Fin 2048) (⟨t.val / 16 % 8 * 128 + (h.val * 64 + d.val), by omega⟩ : Fin 1024) :=
    funext fun a => Fin.ext (by
      match a with
      | ⟨0, _⟩ => show win1_3.index t (0 : Fin 3) * 1 + 1 * 0 = t.val / 128; rw [e0]; omega
      | ⟨1, _⟩ => show win1_3.index t (1 : Fin 3) * 512 + 1 * r.val = t.val / 4 % 4 * 512 + r.val; rw [e1]; omega
      | ⟨2, _⟩ => show win1_3.index t (2 : Fin 3) * 128 + 1 * (h.val * 64 + d.val) = t.val / 16 % 8 * 128 + (h.val * 64 + d.val); rw [e2]; omega)
  show outAt1 V c t (ix3 0 r (lane h d)) = G1 V c (((cfg1.win 3).blk t).view.emb (ix3 0 r (lane h d)))
  rw [eidx, outAt1_apply V c t h2 ⟨t.val / 128, by omega⟩ ⟨t.val / 16 % 8, by omega⟩ ⟨t.val / 4 % 4, by omega⟩ rfl rfl rfl r h d]
  exact congrArg₂ (Cert.Spec.attn (Q1 V c) (⟨t.val / 128, by omega⟩ : Fin 2) (⟨t.val / 4 % 4 * 512 + r.val, by omega⟩ : Fin 2048))
    (Fin.ext (by show t.val / 16 % 8 * 2 + h.val = (t.val / 16 % 8 * 128 + (h.val * 64 + d.val)) / 64; omega))
    (Fin.ext (by show d.val = (t.val / 16 % 8 * 128 + (h.val * 64 + d.val)) % 64; omega))

/-- An index of the result array is in point t's block iff each coordinate is in the block's range on its axis. -/
theorem mem_blk1_3 (t : Fin cfg1.N) (i : S2x2048x1024.Idx) :
    i ∈ ((cfg1.win 3).blk t).view.set ↔ ∀ a : Fin 3, win1_3.index t a * S1x512x128.size a ≤ (i a).val ∧ (i a).val < win1_3.index t a * S1x512x128.size a + S1x512x128.size a := by
  show i ∈ ((View.whole main_v6).slice (win1_3.rect t)).set ↔ _
  rw [View.set_slice_whole, Rect.mem_set_unit]
  exact Iff.rfl

/-- Every index (bb, tt, cc) of the result array is written back by the point p = bb · 8 + cc / 128, qi = tt / 512, kv = 3. -/
theorem cover1_3 (i : S2x2048x1024.Idx) : ∃ t : Fin cfg1.N, (cfg1.win 3).flush t = true ∧ i ∈ ((cfg1.win 3).blk t).view.set := by
  have h0 : (i 0).val < 2 := (i 0).isLt
  have h1 : (i 1).val < 2048 := (i 1).isLt
  have h2 : (i 2).val < 1024 := (i 2).isLt
  obtain ⟨t, tv⟩ : ∃ t : Fin cfg1.N, t.val = (i 0).val * 128 + (i 2).val / 128 * 16 + (i 1).val / 512 * 4 + 3 :=
    ⟨⟨(i 0).val * 128 + (i 2).val / 128 * 16 + (i 1).val / 512 * 4 + 3, by show _ < 256; omega⟩, rfl⟩
  obtain ⟨-, -, -, -, -, -, -, -, -, e0, e1, e2⟩ := idx1_facts t
  refine ⟨t, (flush1_3 t).mpr (by omega), ?_⟩
  rw [mem_blk1_3]
  intro a
  match a with
  | ⟨0, _⟩ => show win1_3.index t (0 : Fin 3) * 1 ≤ (i 0).val ∧ (i 0).val < win1_3.index t (0 : Fin 3) * 1 + 1; rw [e0]; omega
  | ⟨1, _⟩ => show win1_3.index t (1 : Fin 3) * 512 ≤ (i 1).val ∧ (i 1).val < win1_3.index t (1 : Fin 3) * 512 + 512; rw [e1]; omega
  | ⟨2, _⟩ => show win1_3.index t (2 : Fin 3) * 128 ≤ (i 2).val ∧ (i 2).val < win1_3.index t (2 : Fin 3) * 128 + 128; rw [e2]; omega

/-- THE RESULT ARRAY after the region: the attention of the specification of the packed projection as the region finds it. -/
theorem final1 (c : Dev nD) :
    (dat1 (F := Ideal) V c).arrAt 3 cfg1.N
      = fun i : S2x2048x1024.Idx => Cert.Spec.attn (fun bb tt o => qArr1 V c (ix3 bb tt o)) (i 0) (i 1)
          ⟨(i 2).val / 64, by have h : (i 2).val < 1024 := (i 2).isLt; omega⟩ ⟨(i 2).val % 64, Nat.mod_lt _ (by decide)⟩ :=
  (dat1 V c).arrAt_eq_of_cover 3 (G1 V c) (flushed1_eq V c) cover1_3

end

end Cert.KernelIdeal.Hand

end
-- ==== Proof.KernelValueHost.lean ====
/-
  The host operations around the two regions, read at an index: the activations as 4096 rows are the activations at
  (row / 2048, row % 2048); the transposed weight matrix, whose change of format is the identity on extended reals, is
  the weight matrix with its coordinates exchanged; the bias as one row is the bias; and the projection's output taken as
  [2, 2048, 3072] is that output at row bb · 2048 + tt.
-/
import proofs.«108929_j43173011259799_2_alg».proof.Proof.Stages
import proofs.«108929_j43173011259799_2_alg».proof.Proof.Spec
import Idealize.ShloMosaic.Lib.Pipeline.Value
import Idealize.ShloMosaic.Lib.ValueIdx
import Idealize.ShloMosaic.Lib.StableHlo.Run

noncomputable section

open scoped BigOperators

namespace Cert.KernelIdeal.Hand

open Idealize.ShloMosaic Idealize.ShloMosaic.TcCoe Idealize.SL.Sem Idealize.ShloMosaic.StableHlo
  Idealize.ShloMosaic.ValueIdx Cert.KernelIdeal Cert.KernelIdeal.Gen

variable (m : (ℓ : Loc nD τ sig) → Buf (Elt Ideal) ℓ) (c : Dev nD)

/-- The activations as 4096 rows are the reshape of the first argument. -/
theorem kv_V1_v0 : (V1 m c main_v0 : S4096x1024.Idx → EReal)
    = shapeCast S4096x1024 (m ((c.tc : Thread nD τ).loc main_arg0)) shapeCasts_S2x2048x1024_S4096x1024 := by
  show StableHlo.after hostOps0 _ (Proc.devRef .tc main_v0) = _
  after_results <;> rfl

/-- The packed weight matrix is the transpose of the second argument, its format changed. -/
theorem kv_V1_v2 : (V1 m c main_v2 : S1024x3072.Idx → EReal)
    = (truncf (F := Ideal) .bf16 (transpose S1024x3072 [1, 0] (m ((c.tc : Thread nD τ).loc main_arg1) : S3072x1024.Idx → EReal)
        transposes_S3072x1024_S1024x3072_1_0) bitsLt_bf16_f32 : S1024x3072.Idx → EReal) := by
  show StableHlo.after hostOps0 _ (Proc.devRef .tc main_v2) = _
  after_results <;> rfl

/-- The bias as one row is the reshape of the third argument. -/
theorem kv_V1_v3 : (V1 m c main_v3 : S1x3072.Idx → EReal)
    = shapeCast S1x3072 (m ((c.tc : Thread nD τ).loc main_arg2)) shapeCasts_S3072_S1x3072 := by
  show StableHlo.after hostOps0 _ (Proc.devRef .tc main_v3) = _
  after_results <;> rfl

/-- The attention region's operand is the reshape of the projection region's output. -/
theorem kv_V3_v5 : (V3 m c main_v5 : S2x2048x3072.Idx → EReal)
    = shapeCast S2x2048x3072 (W2 m c (Proc.devRef .tc main_v4)) shapeCasts_S4096x3072_S2x2048x3072 := by
  show StableHlo.after hostOps1 _ (Proc.devRef .tc main_v5) = _
  after_results <;> rfl

/-- The three arrays the projection region reads, as functions to the extended reals: the activations as 4096 rows, the
    packed weight matrix, the bias as one row. -/
abbrev kvX : S4096x1024.Idx → EReal := V1 m c main_v0
abbrev kvW : S1024x3072.Idx → EReal := V1 m c main_v2
abbrev kvB : S1x3072.Idx → EReal := V1 m c main_v3
/-- The array the attention region reads: the projection's output taken as [2, 2048, 3072]. -/
abbrev kvQ : S2x2048x3072.Idx → EReal := V3 m c main_v5

/-- Row bb · 2048 + tt of the 4096 rows. -/
abbrev kvRow (bb : Fin 2) (tt : Fin 2048) : Fin 4096 :=
  ⟨bb.val * 2048 + tt.val, by have := bb.isLt; have := tt.isLt; omega⟩

/-- Row bb · 2048 + tt of the activations taken as 4096 rows is row (bb, tt) of the activations. -/
theorem kv_v0_ix (bb : Fin 2) (tt : Fin 2048) (k : Fin 1024) :
    kvX m c (ix2 (kvRow bb tt) k)
      = (m ((c.tc : Thread nD τ).loc main_arg0) : S2x2048x1024.Idx → EReal) (ix3 bb tt k) := by
  show (V1 m c main_v0 : S4096x1024.Idx → EReal) _ = _
  rw [kv_V1_v0]
  exact shapeCast_apply _ shapeCasts_S2x2048x1024_S4096x1024 (ix2 (kvRow bb tt) k) (ix3 bb tt k)
    (by rw [Shape.rowMajor_val_three, Shape.rowMajor_val_two]; rfl)

/-- The packed weight matrix at (k, o) is the weight matrix at (o, k). -/
theorem kv_v2_ix (k : Fin 1024) (o : Fin 3072) :
    kvW m c (ix2 k o)
      = (m ((c.tc : Thread nD τ).loc main_arg1) : S3072x1024.Idx → EReal) (ix2 o k) := by
  show (V1 m c main_v2 : S1024x3072.Idx → EReal) _ = _
  rw [kv_V1_v2]
  refine (truncf_apply _ bitsLt_bf16_f32 (ix2 k o)).trans ?_
  exact transpose_apply [1, 0] _ transposes_S3072x1024_S1024x3072_1_0 (ix2 k o) (ix2 o k) (fun b => match b with
    | ⟨0, _⟩ => rfl
    | ⟨1, _⟩ => rfl)

/-- The bias as one row, at column o, is the bias at o. -/
theorem kv_v3_ix (o : Fin 3072) :
    kvB m c (ix2 (0 : Fin 1) o)
      = (m ((c.tc : Thread nD τ).loc main_arg2) : S3072.Idx → EReal) (ix1 o) := by
  show (V1 m c main_v3 : S1x3072.Idx → EReal) _ = _
  rw [kv_V1_v3]
  exact shapeCast_apply _ shapeCasts_S3072_S1x3072 (ix2 (0 : Fin 1) o) (ix1 o)
    (by rw [Shape.rowMajor_val_one, Shape.rowMajor_val_two]; show o.val = 0 * 3072 + o.val; omega)

/-- The attention region's operand at (bb, tt, o) is the projection region's output at row bb · 2048 + tt, column o. -/
theorem kv_v5_ix (bb : Fin 2) (tt : Fin 2048) (o : Fin 3072) :
    kvQ m c (ix3 bb tt o)
      = (W2 m c (Proc.devRef .tc main_v4) : S4096x3072.Idx → EReal) (ix2 (kvRow bb tt) o) := by
  show (V3 m c main_v5 : S2x2048x3072.Idx → EReal) _ = _
  rw [kv_V3_v5]
  exact shapeCast_apply _ shapeCasts_S4096x3072_S2x2048x3072 (ix3 bb tt o) (ix2 (kvRow bb tt) o)
    (by rw [Shape.rowMajor_val_three, Shape.rowMajor_val_two]; rfl)

end Cert.KernelIdeal.Hand

end
-- ==== Proof.KernelValue.lean ====
/-
  The kernel program's result as a function of its three argument arrays: the projection region's output, where its
  write-backs leave the product of the re-laid activations with the packed weight matrix plus the bias row, is the
  specification's fused projection at row bb · 2048 + tt; the attention region's result, where its write-backs leave the
  specification's attention of its operand, is therefore the specification's result.
-/
import proofs.«108929_j43173011259799_2_alg».proof.Proof.KernelValueHost

noncomputable section

open scoped BigOperators

namespace Cert.KernelIdeal.Hand

open Idealize.ShloMosaic Idealize.ShloMosaic.TcCoe Idealize.SL.Sem Idealize.ShloMosaic.StableHlo
  Idealize.ShloMosaic.ValueIdx Cert.KernelIdeal Cert.KernelIdeal.Gen

variable (m : (ℓ : Loc nD τ sig) → Buf (Elt Ideal) ℓ) (c : Dev nD)

/-- The projection region's output at row bb · 2048 + tt, column o, is the specification's fused projection. -/
theorem kv_proj
    (h0 : ∀ (r : Fin 4096) (o : Fin 3072),
        (dat0 (F := Ideal) (V1 m) c).arrAt 3 cfg0.N (ix2 r o : S4096x3072.Idx)
          = (∑ k : Fin 1024, kvX m c (ix2 r k) * kvW m c (ix2 k o)) + kvB m c (ix2 (0 : Fin 1) o))
    (bb : Fin 2) (tt : Fin 2048) (o : Fin 3072) :
    (W2 m c (Proc.devRef .tc main_v4) : S4096x3072.Idx → EReal) (ix2 (kvRow bb tt) o)
      = Cert.Spec.qkv (m ((c.tc : Thread nD τ).loc main_arg0)) (m ((c.tc : Thread nD τ).loc main_arg1)) (m ((c.tc : Thread nD τ).loc main_arg2)) bb tt o := by
  have e : W2 m c (Proc.devRef .tc main_v4) = (dat0 (F := Ideal) (V1 m) c).arrAt 3 cfg0.N := W2_arr m c 3
  rw [e]
  refine (h0 (kvRow bb tt) o).trans ?_
  unfold Cert.Spec.qkv
  refine congrArg₂ (· + ·) (Finset.sum_congr rfl fun k _ => ?_) (kv_v3_ix m c o)
  exact congrArg₂ (· * ·) (kv_v0_ix m c bb tt k) (kv_v2_ix m c k o)

/-- The kernel program's result array, given what the two regions' write-backs leave, is the specification. -/
theorem kernel_value
    (h0 : ∀ (r : Fin 4096) (o : Fin 3072),
        (dat0 (F := Ideal) (V1 m) c).arrAt 3 cfg0.N (ix2 r o : S4096x3072.Idx)
          = (∑ k : Fin 1024, kvX m c (ix2 r k) * kvW m c (ix2 k o)) + kvB m c (ix2 (0 : Fin 1) o))
    (h1 : (dat1 (F := Ideal) (V3 m) c).arrAt 3 cfg1.N
        = fun i : S2x2048x1024.Idx => Cert.Spec.attn (fun bb tt o => kvQ m c (ix3 bb tt o)) (i 0) (i 1)
            ⟨(i 2).val / 64, by have h : (i 2).val < 1024 := (i 2).isLt; omega⟩ ⟨(i 2).val % 64, Nat.mod_lt _ (by decide)⟩) :
    W4 m c (Proc.devRef .tc main_v6) = Cert.Spec.G (m ((c.tc : Thread nD τ).loc main_arg0)) (m ((c.tc : Thread nD τ).loc main_arg1)) (m ((c.tc : Thread nD τ).loc main_arg2)) := by
  have eQ : (fun (bb : Fin 2) (tt : Fin 2048) (o : Fin 3072) => kvQ m c (ix3 bb tt o))
      = Cert.Spec.qkv (m ((c.tc : Thread nD τ).loc main_arg0)) (m ((c.tc : Thread nD τ).loc main_arg1)) (m ((c.tc : Thread nD τ).loc main_arg2)) := by
    funext bb tt o
    rw [kv_v5_ix, kv_proj m c h0]
  rw [W4_main_v6, h1, eQ]
  rfl

end Cert.KernelIdeal.Hand

end
-- ==== Proof.lean ====
/-
  The kernel computes causal attention without a softmax in two kernel calls — a fused projection
  qkv = x · Wᵀ + b over 4096 rows, then, per batch row, pair of heads and block of 512 query rows, the sum over the
  key blocks on or below the diagonal of (mask ∘ relu)(q kᵀ / 8) · v, accumulated in a scratch buffer and stored once
  the last key block has been seen — and the reference computes the same with whole-array operations: one projection,
  the scores of every query row against every key row, the causal mask, one weighted sum.

  At the exact instance every change of float format is the identity and both programs' literals (1/8 and 0) are the
  same words, so both results are ONE function of the three arguments, `Cert.Spec.G`: the projection is the same sum
  of 1024 products plus the bias on both sides; a query row's weighted sum over all 2048 key rows is its sum over the
  four key blocks, and the blocks above the diagonal contribute nothing (every weight there is the zero word, and a
  product with zero is zero on the extended reals, so no finiteness is used); what the kernel skips is exactly those
  blocks.  The precondition is never opened.

  The frames: each kernel program is a host stretch, the projection region, a reshape and the attention region; each
  region's body is run symbolically on its staging buffers (the attention body in five cases of its three conditionals
  on the grid coordinates), the attention region's scratch carried from point to point by the region's invariant, its
  three input windows reading one array at a share each.  The reference is a straight line of host operations.
  `preserves` is trivial: the exact reading rewrote no operation of the kernel.
-/
import proofs.«108929_j43173011259799_2_alg».proof.Defs
import proofs.«108929_j43173011259799_2_alg».proof.Proof.Gen.Kernel
import proofs.«108929_j43173011259799_2_alg».proof.Proof.Gen.KernelIdeal
import proofs.«108929_j43173011259799_2_alg».proof.Proof.Gen.ReferenceIdeal
import proofs.«108929_j43173011259799_2_alg».proof.Proof.Gen.Pre_finite_inputs
import proofs.«108929_j43173011259799_2_alg».proof.Proof.KAssembly
import proofs.«108929_j43173011259799_2_alg».proof.Proof.Assembly
import proofs.«108929_j43173011259799_2_alg».proof.Proof.RefSide
import proofs.«108929_j43173011259799_2_alg».proof.Proof.Region0Value
import proofs.«108929_j43173011259799_2_alg».proof.Proof.R1Value
import proofs.«108929_j43173011259799_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_kernel : Cert.frame_Kernel := fun m ρ _ => Cert.Kernel.Hand.frame (F := Bits) m ρ

/-- So does its exact reading. -/
theorem frame_kernelIdeal : Cert.frame_KernelIdeal := fun m ρ _ => Cert.KernelIdeal.Hand.frame (F := Ideal) m ρ

/-- The reference's run, its result dropped. -/
theorem frame_referenceIdeal : Cert.frame_ReferenceIdeal := fun m ρ _ =>
  (θ_run Cert.ReferenceIdeal.defs _ _).mono (fun _ h c => (h c).2) (Cert.RefSide.run_spec m ρ)

/-- The exact reading rewrote nothing. -/
theorem preserves : Cert.preserves_Kernel_KernelIdeal := trivial

open Cert.KernelIdeal Cert.KernelIdeal.Hand in
/-- What the attention region's write-backs leave in the result array is `Cert.Spec.G` of the arguments: the
    projection region's output is the projection (`final0`), the attention region's is the attention of the array it
    reads (`final1`), and the host stretches between them only re-lay arrays (`kernel_value`). -/
theorem kernel_result (m : (ℓ : Loc Cert.KernelIdeal.nD Cert.KernelIdeal.τ Cert.KernelIdeal.sig) → Buf (Elt Ideal) ℓ) (c : Dev Cert.KernelIdeal.nD) :
    (dat1 (F := Ideal) (V3 m) c).arrAt 3 cfg1.N
      = Cert.Spec.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) :=
  (W4_main_v6 m c).symm.trans (kernel_value m c (final0_apply (V1 m) c) (final1 (V3 m) c))

/-- Both programs, from memories agreeing on the arguments, end with the result array at `Cert.Spec.G` of them. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_result m c), (h c).2⟩)
      (Cert.KernelIdeal.Hand.run_all (F := Ideal) m ρ)
  · refine (θ_run Cert.ReferenceIdeal.defs _ _).mono (fun _ h c => ⟨?_, (h c).2⟩) (Cert.RefSide.run_spec m' ρ')
    rw [(h c).1, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
